-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S1024x256 : Shape := ⟨2, ![1024, 256]⟩
abbrev S256x1 : Shape := ⟨2, ![256, 1]⟩
abbrev S256x16 : Shape := ⟨2, ![256, 16]⟩
abbrev S16x1 : Shape := ⟨2, ![16, 1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x256 : S_.BroadcastsInDim S1024x256 (![] : Fin 0 → Fin S1024x256.rank)
  reducesTo_S1024x256_S_d0_1 : S1024x256.ReducesTo [0, 1] S_
  bcast_S_S256x1 : S_.BroadcastsInDim S256x1 (![] : Fin 0 → Fin S256x1.rank)
  reducesTo_S256x1_S_d0_1 : S256x1.ReducesTo [0, 1] S_
  bcast_S_S256x16 : S_.BroadcastsInDim S256x16 (![] : Fin 0 → Fin S256x16.rank)
  reducesTo_S256x16_S_d0_1 : S256x16.ReducesTo [0, 1] S_
  bcast_S_S16x1 : S_.BroadcastsInDim S16x1 (![] : Fin 0 → Fin S16x1.rank)
  reducesTo_S16x1_S_d0_1 : S16x1.ReducesTo [0, 1] S_

variable [Facts]

def fn_part2 {F : FTy → Type} [FloatOps F] (main_arg7 : FVec F S16x1 .f32) (main_arg8 : FVec F S16x1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S16x1 .f32 := Host.absf main_arg8
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  main_v43

def fn_part1 {F : FTy → Type} [FloatOps F] (main_arg4 : FVec F S256x1 .f32) (main_arg5 : FVec F S256x1 .f32) (main_arg6 : FVec F S256x16 .f32) (main_arg7 : FVec F S16x1 .f32) (main_arg8 : FVec F S16x1 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S256x16 .f32 := Host.absf main_arg6
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x4096 .f32) (main_arg2 : FVec F S4096x4096 .f32) (main_arg3 : FVec F S1024x256 .f32) (main_arg4 : FVec F S256x1 .f32) (main_arg5 : FVec F S256x1 .f32) (main_arg6 : FVec F S256x16 .f32) (main_arg7 : FVec F S16x1 .f32) (main_arg8 : FVec F S16x1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096x4096 : Shape := ⟨2, ![4096, 4096]⟩
abbrev S1024x256 : Shape := ⟨2, ![1024, 256]⟩
abbrev S256x1 : Shape := ⟨2, ![256, 1]⟩
abbrev S256x16 : Shape := ⟨2, ![256, 16]⟩
abbrev S16x1 : Shape := ⟨2, ![16, 1]⟩
abbrev S4096x256 : Shape := ⟨2, ![4096, 256]⟩
abbrev S512x1024 : Shape := ⟨2, ![512, 1024]⟩
abbrev S512x256 : Shape := ⟨2, ![512, 256]⟩
abbrev S128x4096 : Shape := ⟨2, ![128, 4096]⟩
abbrev S128x256 : Shape := ⟨2, ![128, 256]⟩
abbrev S4096x1 : Shape := ⟨2, ![4096, 1]⟩
abbrev S1x4096 : Shape := ⟨2, ![1, 4096]⟩
abbrev S128x1 : Shape := ⟨2, ![128, 1]⟩
abbrev S128 : Shape := ⟨1, ![128]⟩
abbrev S4096x16 : Shape := ⟨2, ![4096, 16]⟩
abbrev S512x16 : Shape := ⟨2, ![512, 16]⟩
abbrev S128x16 : Shape := ⟨2, ![128, 16]⟩
abbrev S_ : Shape := ⟨0, ![]⟩
abbrev S4096 : Shape := ⟨1, ![4096]⟩
abbrev S1024x1024 : Shape := ⟨2, ![1024, 1024]⟩
abbrev S1024x16 : Shape := ⟨2, ![1024, 16]⟩
abbrev S16x1024 : Shape := ⟨2, ![16, 1024]⟩

abbrev nBuf : Space → Nat
  | .hbm => 25
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S1024x256, .f32⟩
  | .hbm, ⟨4, _⟩ => ⟨S256x1, .f32⟩
  | .hbm, ⟨5, _⟩ => ⟨S256x1, .f32⟩
  | .hbm, ⟨6, _⟩ => ⟨S256x16, .f32⟩
  | .hbm, ⟨7, _⟩ => ⟨S16x1, .f32⟩
  | .hbm, ⟨8, _⟩ => ⟨S16x1, .f32⟩
  | .hbm, ⟨9, _⟩ => ⟨S4096x256, .f32⟩
  | .hbm, ⟨10, _⟩ => ⟨S4096x256, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x16, .f32⟩
  | .hbm, ⟨23, _⟩ => ⟨S4096x16, .f32⟩
  | .hbm, ⟨24, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S512x256, .f32⟩
  | .local _ .vmem, ⟨4, _⟩ => ⟨S512x256, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S4096x256, .f32⟩
  | .local _ .vmem, ⟨10, _⟩ => ⟨S256x1, .f32⟩
  | .local _ .vmem, ⟨11, _⟩ => ⟨S256x1, .f32⟩
  | .local _ .vmem, ⟨12, _⟩ => ⟨S128x256, .f32⟩
  | .local _ .vmem, ⟨13, _⟩ => ⟨S128x256, .f32⟩
  | .local _ .vmem, ⟨14, _⟩ => ⟨S512x256, .f32⟩
  | .local _ .vmem, ⟨15, _⟩ => ⟨S512x256, .f32⟩
  | .local _ .vmem, ⟨16, _⟩ => ⟨S256x16, .f32⟩
  | .local _ .vmem, ⟨17, _⟩ => ⟨S512x16, .f32⟩
  | .local _ .vmem, ⟨18, _⟩ => ⟨S512x16, .f32⟩
  | .local _ .vmem, ⟨19, _⟩ => ⟨S128x4096, .f32⟩
  | .local _ .vmem, ⟨20, _⟩ => ⟨S128x4096, .f32⟩
  | .local _ .vmem, ⟨21, _⟩ => ⟨S128x4096, .f32⟩
  | .local _ .vmem, ⟨22, _⟩ => ⟨S128x4096, .f32⟩
  | .local _ .vmem, ⟨23, _⟩ => ⟨S4096x16, .f32⟩
  | .local _ .vmem, ⟨24, _⟩ => ⟨S16x1, .f32⟩
  | .local _ .vmem, ⟨25, _⟩ => ⟨S16x1, .f32⟩
  | .local _ .vmem, ⟨26, _⟩ => ⟨S128x16, .f32⟩
  | .local _ .vmem, ⟨27, _⟩ => ⟨S128x16, .f32⟩
  | .local _ .vmem, ⟨28, _⟩ => ⟨S4096x16, .f32⟩
  | .local _ .vmem, ⟨29, _⟩ => ⟨S1024x1024, .f32⟩
  | .local _ .vmem, ⟨30, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v4 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem1_0 : DmaSem sig := 29
abbrev cc4_sem1_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c128_i32 : BitVec 32 := 128#32
  let v7 : BitVec 32 := Scalar.muli arg0 c128_i32
  v7
def k1_off1 (i : grid1.Coords) : Fin 2 → Nat :=
  let arg0 : BitVec 32 := BitVec.ofNat 32 (i 0).val
  let c128_i32 : BitVec 32 := 128#32
  let v7 : BitVec 32 := Scalar.muli arg0 c128_i32
  let v8 : BitVec 32 := v7
  let v9 : Index := Scalar.indexCast v8
  let c0_3 : Index := 0#32
  ![v9.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def k3_mult1 (i : grid3.Coords) : BitVec 32 :=
  let arg0 : BitVec 32 := BitVec.ofNat 32 (i 0).val
  let c128_i32 : BitVec 32 := 128#32
  let v7 : BitVec 32 := Scalar.muli arg0 c128_i32
  v7
def k3_off1 (i : grid3.Coords) : Fin 2 → Nat :=
  let arg0 : BitVec 32 := BitVec.ofNat 32 (i 0).val
  let c128_i32 : BitVec 32 := 128#32
  let v7 : BitVec 32 := Scalar.muli arg0 c128_i32
  let v8 : BitVec 32 := v7
  let v9 : Index := Scalar.indexCast v8
  let c0_3 : Index := 0#32
  ![v9.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S128x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![4, 4], ![false, false]⟩

def k4_mult1 (i : grid4.Coords) : BitVec 32 :=
  let arg0 : BitVec 32 := BitVec.ofNat 32 (i 0).val
  let c1024_i32 : BitVec 32 := 1024#32
  let v0 : BitVec 32 := Scalar.muli arg0 c1024_i32
  v0
def k4_mult2 (i : grid4.Coords) : BitVec 32 :=
  let arg1 : BitVec 32 := BitVec.ofNat 32 (i 1).val
  let c1024_i32_0 : BitVec 32 := 1024#32
  let v2 : BitVec 32 := Scalar.muli arg1 c1024_i32_0
  v2
def k4_off1 (i : grid4.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k4_off2 (i : grid4.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v8 : Index := Scalar.indexCast v3
  let c0_1 : Index := 0#32
  ![v8.toNat, 0]
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S4096x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x1_S256x1_0_0 : ∀ a, (![0, 0] : Fin 2 → Nat) a + S256x1.size a ≤ S256x1.size a
  h_S256x1 : 0 < S256x1.numel
  transposes_S4096x1_p1_0_S1x4096 : S4096x1.Transposes [1, 0] S1x4096
  h_S128x256 : 0 < S128x256.numel
  shapeCasts_S128x256_S128x256 : S128x256.ShapeCasts S128x256
  broadcasts_S128x1_S128x4096 : S128x1.Broadcasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  inb_S128x256_S128x256_0_0 : ∀ a, (![0, 0] : Fin 2 → Nat) a + S128x256.size a ≤ S128x256.size a
  shapeCasts_S512x256_S512x256 : S512x256.ShapeCasts S512x256
  inb_S256x16_S256x16_0_0 : ∀ a, (![0, 0] : Fin 2 → Nat) a + S256x16.size a ≤ S256x16.size a
  h_S256x16 : 0 < S256x16.numel
  inb_S512x16_S512x16_0_0 : ∀ a, (![0, 0] : Fin 2 → Nat) a + S512x16.size a ≤ S512x16.size a
  h_S512x16 : 0 < S512x16.numel
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16x1_S16x1_0_0 : ∀ a, (![0, 0] : Fin 2 → Nat) a + S16x1.size a ≤ S16x1.size a
  h_S16x1 : 0 < S16x1.numel
  h_S128x16 : 0 < S128x16.numel
  shapeCasts_S128x16_S128x16 : S128x16.ShapeCasts S128x16
  inb_S128x16_S128x16_0_0 : ∀ a, (![0, 0] : Fin 2 → Nat) a + S128x16.size a ≤ S128x16.size a
  reducesTo_S4096x16_S4096_d1 : S4096x16.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16_0_1 : S4096x1.BroadcastsInDim S4096x16 (![0, 1] : Fin 2 → Fin S4096x16.rank)
  h_S1024x16 : 0 < S1024x16.numel
  shapeCasts_S1024x16_S1024x16 : S1024x16.ShapeCasts S1024x16
  transposes_S1024x16_p1_0_S16x1024 : S1024x16.Transposes [1, 0] S16x1024
  inb_S1024x1024_S1024x1024_0_0 : ∀ a, (![0, 0] : Fin 2 → Nat) a + S1024x1024.size a ≤ S1024x1024.size a
  h_S1024x1024 : 0 < S1024x1024.numel
  dot_S512x1024_S1024x256_S512x256_1_0_0_1_n_n_wf : DotDims.WF S512x1024 S1024x256 S512x256 [1] [0] [0] [1] [] []
  dot_S4096x256_S256x1_S4096x1_1_0_0_1_n_n_wf : DotDims.WF S4096x256 S256x1 S4096x1 [1] [0] [0] [1] [] []
  dot_S128x256_S256x1_S128x1_1_0_0_1_n_n_wf : DotDims.WF S128x256 S256x1 S128x1 [1] [0] [0] [1] [] []
  dot_S128x4096_S4096x256_S128x256_1_0_0_1_n_n_wf : DotDims.WF S128x4096 S4096x256 S128x256 [1] [0] [0] [1] [] []
  dot_S512x256_S256x16_S512x16_1_0_0_1_n_n_wf : DotDims.WF S512x256 S256x16 S512x16 [1] [0] [0] [1] [] []
  dot_S4096x16_S16x1_S4096x1_1_0_0_1_n_n_wf : DotDims.WF S4096x16 S16x1 S4096x1 [1] [0] [0] [1] [] []
  dot_S128x16_S16x1_S128x1_1_0_0_1_n_n_wf : DotDims.WF S128x16 S16x1 S128x1 [1] [0] [0] [1] [] []
  dot_S128x4096_S4096x16_S128x16_1_0_0_1_n_n_wf : DotDims.WF S128x4096 S4096x16 S128x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S128x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S4096x4096.size a
  hwx1_1 : ∀ i : grid1.Coords, EltTy.bits .f32 = 32 ∨ (Rect.block (s := S4096x4096) S128x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .f32 = 32 ∨ (Rect.block (s := S4096x256) S4096x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S4096x256.size a
  hwx1_5 : ∀ i : grid1.Coords, EltTy.bits .f32 = 32 ∨ (Rect.block (s := S4096x256) S128x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x16.size a ≤ S256x16.size a
  hwx2_1 : ∀ i : grid2.Coords, EltTy.bits .f32 = 32 ∨ (Rect.block (s := S256x16) S256x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x16.size a ≤ S4096x16.size a
  hwx2_2 : ∀ i : grid2.Coords, EltTy.bits .f32 = 32 ∨ (Rect.block (s := S4096x16) S512x16.size (cc2_transform_2 i) (hinb2_2 i)).WholeWords (EltTy.packing .f32)
  hrank3 : 0 < grid3.rank
  k3_mult1_dvd : ∀ i : grid3.Coords, 128 ∣ (k3_mult1 i).toNat
  k3_off1_inb : ∀ i : grid3.Coords, ∀ a, (k3_off1 i) a + S128x16.size a ≤ S4096x16.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x4096.size a ≤ S4096x4096.size a
  hwx3_0 : ∀ i : grid3.Coords, EltTy.bits .f32 = 32 ∨ (Rect.block (s := S4096x4096) S128x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x4096.size a ≤ S4096x4096.size a
  hwx3_1 : ∀ i : grid3.Coords, EltTy.bits .f32 = 32 ∨ (Rect.block (s := S4096x4096) S128x4096.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x16.size a ≤ S4096x16.size a
  hwx3_2 : ∀ i : grid3.Coords, EltTy.bits .f32 = 32 ∨ (Rect.block (s := S4096x16) S4096x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x1.size a ≤ S16x1.size a
  hwx3_3 : ∀ i : grid3.Coords, EltTy.bits .f32 = 32 ∨ (Rect.block (s := S16x1) S16x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x1.size a ≤ S16x1.size a
  hwx3_4 : ∀ i : grid3.Coords, EltTy.bits .f32 = 32 ∨ (Rect.block (s := S16x1) S16x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S128x16.size a ≤ S4096x16.size a
  hwx3_5 : ∀ i : grid3.Coords, EltTy.bits .f32 = 32 ∨ (Rect.block (s := S4096x16) S128x16.size (cc3_transform_5 i) (hinb3_5 i)).WholeWords (EltTy.packing .f32)
  hrank4 : 0 < grid4.rank
  k4_mult1_dvd : ∀ i : grid4.Coords, 1024 ∣ (k4_mult1 i).toNat
  k4_mult2_dvd : ∀ i : grid4.Coords, 1024 ∣ (k4_mult2 i).toNat
  k4_off1_inb : ∀ i : grid4.Coords, ∀ a, (k4_off1 i) a + S1024x16.size a ≤ S4096x16.size a
  k4_off2_inb : ∀ i : grid4.Coords, ∀ a, (k4_off2 i) a + S1024x16.size a ≤ S4096x16.size a
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S4096x16.size a ≤ S4096x16.size a
  hwx4_0 : ∀ i : grid4.Coords, EltTy.bits .f32 = 32 ∨ (Rect.block (s := S4096x16) S4096x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x4096.size a
  hwx4_1 : ∀ i : grid4.Coords, EltTy.bits .f32 = 32 ∨ (Rect.block (s := S4096x4096) S1024x1024.size (cc4_transform_1 i) (hinb4_1 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf
def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S128x16_S16x1_S128x1_1_0_0_1_n_n : DotDims S128x16 S16x1 S128x1 where
  lhsContracting := [1]
  rhsContracting := [0]
  lhsNonContracting := [0]
  rhsNonContracting := [1]
  lhsBatch := []
  rhsBatch := []
  wf := dot_S128x16_S16x1_S128x1_1_0_0_1_n_n_wf
def dot_S128x4096_S4096x16_S128x16_1_0_0_1_n_n : DotDims S128x4096 S4096x16 S128x16 where
  lhsContracting := [1]
  rhsContracting := [0]
  lhsNonContracting := [0]
  rhsNonContracting := [1]
  lhsBatch := []
  rhsBatch := []
  wf := dot_S128x4096_S4096x16_S128x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S128x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S128x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S4096x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S16x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S16x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v3) S128x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v7) S4096x16.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1024x1024.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x256 : Shape := ⟨2, ![1024, 256]⟩
abbrev S256x1 : Shape := ⟨2, ![256, 1]⟩
abbrev S256x16 : Shape := ⟨2, ![256, 16]⟩
abbrev S16x1 : Shape := ⟨2, ![16, 1]⟩
abbrev S4096x256 : Shape := ⟨2, ![4096, 256]⟩
abbrev S4096x1 : Shape := ⟨2, ![4096, 1]⟩
abbrev S1x4096 : Shape := ⟨2, ![1, 4096]⟩
abbrev S_ : Shape := ⟨0, ![]⟩
abbrev S4096 : Shape := ⟨1, ![4096]⟩
abbrev S4096x16 : Shape := ⟨2, ![4096, 16]⟩
abbrev S16x4096 : Shape := ⟨2, ![16, 4096]⟩

abbrev nBuf : Space → Nat
  | .hbm => 136
  | .vmem => 0
  | .smem => 0
  | _ => 0

abbrev hbmTy0_0 (i : Nat) : BufTy := match i % 128 with
  | 0 => ⟨S4096x1024, .f32⟩
  | 1 => ⟨S4096x4096, .f32⟩
  | 2 => ⟨S4096x4096, .f32⟩
  | 3 => ⟨S1024x256, .f32⟩
  | 4 => ⟨S256x1, .f32⟩
  | 5 => ⟨S256x1, .f32⟩
  | 6 => ⟨S256x16, .f32⟩
  | 7 => ⟨S16x1, .f32⟩
  | 8 => ⟨S16x1, .f32⟩
  | 9 => ⟨S4096x256, .f32⟩
  | 10 => ⟨S4096x1, .f32⟩
  | 11 => ⟨S4096x1, .f32⟩
  | 12 => ⟨S1x4096, .f32⟩
  | 13 => ⟨S4096x4096, .f32⟩
  | 14 => ⟨S4096x4096, .f32⟩
  | 15 => ⟨S4096x4096, .f32⟩
  | 16 => ⟨S4096x4096, .f32⟩
  | 17 => ⟨S_, .f32⟩
  | 18 => ⟨S_, .f32⟩
  | 19 => ⟨S4096x4096, .f32⟩
  | 20 => ⟨S4096x4096, .i1⟩
  | 21 => ⟨S_, .f32⟩
  | 22 => ⟨S4096x4096, .f32⟩
  | 23 => ⟨S4096x4096, .f32⟩
  | 24 => ⟨S4096x4096, .f32⟩
  | 25 => ⟨S_, .f32⟩
  | 26 => ⟨S4096x4096, .f32⟩
  | 27 => ⟨S4096x4096, .i1⟩
  | 28 => ⟨S_, .f32⟩
  | 29 => ⟨S_, .f32⟩
  | 30 => ⟨S4096x4096, .f32⟩
  | 31 => ⟨S4096x4096, .f32⟩
  | 32 => ⟨S_, .f32⟩
  | 33 => ⟨S4096, .f32⟩
  | 34 => ⟨S_, .f32⟩
  | 35 => ⟨S4096, .f32⟩
  | 36 => ⟨S4096, .f32⟩
  | 37 => ⟨S4096x1, .f32⟩
  | 38 => ⟨S4096x4096, .f32⟩
  | 39 => ⟨S4096x4096, .f32⟩
  | 40 => ⟨S4096x4096, .f32⟩
  | 41 => ⟨S_, .f32⟩
  | 42 => ⟨S4096, .f32⟩
  | 43 => ⟨S4096x1, .f32⟩
  | 44 => ⟨S4096x4096, .f32⟩
  | 45 => ⟨S4096x4096, .f32⟩
  | 46 => ⟨S4096x256, .f32⟩
  | 47 => ⟨S_, .f32⟩
  | 48 => ⟨S4096x256, .f32⟩
  | 49 => ⟨S4096x256, .i1⟩
  | 50 => ⟨S_, .f32⟩
  | 51 => ⟨S4096x256, .f32⟩
  | 52 => ⟨S4096x256, .i1⟩
  | 53 => ⟨S_, .f32⟩
  | 54 => ⟨S_, .f32⟩
  | 55 => ⟨S4096x256, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S4096x256, .f32⟩
  | 62 => ⟨S4096x16, .f32⟩
  | 63 => ⟨S4096x1, .f32⟩
  | 64 => ⟨S4096x1, .f32⟩
  | 65 => ⟨S1x4096, .f32⟩
  | 66 => ⟨S4096x4096, .f32⟩
  | 67 => ⟨S4096x4096, .f32⟩
  | 68 => ⟨S4096x4096, .f32⟩
  | 69 => ⟨S4096x4096, .f32⟩
  | 70 => ⟨S_, .f32⟩
  | 71 => ⟨S_, .f32⟩
  | 72 => ⟨S4096x4096, .f32⟩
  | 73 => ⟨S4096x4096, .i1⟩
  | 74 => ⟨S_, .f32⟩
  | 75 => ⟨S4096x4096, .f32⟩
  | 76 => ⟨S4096x4096, .f32⟩
  | 77 => ⟨S4096x4096, .f32⟩
  | 78 => ⟨S_, .f32⟩
  | 79 => ⟨S4096x4096, .f32⟩
  | 80 => ⟨S4096x4096, .i1⟩
  | 81 => ⟨S_, .f32⟩
  | 82 => ⟨S_, .f32⟩
  | 83 => ⟨S4096x4096, .f32⟩
  | 84 => ⟨S4096x4096, .f32⟩
  | 85 => ⟨S_, .f32⟩
  | 86 => ⟨S4096, .f32⟩
  | 87 => ⟨S_, .f32⟩
  | 88 => ⟨S4096, .f32⟩
  | 89 => ⟨S4096, .f32⟩
  | 90 => ⟨S4096x1, .f32⟩
  | 91 => ⟨S4096x4096, .f32⟩
  | 92 => ⟨S4096x4096, .f32⟩
  | 93 => ⟨S4096x4096, .f32⟩
  | 94 => ⟨S_, .f32⟩
  | 95 => ⟨S4096, .f32⟩
  | 96 => ⟨S4096x1, .f32⟩
  | 97 => ⟨S4096x4096, .f32⟩
  | 98 => ⟨S4096x4096, .f32⟩
  | 99 => ⟨S4096x16, .f32⟩
  | 100 => ⟨S_, .f32⟩
  | 101 => ⟨S4096x16, .f32⟩
  | 102 => ⟨S4096x16, .i1⟩
  | 103 => ⟨S_, .f32⟩
  | 104 => ⟨S4096x16, .f32⟩
  | 105 => ⟨S4096x16, .i1⟩
  | 106 => ⟨S_, .f32⟩
  | 107 => ⟨S_, .f32⟩
  | 108 => ⟨S4096x16, .f32⟩
  | 109 => ⟨S4096x16, .f32⟩
  | 110 => ⟨S4096x16, .f32⟩
  | 111 => ⟨S_, .f32⟩
  | 112 => ⟨S4096x16, .f32⟩
  | 113 => ⟨S4096x16, .f32⟩
  | 114 => ⟨S4096x16, .f32⟩
  | 115 => ⟨S4096x16, .f32⟩
  | 116 => ⟨S_, .f32⟩
  | 117 => ⟨S4096, .f32⟩
  | 118 => ⟨S4096x1, .f32⟩
  | 119 => ⟨S4096x1, .f32⟩
  | 120 => ⟨S_, .f32⟩
  | 121 => ⟨S_, .f32⟩
  | 122 => ⟨S4096x1, .f32⟩
  | 123 => ⟨S4096x1, .f32⟩
  | 124 => ⟨S4096x16, .f32⟩
  | 125 => ⟨S4096x16, .f32⟩
  | 126 => ⟨S16x4096, .f32⟩
  | 127 => ⟨S4096x4096, .f32⟩
  | _ => ⟨S4096x1024, .f32⟩

abbrev hbmTy0_1 (i : Nat) : BufTy := match i % 128 with
  | 0 => ⟨S4096x4096, .f32⟩
  | 1 => ⟨S4096x4096, .f32⟩
  | 2 => ⟨S_, .f32⟩
  | 3 => ⟨S4096x4096, .f32⟩
  | 4 => ⟨S4096x4096, .f32⟩
  | 5 => ⟨S_, .f32⟩
  | 6 => ⟨S4096x4096, .f32⟩
  | 7 => ⟨S4096x4096, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_call2_cst_1 : Ref sig .tc := ⟨.hbm, 53, rfl⟩
abbrev main_call2_call0_v0 : Ref sig .tc := ⟨.hbm, 54, rfl⟩
abbrev main_call2_call0_v1 : Ref sig .tc := ⟨.hbm, 55, rfl⟩
abbrev main_call2_v4 : Ref sig .tc := ⟨.hbm, 56, rfl⟩
abbrev main_call2_v5 : Ref sig .tc := ⟨.hbm, 57, rfl⟩
abbrev main_call2_cst_2 : Ref sig .tc := ⟨.hbm, 58, rfl⟩
abbrev main_call2_v6 : Ref sig .tc := ⟨.hbm, 59, rfl⟩
abbrev main_call2_v7 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_call3_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v33 : Ref sig .tc := ⟨.hbm, 77, rfl⟩
abbrev main_cst_6 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_call4_v0 : Ref sig .tc := ⟨.hbm, 82, rfl⟩
abbrev main_call4_v1 : Ref sig .tc := ⟨.hbm, 83, rfl⟩
abbrev main_v36 : Ref sig .tc := ⟨.hbm, 84, rfl⟩
abbrev main_cst_8 : Ref sig .tc := ⟨.hbm, 85, rfl⟩
abbrev main_v37 : Ref sig .tc := ⟨.hbm, 86, rfl⟩
abbrev main_cst_9 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_10 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_call5_cst : Ref sig .tc := ⟨.hbm, 100, rfl⟩
abbrev main_call5_v0 : Ref sig .tc := ⟨.hbm, 101, rfl⟩
abbrev main_call5_v1 : Ref sig .tc := ⟨.hbm, 102, rfl⟩
abbrev main_call5_cst_0 : Ref sig .tc := ⟨.hbm, 103, rfl⟩
abbrev main_call5_v2 : Ref sig .tc := ⟨.hbm, 104, rfl⟩
abbrev main_call5_v3 : Ref sig .tc := ⟨.hbm, 105, rfl⟩
abbrev main_call5_cst_1 : Ref sig .tc := ⟨.hbm, 106, rfl⟩
abbrev main_call5_call0_v0 : Ref sig .tc := ⟨.hbm, 107, rfl⟩
abbrev main_call5_call0_v1 : Ref sig .tc := ⟨.hbm, 108, rfl⟩
abbrev main_call5_v4 : Ref sig .tc := ⟨.hbm, 109, rfl⟩
abbrev main_call5_v5 : Ref sig .tc := ⟨.hbm, 110, rfl⟩
abbrev main_call5_cst_2 : Ref sig .tc := ⟨.hbm, 111, rfl⟩
abbrev main_call5_v6 : Ref sig .tc := ⟨.hbm, 112, rfl⟩
abbrev main_call5_v7 : Ref sig .tc := ⟨.hbm, 113, rfl⟩
abbrev main_v49 : Ref sig .tc := ⟨.hbm, 114, rfl⟩
abbrev main_call6_v0 : Ref sig .tc := ⟨.hbm, 115, rfl⟩
abbrev main_call6_cst : Ref sig .tc := ⟨.hbm, 116, rfl⟩
abbrev main_call6_v1 : Ref sig .tc := ⟨.hbm, 117, rfl⟩
abbrev main_call6_v2 : Ref sig .tc := ⟨.hbm, 118, rfl⟩
abbrev main_v50 : Ref sig .tc := ⟨.hbm, 119, rfl⟩
abbrev main_cst_11 : Ref sig .tc := ⟨.hbm, 120, rfl⟩
abbrev main_call7_v0 : Ref sig .tc := ⟨.hbm, 121, rfl⟩
abbrev main_call7_v1 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_cst_12 : Ref sig .tc := ⟨.hbm, 130, rfl⟩
abbrev main_v58 : Ref sig .tc := ⟨.hbm, 131, rfl⟩
abbrev main_v59 : Ref sig .tc := ⟨.hbm, 132, rfl⟩
abbrev main_cst_13 : Ref sig .tc := ⟨.hbm, 133, rfl⟩
abbrev main_v60 : Ref sig .tc := ⟨.hbm, 134, rfl⟩
abbrev main_v61 : Ref sig .tc := ⟨.hbm, 135, rfl⟩

abbrev nD : Nat := 1
abbrev τ : Topo := Topo.v7x

variable {F : FTy → Type} [FloatOps F]

class Facts₀ : Prop where
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x256 : S_.BroadcastsInDim S4096x256 (![] : Fin 0 → Fin S4096x256.rank)
  bcast_S_S4096x16 : S_.BroadcastsInDim S4096x16 (![] : Fin 0 → Fin S4096x16.rank)
  reducesTo_S4096x16_S4096_d1 : S4096x16.ReducesTo [1] S4096
  bcast_S_S4096x1 : S_.BroadcastsInDim S4096x1 (![] : Fin 0 → Fin S4096x1.rank)
  bcast_S4096x1_S4096x16_0_1 : S4096x1.BroadcastsInDim S4096x16 (![0, 1] : Fin 2 → Fin S4096x16.rank)
  transposes_S4096x16_S16x4096_1_0 : S4096x16.Transposes [1, 0] S16x4096
  dot_S4096x1024_S1024x256_S4096x256_1_0_0_1_n_n_wf : DotDims.WF S4096x1024 S1024x256 S4096x256 [1] [0] [0] [1] [] []
  dot_S4096x256_S256x1_S4096x1_1_0_0_1_n_n_wf : DotDims.WF S4096x256 S256x1 S4096x1 [1] [0] [0] [1] [] []
  dot_S4096x4096_S4096x256_S4096x256_1_0_0_1_n_n_wf : DotDims.WF S4096x4096 S4096x256 S4096x256 [1] [0] [0] [1] [] []
  dot_S4096x256_S256x16_S4096x16_1_0_0_1_n_n_wf : DotDims.WF S4096x256 S256x16 S4096x16 [1] [0] [0] [1] [] []
  dot_S4096x16_S16x1_S4096x1_1_0_0_1_n_n_wf : DotDims.WF S4096x16 S16x1 S4096x1 [1] [0] [0] [1] [] []
  dot_S4096x4096_S4096x16_S4096x16_1_0_0_1_n_n_wf : DotDims.WF S4096x4096 S4096x16 S4096x16 [1] [0] [0] [1] [] []
  dot_S4096x16_S16x4096_S4096x4096_1_0_0_1_n_n_wf : DotDims.WF S4096x16 S16x4096 S4096x4096 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.KernelRun.lean ====
import proofs.«144369_j73821897883963_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option backward.isDefEq.respectTransparency.types false in
/-- The whole run with its results named: from any memory with zero counters, every weakly fair execution of the
    program on the cores terminates without fault, and in every final state the two result buffers hold the last
    boundary's contents `W9` while the nine argument buffers hold what they were launched with. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v8) = Gen.W9 m ρ c (Proc.devRef .tc main_v8)
      ∧ r.2.mem ((c.tc : Thread nD τ).loc main_v7) = Gen.W9 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v8 (by decide)),
       h c _ (mem_uc main_v7 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.NamedRun

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Region0.lean ====
/-
  The first matrix-product region of the idealized kernel, read as a value: whatever the buffers hold when the region
  is entered, its result array ends as the matrix product of the left array (4096 × 1024) and the right array
  (1024 × 256). The grid's 8 points each load 512 rows of the left array and all of the right array, store the product
  of the two loaded blocks (the narrowing of the operands is the identity on extended reals; the accumulator starts at
  zero), and write the stored block back to the same 512 rows of the result. The row blocks tile the result array.
-/
import proofs.«144369_j73821897883963_1_alg».proof.Proof.Gen.KernelIdeal.Frame
import proofs.«144369_j73821897883963_1_alg».proof.Proof.LibPlainDot
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The matrix product of two arrays, entry by entry. -/
def mm (A : S4096x1024.Idx → EReal) (B : S1024x256.Idx → EReal) : S4096x256.Idx → EReal :=
  fun i => ∑ k : Fin 1024, A (ix2 (i 0) k) * B (ix2 k (i 1))

/-- Its entry at row `P`, column `q`. -/
theorem mm_apply (A : S4096x1024.Idx → EReal) (B : S1024x256.Idx → EReal) (P : Fin 4096) (q : Fin 256) :
    mm A B (ix2 P q) = ∑ k : Fin 1024, A (ix2 P k) * B (ix2 k q) := rfl

/-- What the body stores, at an entry of the block: the product of the two loaded blocks there. -/
theorem pay_apply (x0 : Vec Ideal S512x1024 .f32) (x1 : Vec Ideal S1024x256 .f32) (p : Fin 512) (q : Fin 256) :
    k0_pay1 x0 x1 (ix2 p q) = ∑ k : Fin 1024, x0 (ix2 p k) * x1 (ix2 k q) := by
  unfold k0_pay1
  exact Cert.Lib.PlainDot.matmul_zero_apply (M := 512) (K := 1024) (N := 256) none
    (truncf .bf16 x0 bitsLt_bf16_f32) (truncf .bf16 x1 bitsLt_bf16_f32) p q

/-- The printed index maps over the grid: the row blocks of the left operand and of the result move with the point,
    the right operand's one block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `512 t … 512 t + 511` of its array. -/
theorem iblk_lhs (c : Dev nD) (t : Fin cfg0.N) (p : Fin 512) (k : Fin 1024) (P : Fin 4096) (hP : P.val = t.val * 512 + p.val) :
    (iblk0 V c 0 t : Vec Ideal S512x1024 .f32) (ix2 p k) = (V c main_arg0 : S4096x1024.Idx → EReal) (ix2 P k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 512 + 1 * p.val = P.val; rw [e0, hP]; omega
  | ⟨1, _⟩ => show win0_0.index t 1 * 1024 + 1 * k.val = k.val; rw [e1]; omega

/-- The right operand's block at every point is its whole array. -/
theorem iblk_rhs (c : Dev nD) (t : Fin cfg0.N) (k : Fin 1024) (q : Fin 256) :
    (iblk0 V c 1 t : Vec Ideal S1024x256 .f32) (ix2 k q) = (V c main_arg3 : S1024x256.Idx → EReal) (ix2 k q) := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 1024 + 1 * k.val = k.val; rw [e2]; omega
  | ⟨1, _⟩ => show win0_1.index t 1 * 256 + 1 * q.val = q.val; rw [e3]; omega

/-- A stored block is a block of the product: entry `y` of the block stored at row offset `512 n` is the product's
    entry at row `512 n + y₀`, column `y₁`, once the loaded blocks are those rows of the left array and all of the right. -/
theorem blk_entry (A : S4096x1024.Idx → EReal) (B : S1024x256.Idx → EReal)
    (x0 : Vec Ideal S512x1024 .f32) (x1 : Vec Ideal S1024x256 .f32) (n : Nat)
    (h0 : ∀ (p : Fin 512) (k : Fin 1024) (P : Fin 4096), P.val = n * 512 + p.val → x0 (ix2 p k) = A (ix2 P k))
    (h1 : ∀ (k : Fin 1024) (q : Fin 256), x1 (ix2 k q) = B (ix2 k q))
    (y : S512x256.Idx) (i : S4096x256.Idx) (hi0 : (i 0).val = n * 512 + (y 0).val) (hi1 : (i 1).val = (y 1).val) :
    k0_pay1 x0 x1 y = mm A B i := by
  have hy : y = ix2 (⟨(y 0).val, idx2_lt0 y⟩ : Fin 512) (⟨(y 1).val, idx2_lt1 y⟩ : Fin 256) := by
    funext a; match a with | ⟨0, _⟩ => rfl | ⟨1, _⟩ => rfl
  refine (congrArg (k0_pay1 x0 x1) hy).trans ((pay_apply x0 x1 _ _).trans ?_)
  unfold mm
  refine Finset.sum_congr rfl fun k _ => ?_
  have e : (⟨(y 1).val, idx2_lt1 y⟩ : Fin 256) = i 1 := Fin.ext hi1.symm
  exact congrArg₂ (· * ·) (h0 ⟨(y 0).val, idx2_lt0 y⟩ k (i 0) hi0)
    ((h1 k _).trans (congrArg (fun z : Fin 256 => B (ix2 k z)) e))

/-- What point `t` writes back is block `t` of the product of the two arrays as the region finds them. -/
theorem flushed_eq (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x256) hz]
  obtain ⟨-, -, -, -, e4, e5⟩ := idx_facts t
  funext j
  show k0_pay1 (iblk0 V c 0 t) (iblk0 V c 1 t) ((cfg0.win 2).xinj (grid0.coords t) j)
    = mm (V c main_arg0) (V c main_arg3) (((cfg0.win 2).blk t).view.emb j)
  refine blk_entry (V c main_arg0) (V c main_arg3) (iblk0 V c 0 t) (iblk0 V c 1 t) t.val
    (fun p k P hP => iblk_lhs V c t p k P hP) (fun k q => iblk_rhs V c t k q)
    ((cfg0.win 2).xinj (grid0.coords t) j) (((cfg0.win 2).blk t).view.emb j) ?_ ?_
  · show win0_2.index t 0 * 512 + 1 * (j 0).val = t.val * 512 + (j 0).val; rw [e4]; omega
  · show win0_2.index t 1 * 256 + 1 * (j 1).val = (j 1).val; rw [e5]; omega

/-- An index of the result array is in point `t`'s block iff each coordinate is in the block's range on its axis. -/
theorem mem_blk (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- The row blocks tile the result array: row `r` lies in the block of point `r / 512`. -/
theorem cover (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, e4, e5⟩ := idx_facts t
  refine ⟨t, flush0_2 t, ?_⟩
  rw [mem_blk]
  intro a
  match a with
  | ⟨0, _⟩ => show win0_2.index t 0 * 512 ≤ (i 0).val ∧ (i 0).val < win0_2.index t 0 * 512 + 512; rw [e4, ht]; omega
  | ⟨1, _⟩ => show win0_2.index t 1 * 256 ≤ (i 1).val ∧ (i 1).val < win0_2.index t 1 * 256 + 256; rw [e5]; omega

/-- The result array after the region is the product of the two arrays as the region finds them. -/
theorem arr_eq (c : Dev nD) : (dat0 V c).arrAt 2 cfg0.N = mm (V c main_arg0) (V c main_arg3) :=
  (dat0 V c).arrAt_eq_of_cover 2 (mm (V c main_arg0) (V c main_arg3)) (fun t _ => flushed_eq V c t) cover

/-- Entry `(P, q)` of the result array after the region: the sum over the contracted index of the products of the
    left array's row `P` and the right array's column `q` (`A`, `B` name the two arrays as the region finds them). -/
theorem arr (c : Dev nD) (A : S4096x1024.Idx → EReal) (B : S1024x256.Idx → EReal)
    (hA : V c main_arg0 = A) (hB : V c main_arg3 = B) (P : Fin 4096) (q : Fin 256) :
    (dat0 (F := Ideal) V c).arrAt 2 cfg0.N (ValueIdx.ix2 P q) = ∑ k : Fin 1024, A (ValueIdx.ix2 P k) * B (ValueIdx.ix2 k q) := by
  subst hA hB
  rw [arr_eq]; rfl

end Cert.KernelIdeal.Region0

end
-- ==== Proof.GatSpec.lean ====
/-
  A graph-attention layer, its unit normalisation and its inner-product decoder, one row at a time on the extended reals.

  For a node whose feature row is `hrow`, with all nodes' features `h`, the two attention vectors `as`, `an`, and the
  node's rows `arow` of the adjacency matrix and `mrow` of the transition matrix:
    the score against node `j` is `(hrow · as + h j · an) · mrow j`, passed through the leaky rectifier of slope 0.2;
    where `arow j` is not positive the score is replaced by the large negative constant;
    the scores of the row are turned into weights by a softmax shifted by the row's maximum;
    the node's new features are the weighted sum of all nodes' features, passed through the exponential linear unit.
  The decoder's entry for a pair of unit rows is the logistic of their inner product.

  Two spellings of the rectifier and of the exponential linear unit are met and shown equal on every extended real:
  "positive" against "non-negative" for the rectifier (they differ only at zero, where both give zero), and
  `exp x - 1` against `1 · (exp x' - 1)` with `x'` the argument where it is not positive.
-/
import Idealize.ShloMosaic.PureOps.Ideal
import Idealize.ShloMosaic.Lib.ValueIdx
import Idealize.ShloMosaic.Lib.IdealHost

noncomputable section

open scoped BigOperators

namespace Cert.GatSpec

open Idealize.ShloMosaic

/-- The float words that occur: zero, the slope 0.2, the large negative fill, one, minus infinity, the small floor. -/
abbrev wZero : EReal := Ideal.ofBits .f32 0x00000000#32
abbrev wSlope : EReal := Ideal.ofBits .f32 0x3E4CCCCD#32
abbrev wFill : EReal := Ideal.ofBits .f32 0xD9FFCB9E#32
abbrev wOne : EReal := Ideal.ofBits .f32 0x3F800000#32
abbrev wNegInf : EReal := Ideal.ofBits .f32 0xFF800000#32
abbrev wFloor : EReal := Ideal.ofBits .f32 0x2B8CBCCC#32

variable {n d : ℕ}

/-- The leaky rectifier: `e` where positive, `0.2 · e` elsewhere. -/
def leaky (e : EReal) : EReal := Scalar.select (Ideal.cmp .ogt e wZero) e (wSlope * e)

/-- The same with "non-negative" as the test. -/
def leakyGe (e : EReal) : EReal := Scalar.select (Ideal.cmp .oge e wZero) e (wSlope * e)

/-- A score kept where the adjacency entry is positive, replaced by the fill elsewhere. -/
def maskTo (adj e : EReal) : EReal := Scalar.select (Ideal.cmp .ogt adj wZero) e wFill

/-- The exponential linear unit: `x` where positive, `exp x - 1` elsewhere. -/
def elu (x : EReal) : EReal := Scalar.select (Ideal.cmp .ogt x wZero) x (Ideal.exp x - wOne)

/-- The same as `1 · (exp x' - 1)`, `x'` being zero where `x` is positive and `x` elsewhere. -/
def eluSafe (x : EReal) : EReal :=
  Scalar.select (Ideal.cmp .ogt x wZero) x (wOne * (Ideal.exp (Scalar.select (Ideal.cmp .ogt x wZero) wZero x) - 1))

/-- A row's maximum: the fold of `max` from minus infinity. -/
def rowMax (r : Fin n → EReal) : EReal := (Finset.univ : Finset (Fin n)).fold max wNegInf r

/-- The softmax of a row, shifted by its maximum. -/
def soft (r : Fin n → EReal) (j : Fin n) : EReal :=
  Ideal.div (Ideal.exp (r j - rowMax r)) (∑ k : Fin n, Ideal.exp (r k - rowMax r))

/-- One node's masked, rectified scores against every node. -/
def logit (hrow : Fin d → EReal) (h : Fin n → Fin d → EReal) (as an : Fin d → EReal) (arow mrow : Fin n → EReal)
    (j : Fin n) : EReal :=
  maskTo (arow j) (leaky (((∑ k : Fin d, hrow k * as k) + (∑ k : Fin d, h j k * an k)) * mrow j))

/-- One node's new features. -/
def attRow (hrow : Fin d → EReal) (h : Fin n → Fin d → EReal) (as an : Fin d → EReal) (arow mrow : Fin n → EReal)
    (c : Fin d) : EReal :=
  elu (∑ j : Fin n, soft (logit hrow h as an arow mrow) j * h j c)

/-- A row divided by the larger of the floor and its Euclidean length. -/
def unitRow (hrow : Fin d → EReal) (c : Fin d) : EReal :=
  Ideal.div (hrow c) (max wFloor (Ideal.sqrt (wZero + ∑ k : Fin d, hrow k * hrow k)))

/-- The logistic of the inner product of two rows, spelt `1 / (1 + exp (0 - ·))`. -/
def decode (zi zj : Fin d → EReal) : EReal :=
  Ideal.div wOne (wOne + Ideal.exp (wZero - ∑ k : Fin d, zi k * zj k))

/-- A plain matrix product, entry by entry. -/
def mm {a k b : ℕ} (x : Fin a → Fin k → EReal) (w : Fin k → Fin b → EReal) (i : Fin a) (c : Fin b) : EReal :=
  ∑ q : Fin k, x i q * w q c

/-- One attention layer on all nodes: node `i`'s new features from its own row of the features, of the adjacency
    matrix and of the transition matrix. -/
def layer (h : Fin n → Fin d → EReal) (as an : Fin d → EReal) (adj m : Fin n → Fin n → EReal) (i : Fin n) (c : Fin d) : EReal :=
  attRow (h i) h as an (adj i) (m i) c

/-- The embedding: two layers, each on the features times its weight matrix, then every row brought to unit length. -/
def embed {f d₁ d₂ : ℕ} (x : Fin n → Fin f → EReal) (adj m : Fin n → Fin n → EReal) (w1 : Fin f → Fin d₁ → EReal)
    (as1 an1 : Fin d₁ → EReal) (w2 : Fin d₁ → Fin d₂ → EReal) (as2 an2 : Fin d₂ → EReal) (i : Fin n) (c : Fin d₂) : EReal :=
  unitRow (layer (mm (layer (mm x w1) as1 an1 adj m) w2) as2 an2 adj m i) c

/-- The predicted adjacency: the decoder on every pair of embedded rows. -/
def pred {f d₁ d₂ : ℕ} (x : Fin n → Fin f → EReal) (adj m : Fin n → Fin n → EReal) (w1 : Fin f → Fin d₁ → EReal)
    (as1 an1 : Fin d₁ → EReal) (w2 : Fin d₁ → Fin d₂ → EReal) (as2 an2 : Fin d₂ → EReal) (i j : Fin n) : EReal :=
  decode (embed x adj m w1 as1 an1 w2 as2 an2 i) (embed x adj m w1 as1 an1 w2 as2 an2 j)

theorem wZero_eq : wZero = 0 := Ideal.ofBits_zero_f32
theorem wOne_eq : wOne = 1 := Ideal.ofBits_one_f32

/-- The two rectifiers agree: where `e` is zero the product `0.2 · 0` is zero too. -/
theorem leakyGe_eq (e : EReal) : leakyGe e = leaky e := by
  unfold leakyGe leaky
  rw [wZero_eq]
  by_cases h : (0 : EReal) < e
  · simp [Ideal.cmp, h, h.le]
  · by_cases h0 : e = 0
    · subst h0; simp [Ideal.cmp, Scalar.select]
    · have hle : ¬ (0 : EReal) ≤ e := fun hle => h (lt_of_le_of_ne hle (Ne.symm h0))
      simp [Ideal.cmp, h, hle]

/-- The two exponential linear units agree. -/
theorem eluSafe_eq (x : EReal) : eluSafe x = elu x := by
  unfold eluSafe elu
  rw [wOne_eq, wZero_eq]
  by_cases h : (0 : EReal) < x
  · simp [Ideal.cmp, h, Scalar.select]
  · simp [Ideal.cmp, h, Scalar.select]

/-- Subtracting from zero negates. -/
theorem zero_sub_eq (x : EReal) : wZero - x = -x := by
  rw [wZero_eq, sub_eq_add_neg, zero_add]

end Cert.GatSpec

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.AttRow1.lean ====
/-
  The first attention layer's body, read at an entry.

  At a grid point the body holds a block of 128 rows of the adjacency matrix `ab` and of the transition matrix `mb`, all
  nodes' features `h`, the block's own 128 feature rows `ht`, and the two attention vectors `as`, `an`. Row `p` of what
  it stores is the attention row of `GatSpec` for the node whose features are row `p` of `ht` and whose adjacency and
  transition rows are rows `p` of the two blocks: every product is a plain sum over the contracted axis, the
  neighbour scores are one column turned into a row and spread over the block's rows, the self scores one column
  spread over the block's columns, the row maximum and the row sum are folds over the 4096 columns.
-/
import proofs.«144369_j73821897883963_1_alg».proof.Proof.Gen.KernelIdeal.Skeleton
import proofs.«144369_j73821897883963_1_alg».proof.Proof.GatSpec
import proofs.«144369_j73821897883963_1_alg».proof.Proof.LibPlainDot
import proofs.«144369_j73821897883963_1_alg».proof.Proof.LibKeepdims
import Idealize.ShloMosaic.Lib.ValueLayout
import Idealize.ShloMosaic.Lib.Pipeline.Value

noncomputable section

open scoped BigOperators

namespace Cert.KernelIdeal.AttRow1

open Cert.KernelIdeal Cert.KernelIdeal.Gen Idealize.ShloMosaic Idealize.ShloMosaic.ValueIdx Idealize.ShloMosaic.ValueKeepdims
open Cert.GatSpec

variable (h : Vec Ideal S4096x256 .f32) (aneigh aself : Vec Ideal S256x1 .f32) (ht : Vec Ideal S128x256 .f32)
  (mb ab : Vec Ideal S128x4096 .f32)

/-- The features in the narrow format are the features. -/
theorem narrow_apply (i : S4096x256.Idx) : k1_pay2 (F := Ideal) h i = h i := by
  unfold k1_pay2
  rw [truncf_apply, shapeCast_self]

/-- The neighbour scores, spread over the block's rows: at `(p, j)` node `j`'s features against `an`. -/
theorem neigh_apply (p : Fin 128) (j : Fin 4096) :
    broadcastTo S128x4096 (transpose S1x4096 [1, 0]
      (matmul dot_S4096x256_S256x1_S4096x1_1_0_0_1_n_n none (k1_pay2 (F := Ideal) h) (truncf .bf16 aneigh bitsLt_bf16_f32)
        (constant S4096x1 .f32 0x00000000#32)) transposes_S4096x1_p1_0_S1x4096) broadcasts_S1x4096_S128x4096 (ix2 p j)
      = ∑ k : Fin 256, h (ix2 j k) * aneigh (ix2 k (0 : Fin 1)) := by
  rw [broadcastTo_1b_ab_apply, transpose_ix2_apply]
  refine (Cert.Lib.PlainDot.matmul_zero_apply (M := 4096) (K := 256) (N := 1) none _ _ j (0 : Fin 1)).trans ?_
  exact Finset.sum_congr rfl fun k _ => by rw [narrow_apply, truncf_apply]

/-- The block's own scores, spread over its columns: at `(p, j)` row `p` of the block's features against `as`. -/
theorem self_apply (p : Fin 128) (j : Fin 4096) :
    broadcastTo S128x4096 (matmul dot_S128x256_S256x1_S128x1_1_0_0_1_n_n none
        (truncf .bf16 (shapeCast S128x256 ht shapeCasts_S128x256_S128x256) bitsLt_bf16_f32) (truncf .bf16 aself bitsLt_bf16_f32)
        (constant (F := Ideal) S128x1 .f32 0x00000000#32)) broadcasts_S128x1_S128x4096 (ix2 p j)
      = ∑ k : Fin 256, ht (ix2 p k) * aself (ix2 k (0 : Fin 1)) := by
  rw [broadcastTo_a1_ab_apply]
  refine (Cert.Lib.PlainDot.matmul_zero_apply (M := 128) (K := 256) (N := 1) none _ _ p (0 : Fin 1)).trans ?_
  exact Finset.sum_congr rfl fun k _ => by rw [truncf_apply, truncf_apply, shapeCast_self]

/-- The sum of the two spread score vectors, times the block of the transition matrix. -/
def raw : FVec Ideal S128x4096 .f32 :=
  mulf (addf
    (broadcastTo S128x4096 (matmul dot_S128x256_S256x1_S128x1_1_0_0_1_n_n none
        (truncf .bf16 (shapeCast S128x256 ht shapeCasts_S128x256_S128x256) bitsLt_bf16_f32) (truncf .bf16 aself bitsLt_bf16_f32)
        (constant (F := Ideal) S128x1 .f32 0x00000000#32)) broadcasts_S128x1_S128x4096)
    (broadcastTo S128x4096 (transpose S1x4096 [1, 0]
      (matmul dot_S4096x256_S256x1_S4096x1_1_0_0_1_n_n none (k1_pay2 (F := Ideal) h) (truncf .bf16 aneigh bitsLt_bf16_f32)
        (constant S4096x1 .f32 0x00000000#32)) transposes_S4096x1_p1_0_S1x4096) broadcasts_S1x4096_S128x4096)) mb

/-- The block's scores after the rectifier and the mask: what the body takes the row maximum of. -/
def scores : FVec Ideal S128x4096 .f32 :=
  select (cmpf .ogt ab (broadcast S128x4096 (Scalar.ofBits (F := Ideal) .f32 0x00000000#32)))
    (select (cmpf .ogt (raw h aneigh aself ht mb) (broadcast S128x4096 (Scalar.ofBits (F := Ideal) .f32 0x00000000#32)))
      (raw h aneigh aself ht mb)
      (mulf (broadcast S128x4096 (Scalar.ofBits (F := Ideal) .f32 0x3E4CCCCD#32)) (raw h aneigh aself ht mb)))
    (broadcast S128x4096 (Scalar.ofBits (F := Ideal) .f32 0xD9FFCB9E#32))

theorem raw_apply (p : Fin 128) (j : Fin 4096) :
    raw h aneigh aself ht mb (ix2 p j)
      = ((∑ k : Fin 256, ht (ix2 p k) * aself (ix2 k (0 : Fin 1))) + (∑ k : Fin 256, h (ix2 j k) * aneigh (ix2 k (0 : Fin 1))))
          * mb (ix2 p j) := by
  unfold raw
  rw [mulf_apply, addf_apply, self_apply, neigh_apply]

/-- Row `p` of the block's scores is the specification's row of masked, rectified scores. -/
theorem scores_apply (p : Fin 128) (j : Fin 4096) :
    scores h aneigh aself ht mb ab (ix2 p j)
      = logit (fun k => ht (ix2 p k)) (fun j k => h (ix2 j k)) (fun k => aself (ix2 k (0 : Fin 1)))
          (fun k => aneigh (ix2 k (0 : Fin 1))) (fun j => ab (ix2 p j)) (fun j => mb (ix2 p j)) j := by
  unfold scores logit maskTo leaky
  rw [select_apply, select_apply, cmpf_apply, cmpf_apply, mulf_apply, raw_apply]
  rfl

/-- The exponential of a vector at an index. -/
theorem exp_apply {s : Shape} (v : FVec Ideal s .f32) (i : s.Idx) : exp v i = Ideal.exp (v i) := rfl

/-- The scores' row maxima, as a column spread back over the block's columns. -/
def maxCols : FVec Ideal S128x4096 .f32 :=
  broadcastTo S128x4096 (shapeCast S128x1
    (multiReduction .maximumf [1] S128 (scores h aneigh aself ht mb ab) 0xFF800000#32 reduces_S128x4096_S128 (.inl rfl) rfl)
    shapeCasts_S128_S128x1) broadcasts_S128x1_S128x4096

theorem maxCols_apply (p : Fin 128) (j : Fin 4096) :
    maxCols h aneigh aself ht mb ab (ix2 p j) = rowMax (fun k => scores h aneigh aself ht mb ab (ix2 p k)) :=
  (broadcastTo_a1_ab_apply _ _ p j).trans ((shapeCast_a_a1_apply _ _ p (0 : Fin 1)).trans
    (multiReduction_maximumf_row (scores h aneigh aself ht mb ab) _ reduces_S128x4096_S128 (.inl rfl) rfl p))

/-- The body's exponentials are those of the scores less their row maximum. -/
theorem pay3_eq :
    k1_pay3 (F := Ideal) h aneigh ht aself mb ab
      = exp (subf (scores h aneigh aself ht mb ab) (maxCols h aneigh aself ht mb ab)) := rfl

theorem pay3_apply (p : Fin 128) (j : Fin 4096) :
    k1_pay3 (F := Ideal) h aneigh ht aself mb ab (ix2 p j)
      = Ideal.exp (scores h aneigh aself ht mb ab (ix2 p j) - rowMax (fun k => scores h aneigh aself ht mb ab (ix2 p k))) := by
  rw [pay3_eq, exp_apply, subf_apply, maxCols_apply]

/-- The body's divisor, spread over the block's columns: the row's sum of exponentials. -/
theorem pay4_apply (p : Fin 128) (j : Fin 4096) :
    k1_pay4 (F := Ideal) h aneigh ht aself mb ab (ix2 p j)
      = ∑ k : Fin 4096, Ideal.exp (scores h aneigh aself ht mb ab (ix2 p k) - rowMax (fun k => scores h aneigh aself ht mb ab (ix2 p k))) := by
  unfold k1_pay4
  exact (broadcastTo_a1_ab_apply _ _ p j).trans ((shapeCast_a_a1_apply _ _ p (0 : Fin 1)).trans
    ((multiReduction_add_row (k1_pay3 (F := Ideal) h aneigh ht aself mb ab) _ reduces_S128x4096_S128 (.inl rfl) rfl p).trans
      (Finset.sum_congr rfl fun k _ => pay3_apply h aneigh aself ht mb ab p k)))

/-- What the body stores, at `(p, c)`: the specification's attention row of the block's row `p`, at feature `c`. -/
theorem pay1_apply (p : Fin 128) (c : Fin 256) :
    k1_pay1 (F := Ideal) (k1_pay2 h) (k1_pay3 h aneigh ht aself mb ab) (k1_pay4 h aneigh ht aself mb ab) (ix2 p c)
      = attRow (fun k => ht (ix2 p k)) (fun j k => h (ix2 j k)) (fun k => aself (ix2 k (0 : Fin 1)))
          (fun k => aneigh (ix2 k (0 : Fin 1))) (fun j => ab (ix2 p j)) (fun j => mb (ix2 p j)) c := by
  have hagg : matmul dot_S128x4096_S4096x256_S128x256_1_0_0_1_n_n none
        (truncf .bf16 (divf (k1_pay3 (F := Ideal) h aneigh ht aself mb ab) (k1_pay4 h aneigh ht aself mb ab)) bitsLt_bf16_f32)
        (k1_pay2 h) (constant S128x256 .f32 0x00000000#32) (ix2 p c)
      = ∑ j : Fin 4096, soft (logit (fun k => ht (ix2 p k)) (fun j k => h (ix2 j k)) (fun k => aself (ix2 k (0 : Fin 1)))
          (fun k => aneigh (ix2 k (0 : Fin 1))) (fun j => ab (ix2 p j)) (fun j => mb (ix2 p j))) j * h (ix2 j c) := by
    refine (Cert.Lib.PlainDot.matmul_zero_apply (M := 128) (K := 4096) (N := 256) none _ _ p c).trans ?_
    refine Finset.sum_congr rfl fun j _ => ?_
    rw [truncf_apply, divf_apply, pay3_apply, pay4_apply, narrow_apply]
    unfold soft
    simp only [scores_apply]
  unfold k1_pay1 attRow elu
  rw [select_apply, cmpf_apply]
  show Scalar.select (Ideal.cmp .ogt _ _) _ (Ideal.exp _ - _) = _
  rw [hagg]
  rfl

end Cert.KernelIdeal.AttRow1

end
-- ==== Proof.Region1.lean ====
/-
  The first attention region of the idealized kernel, read as a value: whatever the buffers hold when the region is
  entered, its result array ends as one attention layer (`GatSpec.layer`) of the feature array it finds, with the
  adjacency and transition arrays and the two attention vectors it finds. Each of the grid's 32 points loads 128 rows
  of the adjacency and of the transition matrix, all of the features and both attention vectors, reads its own 128
  feature rows out of the loaded features at the point's row offset, stores the 128 attention rows of those nodes,
  and writes them back to the same 128 rows of the result. The row blocks tile the result array.
-/
import proofs.«144369_j73821897883963_1_alg».proof.Proof.Gen.KernelIdeal.Frame
import proofs.«144369_j73821897883963_1_alg».proof.Proof.AttRow1
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.ShloMosaic.Tactic
open Idealize.SL.Sem
open Idealize.ShloMosaic.Pipeline (Dat Cfg Window)
open Cert.KernelIdeal Cert.KernelIdeal.Gen Cert.GatSpec

variable (V : (c : Dev nD) → (b : Ref sig .tc) → Buf (Elt Ideal) ((c : Thread nD τ).loc b))

theorem hz : (![0, 0] : Fin 2 → Nat) = fun _ => 0 := funext fun a => by fin_cases a <;> rfl

/-- The attention layer on whole arrays: entry `i` is the specification's layer at row `i 0`, feature `i 1`. -/
def att (Adj M : S4096x4096.Idx → EReal) (H : S4096x256.Idx → EReal) (As An : S256x1.Idx → EReal) : S4096x256.Idx → EReal :=
  fun i => layer (fun a b => H (ix2 a b)) (fun k => As (ix2 k (0 : Fin 1))) (fun k => An (ix2 k (0 : Fin 1)))
    (fun a b => Adj (ix2 a b)) (fun a b => M (ix2 a b)) (i 0) (i 1)

/-- Equal data give equal attention rows. -/
theorem attRow_congr {n d : ℕ} {hrow hrow' : Fin d → EReal} {h h' : Fin n → Fin d → EReal} {aS aS' aN aN' : Fin d → EReal}
    {arow arow' mrow mrow' : Fin n → EReal} {c c' : Fin d} (e1 : hrow = hrow') (e2 : h = h') (e3 : aS = aS') (e4 : aN = aN')
    (e5 : arow = arow') (e6 : mrow = mrow') (e7 : c = c') :
    attRow hrow h aS aN arow mrow c = attRow hrow' h' aS' aN' arow' mrow' c' := by
  subst e1 e2 e3 e4 e5 e6 e7; rfl

/-- The block's own feature rows: the loaded features read through the rectangle of 128 rows at the point's offset. -/
abbrev tile (i : grid1.Coords) (x2 : Vec Ideal S4096x256 .f32) : Vec Ideal S128x256 .f32 :=
  View.ld x2 (Rect.unit (s := S4096x256) (k1_off1 i) S128x256.size (k1_off1_inb i))

/-- What the body leaves in the output's staging buffer: its one store's payload, of the loaded blocks. -/
theorem out_eq (c : Dev nD) (i : grid1.Coords) (arg1 : Memref sig .tc .vmem S128x4096 .f32) (harg1 : arg1.IsWhole) (arg2 : Memref sig .tc .vmem S128x4096 .f32) (harg2 : arg2.IsWhole) (arg3 : Memref sig .tc .vmem S4096x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S128x256 .f32) (harg6 : arg6.IsWhole)
    (x0 x1 : Vec Ideal S128x4096 .f32) (x2 : Vec Ideal S4096x256 .f32) (x3 x4 : Vec Ideal S256x1 .f32) :
    out1_A_5 (F := Ideal) c i arg1 harg1 arg2 harg2 arg3 harg3 arg4 harg4 arg5 harg5 arg6 harg6 x0 x1 x2 x3 x4
      = k1_pay1 (k1_pay2 x2) (k1_pay3 x2 x4 (tile i x2) x3 x1 x0) (k1_pay4 x2 x4 (tile i x2) x3 x1 x0) := by
  unfold out1_A_5
  rw [View.read_writes_eq_canon _ _ _ (cover1_A_5 c i arg1 harg1 arg2 harg2 arg3 harg3 arg4 harg4 arg5 harg5 arg6 harg6 x0 x1 x2 x3 x4)]
  unfold kernelRun1_A
  dsimp only
  sl_unfold_run_names
  rw [View.canon_unit_zero hz]
  simp only [View.readAt_eq_ld, harg1.read_unread, harg2.read_unread, harg3.read_unread, harg4.read_unread, harg5.read_unread,
    View.ld_unit_zero (S := S128x4096) hz, View.ld_unit_zero (S := S4096x256) hz, View.ld_unit_zero (S := S256x1) hz]

/-- Row `p` of the block's own features is row `128 n + p` of the loaded features, `n` the point's coordinate. -/
theorem tile_apply (i : grid1.Coords) (x2 : Vec Ideal S4096x256 .f32) (p : Fin 128) (k : Fin 256) (P : Fin 4096)
    (hP : P.val = 128 * (i 0).val + p.val) : tile i x2 (ix2 p k) = x2 (ix2 P k) := by
  show x2 _ = x2 _
  congr 1
  funext a
  apply Fin.ext
  match a with
  | ⟨0, _⟩ => show (k1_off1 i) 0 + 1 * p.val = P.val; rw [k1_off1_eq, hP]; show 128 * (i 0).val + 1 * p.val = _; omega
  | ⟨1, _⟩ => show (k1_off1 i) 1 + 1 * k.val = k.val; rw [k1_off1_eq]; show 0 + 1 * k.val = _; omega

/-- The printed index maps over the grid: the row blocks of the adjacency, of the transition matrix and of the result
    move with the point; the features and the attention vectors stay; the point's one coordinate is the point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ ((grid1.coords t) (0 : Fin 1)).val = t.val :=
  (by decide +kernel : ∀ t : Fin grid1.N, _)

/-- The adjacency block at point `t` is rows `128 t … 128 t + 127` of its array. -/
theorem iblk_adj (c : Dev nD) (t : Fin cfg1.N) (p : Fin 128) (j : Fin 4096) (P : Fin 4096) (hP : P.val = t.val * 128 + p.val) :
    (iblk1 V c 0 t : Vec Ideal S128x4096 .f32) (ix2 p j) = (V c main_arg1 : S4096x4096.Idx → EReal) (ix2 P j) := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 128 + 1 * p.val = P.val; rw [e0, hP]; omega
  | ⟨1, _⟩ => show win1_0.index t 1 * 4096 + 1 * j.val = j.val; rw [e1]; omega

/-- The transition block at point `t` is rows `128 t … 128 t + 127` of its array. -/
theorem iblk_trans (c : Dev nD) (t : Fin cfg1.N) (p : Fin 128) (j : Fin 4096) (P : Fin 4096) (hP : P.val = t.val * 128 + p.val) :
    (iblk1 V c 1 t : Vec Ideal S128x4096 .f32) (ix2 p j) = (V c main_arg2 : S4096x4096.Idx → EReal) (ix2 P j) := by
  obtain ⟨-, -, e0, e1, -⟩ := idx_facts t
  unfold iblk1
  rw [View.read_apply]
  show V c main_arg2 _ = V c main_arg2 _
  congr 1
  funext a
  apply Fin.ext
  match a with
  | ⟨0, _⟩ => show win1_1.index t 0 * 128 + 1 * p.val = P.val; rw [e0, hP]; omega
  | ⟨1, _⟩ => show win1_1.index t 1 * 4096 + 1 * j.val = j.val; rw [e1]; omega

/-- The features' block at every point is their whole array. -/
theorem iblk_feat (c : Dev nD) (t : Fin cfg1.N) (a' : Fin 4096) (k : Fin 256) :
    (iblk1 V c 2 t : Vec Ideal S4096x256 .f32) (ix2 a' k) = (V c main_v0 : S4096x256.Idx → EReal) (ix2 a' k) := by
  obtain ⟨-, -, -, -, e0, e1, -⟩ := idx_facts t
  unfold iblk1
  rw [View.read_apply]
  show V c main_v0 _ = V c main_v0 _
  congr 1
  funext a
  apply Fin.ext
  match a with
  | ⟨0, _⟩ => show win1_2.index t 0 * 4096 + 1 * a'.val = a'.val; rw [e0]; omega
  | ⟨1, _⟩ => show win1_2.index t 1 * 256 + 1 * k.val = k.val; rw [e1]; omega

/-- The first attention vector's block at every point is its whole array. -/
theorem iblk_self (c : Dev nD) (t : Fin cfg1.N) (k : Fin 256) (u : Fin 1) :
    (iblk1 V c 3 t : Vec Ideal S256x1 .f32) (ix2 k u) = (V c main_arg4 : S256x1.Idx → EReal) (ix2 k u) := by
  obtain ⟨-, -, -, -, -, -, e0, e1, -⟩ := idx_facts t
  unfold iblk1
  rw [View.read_apply]
  show V c main_arg4 _ = V c main_arg4 _
  congr 1
  funext a
  apply Fin.ext
  match a with
  | ⟨0, _⟩ => show win1_3.index t 0 * 256 + 1 * k.val = k.val; rw [e0]; omega
  | ⟨1, _⟩ => show win1_3.index t 1 * 1 + 1 * u.val = u.val; rw [e1]; omega

/-- The second attention vector's block at every point is its whole array. -/
theorem iblk_neigh (c : Dev nD) (t : Fin cfg1.N) (k : Fin 256) (u : Fin 1) :
    (iblk1 V c 4 t : Vec Ideal S256x1 .f32) (ix2 k u) = (V c main_arg5 : S256x1.Idx → EReal) (ix2 k u) := by
  obtain ⟨-, -, -, -, -, -, -, -, e0, e1, -⟩ := idx_facts t
  unfold iblk1
  rw [View.read_apply]
  show V c main_arg5 _ = V c main_arg5 _
  congr 1
  funext a
  apply Fin.ext
  match a with
  | ⟨0, _⟩ => show win1_4.index t 0 * 256 + 1 * k.val = k.val; rw [e0]; omega
  | ⟨1, _⟩ => show win1_4.index t 1 * 1 + 1 * u.val = u.val; rw [e1]; omega

/-- A stored block is a block of the layer: entry `y` of the block stored at row offset `128 n` is the layer's entry at
    row `128 n + y₀`, feature `y₁`, once the loaded blocks are those rows of the two matrices and all of the rest. -/
theorem blk_entry (Adj M : S4096x4096.Idx → EReal) (H : S4096x256.Idx → EReal) (As An : S256x1.Idx → EReal)
    (x0 x1 : Vec Ideal S128x4096 .f32) (x2 : Vec Ideal S4096x256 .f32) (x3 x4 : Vec Ideal S256x1 .f32) (n : Nat)
    (i : grid1.Coords) (hn : (i 0).val = n)
    (h0 : ∀ (p : Fin 128) (j : Fin 4096) (P : Fin 4096), P.val = n * 128 + p.val → x0 (ix2 p j) = Adj (ix2 P j))
    (h1 : ∀ (p : Fin 128) (j : Fin 4096) (P : Fin 4096), P.val = n * 128 + p.val → x1 (ix2 p j) = M (ix2 P j))
    (h2 : ∀ (a : Fin 4096) (k : Fin 256), x2 (ix2 a k) = H (ix2 a k))
    (h3 : ∀ (k : Fin 256) (u : Fin 1), x3 (ix2 k u) = As (ix2 k u))
    (h4 : ∀ (k : Fin 256) (u : Fin 1), x4 (ix2 k u) = An (ix2 k u))
    (y : S128x256.Idx) (idx : S4096x256.Idx) (hi0 : (idx 0).val = n * 128 + (y 0).val) (hi1 : (idx 1).val = (y 1).val) :
    k1_pay1 (k1_pay2 x2) (k1_pay3 x2 x4 (tile i x2) x3 x1 x0) (k1_pay4 x2 x4 (tile i x2) x3 x1 x0) y = att Adj M H As An idx := by
  have hy : y = ix2 (⟨(y 0).val, idx2_lt0 y⟩ : Fin 128) (⟨(y 1).val, idx2_lt1 y⟩ : Fin 256) := by
    funext a; match a with | ⟨0, _⟩ => rfl | ⟨1, _⟩ => rfl
  refine (congrArg (k1_pay1 (k1_pay2 x2) (k1_pay3 x2 x4 (tile i x2) x3 x1 x0) (k1_pay4 x2 x4 (tile i x2) x3 x1 x0)) hy).trans
    ((Cert.KernelIdeal.AttRow1.pay1_apply x2 x4 x3 (tile i x2) x1 x0 _ _).trans ?_)
  unfold att layer
  have hrowP : (idx 0).val = 128 * (i 0).val + (y 0).val := by rw [hn, hi0]; omega
  refine attRow_congr (funext fun k => (tile_apply i x2 _ k (idx 0) hrowP).trans (h2 _ _)) (funext fun a => funext fun k => h2 a k)
    (funext fun k => h3 k 0) (funext fun k => h4 k 0) (funext fun j => h0 _ j (idx 0) hi0) (funext fun j => h1 _ j (idx 0) hi0)
    (Fin.ext hi1.symm)

/-- What point `t` writes back is block `t` of the layer of the arrays as the region finds them. -/
theorem flushed_eq (c : Dev nD) (t : Fin cfg1.N) :
    (dat1 V c).flushed 5 t = ((cfg1.win 5).blk t).view.read (Elt Ideal)
      (att (V c main_arg1) (V c main_arg2) (V c main_v0) (V c main_arg4) (V c main_arg5)) := by
  show (cfg1.win 5).cut (grid1.coords t) ((dat1 V c).after 5 t) = _
  rw [after1_5]
  unfold outsAt1
  rw [out_eq]
  obtain ⟨-, -, -, -, -, -, -, -, -, -, e4, e5, ec⟩ := idx_facts t
  funext j
  show k1_pay1 (F := Ideal) _ _ _ ((cfg1.win 5).xinj (grid1.coords t) j)
    = att (V c main_arg1) (V c main_arg2) (V c main_v0) (V c main_arg4) (V c main_arg5) (((cfg1.win 5).blk t).view.emb j)
  refine blk_entry (V c main_arg1) (V c main_arg2) (V c main_v0) (V c main_arg4) (V c main_arg5)
    (iblk1 V c 0 t) (iblk1 V c 1 t) (iblk1 V c 2 t) (iblk1 V c 3 t) (iblk1 V c 4 t) t.val (grid1.coords t) ec
    (fun p j P hP => iblk_adj V c t p j P hP) (fun p j P hP => iblk_trans V c t p j P hP)
    (fun a k => iblk_feat V c t a k) (fun k u => iblk_self V c t k u) (fun k u => iblk_neigh V c t k u)
    ((cfg1.win 5).xinj (grid1.coords t) j) (((cfg1.win 5).blk t).view.emb j) ?_ ?_
  · show win1_5.index t 0 * 128 + 1 * (j 0).val = t.val * 128 + (j 0).val; rw [e4]; omega
  · show win1_5.index t 1 * 256 + 1 * (j 1).val = (j 1).val; rw [e5]; omega

/-- An index of the result array is in point `t`'s block iff each coordinate is in the block's range on its axis. -/
theorem mem_blk (t : Fin cfg1.N) (i : S4096x256.Idx) :
    i ∈ ((cfg1.win 5).blk t).view.set ↔ ∀ a : Fin 2, win1_5.index t a * S128x256.size a ≤ (i a).val ∧ (i a).val < win1_5.index t a * S128x256.size a + S128x256.size a := by
  show i ∈ ((View.whole main_v1).slice (win1_5.rect t)).set ↔ _
  rw [View.set_slice_whole, Rect.mem_set_unit]
  exact Iff.rfl

/-- The row blocks tile the result array: row `r` lies in the block of point `r / 128`. -/
theorem cover (i : S4096x256.Idx) : ∃ t : Fin cfg1.N, (cfg1.win 5).flush t = true ∧ i ∈ ((cfg1.win 5).blk t).view.set := by
  have hi0 : (i 0).val < 4096 := (i 0).isLt
  have hi1 : (i 1).val < 256 := (i 1).isLt
  have hN : cfg1.N = 32 := N_1
  obtain ⟨t, ht⟩ : ∃ t : Fin cfg1.N, t.val = (i 0).val / 128 := ⟨⟨(i 0).val / 128, by rw [hN]; omega⟩, rfl⟩
  obtain ⟨-, -, -, -, -, -, -, -, -, -, e4, e5, -⟩ := idx_facts t
  refine ⟨t, flush1_5 t, ?_⟩
  rw [mem_blk]
  intro a
  match a with
  | ⟨0, _⟩ => show win1_5.index t 0 * 128 ≤ (i 0).val ∧ (i 0).val < win1_5.index t 0 * 128 + 128; rw [e4, ht]; omega
  | ⟨1, _⟩ => show win1_5.index t 1 * 256 ≤ (i 1).val ∧ (i 1).val < win1_5.index t 1 * 256 + 256; rw [e5]; omega

/-- The result array after the region is the attention layer of the arrays as the region finds them. -/
theorem arr_eq (c : Dev nD) :
    (dat1 V c).arrAt 5 cfg1.N = att (V c main_arg1) (V c main_arg2) (V c main_v0) (V c main_arg4) (V c main_arg5) :=
  (dat1 V c).arrAt_eq_of_cover 5 (att (V c main_arg1) (V c main_arg2) (V c main_v0) (V c main_arg4) (V c main_arg5))
    (fun t _ => flushed_eq V c t) cover

end Cert.KernelIdeal.Region1

end
-- ==== Proof.Region2.lean ====
/-
  The second matrix-product region of the idealized kernel, read as a value: whatever the buffers hold when the region
  is entered, its result array ends as the matrix product of the left array (4096 × 256) and the right array
  (256 × 16). The grid's 8 points each load 512 rows of the left array and all of the right array, store the product
  of the two loaded blocks (the cast of the left block to its own shape and the narrowing of the operands are the
  identity on extended reals; the accumulator starts at zero), and write the stored block back to the same 512 rows of
  the result. The row blocks tile the result array.
-/
import proofs.«144369_j73821897883963_1_alg».proof.Proof.Gen.KernelIdeal.Frame
import proofs.«144369_j73821897883963_1_alg».proof.Proof.LibPlainDot
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The matrix product of two arrays, entry by entry. -/
def mm (A : S4096x256.Idx → EReal) (B : S256x16.Idx → EReal) : S4096x16.Idx → EReal :=
  fun i => ∑ k : Fin 256, A (ix2 (i 0) k) * B (ix2 k (i 1))

/-- Its entry at row `P`, column `q`. -/
theorem mm_apply (A : S4096x256.Idx → EReal) (B : S256x16.Idx → EReal) (P : Fin 4096) (q : Fin 16) :
    mm A B (ix2 P q) = ∑ k : Fin 256, A (ix2 P k) * B (ix2 k q) := rfl

/-- What the body stores, at an entry of the block: the product of the two loaded blocks there (the cast of the left
    block to its own shape is the identity). -/
theorem pay_apply (x0 : Vec Ideal S512x256 .f32) (x1 : Vec Ideal S256x16 .f32) (p : Fin 512) (q : Fin 16) :
    k2_pay1 x0 x1 (ix2 p q) = ∑ k : Fin 256, x0 (ix2 p k) * x1 (ix2 k q) := by
  unfold k2_pay1
  refine (Cert.Lib.PlainDot.matmul_zero_apply (M := 512) (K := 256) (N := 16) none
    (truncf .bf16 (shapeCast S512x256 x0 shapeCasts_S512x256_S512x256) bitsLt_bf16_f32)
    (truncf .bf16 x1 bitsLt_bf16_f32) p q).trans ?_
  rw [shapeCast_self]
  rfl

/-- The printed index maps over the grid: the row blocks of the left operand and of the result move with the point,
    the right operand's one block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `512 t … 512 t + 511` of its array. -/
theorem iblk_lhs (c : Dev nD) (t : Fin cfg2.N) (p : Fin 512) (k : Fin 256) (P : Fin 4096) (hP : P.val = t.val * 512 + p.val) :
    (iblk2 V c 0 t : Vec Ideal S512x256 .f32) (ix2 p k) = (V c main_v1 : S4096x256.Idx → EReal) (ix2 P k) := by
  obtain ⟨e0, e1, -⟩ := idx_facts t
  unfold iblk2
  rw [View.read_apply]
  show V c main_v1 _ = V c main_v1 _
  congr 1
  funext a
  apply Fin.ext
  match a with
  | ⟨0, _⟩ => show win2_0.index t 0 * 512 + 1 * p.val = P.val; rw [e0, hP]; omega
  | ⟨1, _⟩ => show win2_0.index t 1 * 256 + 1 * k.val = k.val; rw [e1]; omega

/-- The right operand's block at every point is its whole array. -/
theorem iblk_rhs (c : Dev nD) (t : Fin cfg2.N) (k : Fin 256) (q : Fin 16) :
    (iblk2 V c 1 t : Vec Ideal S256x16 .f32) (ix2 k q) = (V c main_arg6 : S256x16.Idx → EReal) (ix2 k q) := by
  obtain ⟨-, -, e2, e3, -⟩ := idx_facts t
  unfold iblk2
  rw [View.read_apply]
  show V c main_arg6 _ = V c main_arg6 _
  congr 1
  funext a
  apply Fin.ext
  match a with
  | ⟨0, _⟩ => show win2_1.index t 0 * 256 + 1 * k.val = k.val; rw [e2]; omega
  | ⟨1, _⟩ => show win2_1.index t 1 * 16 + 1 * q.val = q.val; rw [e3]; omega

/-- A stored block is a block of the product: entry `y` of the block stored at row offset `512 n` is the product's
    entry at row `512 n + y₀`, column `y₁`, once the loaded blocks are those rows of the left array and all of the right. -/
theorem blk_entry (A : S4096x256.Idx → EReal) (B : S256x16.Idx → EReal)
    (x0 : Vec Ideal S512x256 .f32) (x1 : Vec Ideal S256x16 .f32) (n : Nat)
    (h0 : ∀ (p : Fin 512) (k : Fin 256) (P : Fin 4096), P.val = n * 512 + p.val → x0 (ix2 p k) = A (ix2 P k))
    (h1 : ∀ (k : Fin 256) (q : Fin 16), x1 (ix2 k q) = B (ix2 k q))
    (y : S512x16.Idx) (i : S4096x16.Idx) (hi0 : (i 0).val = n * 512 + (y 0).val) (hi1 : (i 1).val = (y 1).val) :
    k2_pay1 x0 x1 y = mm A B i := by
  have hy : y = ix2 (⟨(y 0).val, idx2_lt0 y⟩ : Fin 512) (⟨(y 1).val, idx2_lt1 y⟩ : Fin 16) := by
    funext a; match a with | ⟨0, _⟩ => rfl | ⟨1, _⟩ => rfl
  refine (congrArg (k2_pay1 x0 x1) hy).trans ((pay_apply x0 x1 _ _).trans ?_)
  unfold mm
  refine Finset.sum_congr rfl fun k _ => ?_
  have e : (⟨(y 1).val, idx2_lt1 y⟩ : Fin 16) = i 1 := Fin.ext hi1.symm
  exact congrArg₂ (· * ·) (h0 ⟨(y 0).val, idx2_lt0 y⟩ k (i 0) hi0)
    ((h1 k _).trans (congrArg (fun z : Fin 16 => B (ix2 k z)) e))

/-- What point `t` writes back is block `t` of the product of the two arrays as the region finds them. -/
theorem flushed_eq (c : Dev nD) (t : Fin cfg2.N) :
    (dat2 V c).flushed 2 t = ((cfg2.win 2).blk t).view.read (Elt Ideal) (mm (V c main_v1) (V c main_arg6)) := by
  show (cfg2.win 2).cut (grid2.coords t) ((dat2 V c).after 2 t) = _
  rw [after2_2]
  unfold out2_2
  rw [View.canon_unit_zero hz]
  simp only [View.ld_unit_zero (S := S512x256) hz, View.ld_unit_zero (S := S256x16) hz]
  obtain ⟨-, -, -, -, e4, e5⟩ := idx_facts t
  funext j
  show k2_pay1 (iblk2 V c 0 t) (iblk2 V c 1 t) ((cfg2.win 2).xinj (grid2.coords t) j)
    = mm (V c main_v1) (V c main_arg6) (((cfg2.win 2).blk t).view.emb j)
  refine blk_entry (V c main_v1) (V c main_arg6) (iblk2 V c 0 t) (iblk2 V c 1 t) t.val
    (fun p k P hP => iblk_lhs V c t p k P hP) (fun k q => iblk_rhs V c t k q)
    ((cfg2.win 2).xinj (grid2.coords t) j) (((cfg2.win 2).blk t).view.emb j) ?_ ?_
  · show win2_2.index t 0 * 512 + 1 * (j 0).val = t.val * 512 + (j 0).val; rw [e4]; omega
  · show win2_2.index t 1 * 16 + 1 * (j 1).val = (j 1).val; rw [e5]; omega

/-- An index of the result array is in point `t`'s block iff each coordinate is in the block's range on its axis. -/
theorem mem_blk (t : Fin cfg2.N) (i : S4096x16.Idx) :
    i ∈ ((cfg2.win 2).blk t).view.set ↔ ∀ a : Fin 2, win2_2.index t a * S512x16.size a ≤ (i a).val ∧ (i a).val < win2_2.index t a * S512x16.size a + S512x16.size a := by
  show i ∈ ((View.whole main_v2).slice (win2_2.rect t)).set ↔ _
  rw [View.set_slice_whole, Rect.mem_set_unit]
  exact Iff.rfl

/-- The row blocks tile the result array: row `r` lies in the block of point `r / 512`. -/
theorem cover (i : S4096x16.Idx) : ∃ t : Fin cfg2.N, (cfg2.win 2).flush t = true ∧ i ∈ ((cfg2.win 2).blk t).view.set := by
  have hi0 : (i 0).val < 4096 := (i 0).isLt
  have hi1 : (i 1).val < 16 := (i 1).isLt
  have hN : cfg2.N = 8 := N_2
  obtain ⟨t, ht⟩ : ∃ t : Fin cfg2.N, t.val = (i 0).val / 512 := ⟨⟨(i 0).val / 512, by rw [hN]; omega⟩, rfl⟩
  obtain ⟨-, -, -, -, e4, e5⟩ := idx_facts t
  refine ⟨t, flush2_2 t, ?_⟩
  rw [mem_blk]
  intro a
  match a with
  | ⟨0, _⟩ => show win2_2.index t 0 * 512 ≤ (i 0).val ∧ (i 0).val < win2_2.index t 0 * 512 + 512; rw [e4, ht]; omega
  | ⟨1, _⟩ => show win2_2.index t 1 * 16 ≤ (i 1).val ∧ (i 1).val < win2_2.index t 1 * 16 + 16; rw [e5]; omega

/-- The result array after the region is the product of the two arrays as the region finds them. -/
theorem arr_eq (c : Dev nD) : (dat2 V c).arrAt 2 cfg2.N = mm (V c main_v1) (V c main_arg6) :=
  (dat2 V c).arrAt_eq_of_cover 2 (mm (V c main_v1) (V c main_arg6)) (fun t _ => flushed_eq V c t) cover

/-- Entry `(P, q)` of the result array after the region: the sum over the contracted index of the products of the
    left array's row `P` and the right array's column `q` (`A`, `B` name the two arrays as the region finds them). -/
theorem arr (c : Dev nD) (A : S4096x256.Idx → EReal) (B : S256x16.Idx → EReal)
    (hA : V c main_v1 = A) (hB : V c main_arg6 = B) (P : Fin 4096) (q : Fin 16) :
    (dat2 (F := Ideal) V c).arrAt 2 cfg2.N (ValueIdx.ix2 P q) = ∑ k : Fin 256, A (ValueIdx.ix2 P k) * B (ValueIdx.ix2 k q) := by
  subst hA hB
  rw [arr_eq]; rfl

end Cert.KernelIdeal.Region2

end
-- ==== Proof.AttRow3.lean ====
/-
  The second attention layer's body, read at an entry.

  At a grid point the body holds a block of 128 rows of the adjacency matrix `ab` and of the transition matrix `mb`, all
  nodes' features `h`, the block's own 128 feature rows `ht`, and the two attention vectors `as`, `an`. Row `p` of what
  it stores is the attention row of `GatSpec` for the node whose features are row `p` of `ht` and whose adjacency and
  transition rows are rows `p` of the two blocks: every product is a plain sum over the contracted axis, the
  neighbour scores are one column turned into a row and spread over the block's rows, the self scores one column
  spread over the block's columns, the row maximum and the row sum are folds over the 4096 columns.
-/
import proofs.«144369_j73821897883963_1_alg».proof.Proof.Gen.KernelIdeal.Skeleton
import proofs.«144369_j73821897883963_1_alg».proof.Proof.GatSpec
import proofs.«144369_j73821897883963_1_alg».proof.Proof.LibPlainDot
import proofs.«144369_j73821897883963_1_alg».proof.Proof.LibKeepdims
import Idealize.ShloMosaic.Lib.ValueLayout
import Idealize.ShloMosaic.Lib.Pipeline.Value

noncomputable section

open scoped BigOperators

namespace Cert.KernelIdeal.AttRow3

open Cert.KernelIdeal Cert.KernelIdeal.Gen Idealize.ShloMosaic Idealize.ShloMosaic.ValueIdx Idealize.ShloMosaic.ValueKeepdims
open Cert.GatSpec

variable (h : Vec Ideal S4096x16 .f32) (aneigh aself : Vec Ideal S16x1 .f32) (ht : Vec Ideal S128x16 .f32)
  (mb ab : Vec Ideal S128x4096 .f32)

/-- The features in the narrow format are the features. -/
theorem narrow_apply (i : S4096x16.Idx) : k3_pay2 (F := Ideal) h i = h i := by
  unfold k3_pay2
  rw [truncf_apply, shapeCast_self]

/-- The neighbour scores, spread over the block's rows: at `(p, j)` node `j`'s features against `an`. -/
theorem neigh_apply (p : Fin 128) (j : Fin 4096) :
    broadcastTo S128x4096 (transpose S1x4096 [1, 0]
      (matmul dot_S4096x16_S16x1_S4096x1_1_0_0_1_n_n none (k3_pay2 (F := Ideal) h) (truncf .bf16 aneigh bitsLt_bf16_f32)
        (constant S4096x1 .f32 0x00000000#32)) transposes_S4096x1_p1_0_S1x4096) broadcasts_S1x4096_S128x4096 (ix2 p j)
      = ∑ k : Fin 16, h (ix2 j k) * aneigh (ix2 k (0 : Fin 1)) := by
  rw [broadcastTo_1b_ab_apply, transpose_ix2_apply]
  refine (Cert.Lib.PlainDot.matmul_zero_apply (M := 4096) (K := 16) (N := 1) none _ _ j (0 : Fin 1)).trans ?_
  exact Finset.sum_congr rfl fun k _ => by rw [narrow_apply, truncf_apply]

/-- The block's own scores, spread over its columns: at `(p, j)` row `p` of the block's features against `as`. -/
theorem self_apply (p : Fin 128) (j : Fin 4096) :
    broadcastTo S128x4096 (matmul dot_S128x16_S16x1_S128x1_1_0_0_1_n_n none
        (truncf .bf16 (shapeCast S128x16 ht shapeCasts_S128x16_S128x16) bitsLt_bf16_f32) (truncf .bf16 aself bitsLt_bf16_f32)
        (constant (F := Ideal) S128x1 .f32 0x00000000#32)) broadcasts_S128x1_S128x4096 (ix2 p j)
      = ∑ k : Fin 16, ht (ix2 p k) * aself (ix2 k (0 : Fin 1)) := by
  rw [broadcastTo_a1_ab_apply]
  refine (Cert.Lib.PlainDot.matmul_zero_apply (M := 128) (K := 16) (N := 1) none _ _ p (0 : Fin 1)).trans ?_
  exact Finset.sum_congr rfl fun k _ => by rw [truncf_apply, truncf_apply, shapeCast_self]

/-- The sum of the two spread score vectors, times the block of the transition matrix. -/
def raw : FVec Ideal S128x4096 .f32 :=
  mulf (addf
    (broadcastTo S128x4096 (matmul dot_S128x16_S16x1_S128x1_1_0_0_1_n_n none
        (truncf .bf16 (shapeCast S128x16 ht shapeCasts_S128x16_S128x16) bitsLt_bf16_f32) (truncf .bf16 aself bitsLt_bf16_f32)
        (constant (F := Ideal) S128x1 .f32 0x00000000#32)) broadcasts_S128x1_S128x4096)
    (broadcastTo S128x4096 (transpose S1x4096 [1, 0]
      (matmul dot_S4096x16_S16x1_S4096x1_1_0_0_1_n_n none (k3_pay2 (F := Ideal) h) (truncf .bf16 aneigh bitsLt_bf16_f32)
        (constant S4096x1 .f32 0x00000000#32)) transposes_S4096x1_p1_0_S1x4096) broadcasts_S1x4096_S128x4096)) mb

/-- The block's scores after the rectifier and the mask: what the body takes the row maximum of. -/
def scores : FVec Ideal S128x4096 .f32 :=
  select (cmpf .ogt ab (broadcast S128x4096 (Scalar.ofBits (F := Ideal) .f32 0x00000000#32)))
    (select (cmpf .ogt (raw h aneigh aself ht mb) (broadcast S128x4096 (Scalar.ofBits (F := Ideal) .f32 0x00000000#32)))
      (raw h aneigh aself ht mb)
      (mulf (broadcast S128x4096 (Scalar.ofBits (F := Ideal) .f32 0x3E4CCCCD#32)) (raw h aneigh aself ht mb)))
    (broadcast S128x4096 (Scalar.ofBits (F := Ideal) .f32 0xD9FFCB9E#32))

theorem raw_apply (p : Fin 128) (j : Fin 4096) :
    raw h aneigh aself ht mb (ix2 p j)
      = ((∑ k : Fin 16, ht (ix2 p k) * aself (ix2 k (0 : Fin 1))) + (∑ k : Fin 16, h (ix2 j k) * aneigh (ix2 k (0 : Fin 1))))
          * mb (ix2 p j) := by
  unfold raw
  rw [mulf_apply, addf_apply, self_apply, neigh_apply]

/-- Row `p` of the block's scores is the specification's row of masked, rectified scores. -/
theorem scores_apply (p : Fin 128) (j : Fin 4096) :
    scores h aneigh aself ht mb ab (ix2 p j)
      = logit (fun k => ht (ix2 p k)) (fun j k => h (ix2 j k)) (fun k => aself (ix2 k (0 : Fin 1)))
          (fun k => aneigh (ix2 k (0 : Fin 1))) (fun j => ab (ix2 p j)) (fun j => mb (ix2 p j)) j := by
  unfold scores logit maskTo leaky
  rw [select_apply, select_apply, cmpf_apply, cmpf_apply, mulf_apply, raw_apply]
  rfl

/-- The exponential of a vector at an index. -/
theorem exp_apply {s : Shape} (v : FVec Ideal s .f32) (i : s.Idx) : exp v i = Ideal.exp (v i) := rfl

/-- The scores' row maxima, as a column spread back over the block's columns. -/
def maxCols : FVec Ideal S128x4096 .f32 :=
  broadcastTo S128x4096 (shapeCast S128x1
    (multiReduction .maximumf [1] S128 (scores h aneigh aself ht mb ab) 0xFF800000#32 reduces_S128x4096_S128 (.inl rfl) rfl)
    shapeCasts_S128_S128x1) broadcasts_S128x1_S128x4096

theorem maxCols_apply (p : Fin 128) (j : Fin 4096) :
    maxCols h aneigh aself ht mb ab (ix2 p j) = rowMax (fun k => scores h aneigh aself ht mb ab (ix2 p k)) :=
  (broadcastTo_a1_ab_apply _ _ p j).trans ((shapeCast_a_a1_apply _ _ p (0 : Fin 1)).trans
    (multiReduction_maximumf_row (scores h aneigh aself ht mb ab) _ reduces_S128x4096_S128 (.inl rfl) rfl p))

/-- The body's exponentials are those of the scores less their row maximum. -/
theorem pay3_eq :
    k3_pay3 (F := Ideal) h aneigh ht aself mb ab
      = exp (subf (scores h aneigh aself ht mb ab) (maxCols h aneigh aself ht mb ab)) := rfl

theorem pay3_apply (p : Fin 128) (j : Fin 4096) :
    k3_pay3 (F := Ideal) h aneigh ht aself mb ab (ix2 p j)
      = Ideal.exp (scores h aneigh aself ht mb ab (ix2 p j) - rowMax (fun k => scores h aneigh aself ht mb ab (ix2 p k))) := by
  rw [pay3_eq, exp_apply, subf_apply, maxCols_apply]

/-- The body's divisor, spread over the block's columns: the row's sum of exponentials. -/
theorem pay4_apply (p : Fin 128) (j : Fin 4096) :
    k3_pay4 (F := Ideal) h aneigh ht aself mb ab (ix2 p j)
      = ∑ k : Fin 4096, Ideal.exp (scores h aneigh aself ht mb ab (ix2 p k) - rowMax (fun k => scores h aneigh aself ht mb ab (ix2 p k))) := by
  unfold k3_pay4
  exact (broadcastTo_a1_ab_apply _ _ p j).trans ((shapeCast_a_a1_apply _ _ p (0 : Fin 1)).trans
    ((multiReduction_add_row (k3_pay3 (F := Ideal) h aneigh ht aself mb ab) _ reduces_S128x4096_S128 (.inl rfl) rfl p).trans
      (Finset.sum_congr rfl fun k _ => pay3_apply h aneigh aself ht mb ab p k)))

/-- What the body stores, at `(p, c)`: the specification's attention row of the block's row `p`, at feature `c`. -/
theorem pay1_apply (p : Fin 128) (c : Fin 16) :
    k3_pay1 (F := Ideal) (k3_pay2 h) (k3_pay3 h aneigh ht aself mb ab) (k3_pay4 h aneigh ht aself mb ab) (ix2 p c)
      = attRow (fun k => ht (ix2 p k)) (fun j k => h (ix2 j k)) (fun k => aself (ix2 k (0 : Fin 1)))
          (fun k => aneigh (ix2 k (0 : Fin 1))) (fun j => ab (ix2 p j)) (fun j => mb (ix2 p j)) c := by
  have hagg : matmul dot_S128x4096_S4096x16_S128x16_1_0_0_1_n_n none
        (truncf .bf16 (divf (k3_pay3 (F := Ideal) h aneigh ht aself mb ab) (k3_pay4 h aneigh ht aself mb ab)) bitsLt_bf16_f32)
        (k3_pay2 h) (constant S128x16 .f32 0x00000000#32) (ix2 p c)
      = ∑ j : Fin 4096, soft (logit (fun k => ht (ix2 p k)) (fun j k => h (ix2 j k)) (fun k => aself (ix2 k (0 : Fin 1)))
          (fun k => aneigh (ix2 k (0 : Fin 1))) (fun j => ab (ix2 p j)) (fun j => mb (ix2 p j))) j * h (ix2 j c) := by
    refine (Cert.Lib.PlainDot.matmul_zero_apply (M := 128) (K := 4096) (N := 16) none _ _ p c).trans ?_
    refine Finset.sum_congr rfl fun j _ => ?_
    rw [truncf_apply, divf_apply, pay3_apply, pay4_apply, narrow_apply]
    unfold soft
    simp only [scores_apply]
  unfold k3_pay1 attRow elu
  rw [select_apply, cmpf_apply]
  show Scalar.select (Ideal.cmp .ogt _ _) _ (Ideal.exp _ - _) = _
  rw [hagg]
  rfl

end Cert.KernelIdeal.AttRow3

end
-- ==== Proof.Region3.lean ====
/-
  The second attention region of the idealized kernel, read as a value: whatever the buffers hold when the region is
  entered, its result array ends as one attention layer (`GatSpec.layer`) of the feature array it finds, with the
  adjacency and transition arrays and the two attention vectors it finds. Each of the grid's 32 points loads 128 rows
  of the adjacency and of the transition matrix, all of the features and both attention vectors, reads its own 128
  feature rows out of the loaded features at the point's row offset, stores the 128 attention rows of those nodes,
  and writes them back to the same 128 rows of the result. The row blocks tile the result array.
-/
import proofs.«144369_j73821897883963_1_alg».proof.Proof.Gen.KernelIdeal.Frame
import proofs.«144369_j73821897883963_1_alg».proof.Proof.AttRow3
import Idealize.ShloMosaic.Lib.Pipeline.Value
import Idealize.ShloMosaic.Lib.ValueIdx

set_option maxRecDepth 16384

noncomputable section

open scoped BigOperators

namespace Cert.KernelIdeal.Region3

open Idealize.ShloMosaic Idealize.ShloMosaic.TcCoe Idealize.ShloMosaic.ValueIdx Idealize.ShloMosaic.Tactic
open Idealize.SL.Sem
open Idealize.ShloMosaic.Pipeline (Dat Cfg Window)
open Cert.KernelIdeal Cert.KernelIdeal.Gen Cert.GatSpec

variable (V : (c : Dev nD) → (b : Ref sig .tc) → Buf (Elt Ideal) ((c : Thread nD τ).loc b))

theorem hz : (![0, 0] : Fin 2 → Nat) = fun _ => 0 := funext fun a => by fin_cases a <;> rfl

/-- The attention layer on whole arrays: entry `i` is the specification's layer at row `i 0`, feature `i 1`. -/
def att (Adj M : S4096x4096.Idx → EReal) (H : S4096x16.Idx → EReal) (As An : S16x1.Idx → EReal) : S4096x16.Idx → EReal :=
  fun i => layer (fun a b => H (ix2 a b)) (fun k => As (ix2 k (0 : Fin 1))) (fun k => An (ix2 k (0 : Fin 1)))
    (fun a b => Adj (ix2 a b)) (fun a b => M (ix2 a b)) (i 0) (i 1)

/-- Equal data give equal attention rows. -/
theorem attRow_congr {n d : ℕ} {hrow hrow' : Fin d → EReal} {h h' : Fin n → Fin d → EReal} {aS aS' aN aN' : Fin d → EReal}
    {arow arow' mrow mrow' : Fin n → EReal} {c c' : Fin d} (e1 : hrow = hrow') (e2 : h = h') (e3 : aS = aS') (e4 : aN = aN')
    (e5 : arow = arow') (e6 : mrow = mrow') (e7 : c = c') :
    attRow hrow h aS aN arow mrow c = attRow hrow' h' aS' aN' arow' mrow' c' := by
  subst e1 e2 e3 e4 e5 e6 e7; rfl

/-- The block's own feature rows: the loaded features read through the rectangle of 128 rows at the point's offset. -/
abbrev tile (i : grid3.Coords) (x2 : Vec Ideal S4096x16 .f32) : Vec Ideal S128x16 .f32 :=
  View.ld x2 (Rect.unit (s := S4096x16) (k3_off1 i) S128x16.size (k3_off1_inb i))

/-- What the body leaves in the output's staging buffer: its one store's payload, of the loaded blocks. -/
theorem out_eq (c : Dev nD) (i : grid3.Coords) (arg1 : Memref sig .tc .vmem S128x4096 .f32) (harg1 : arg1.IsWhole) (arg2 : Memref sig .tc .vmem S128x4096 .f32) (harg2 : arg2.IsWhole) (arg3 : Memref sig .tc .vmem S4096x16 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S128x16 .f32) (harg6 : arg6.IsWhole)
    (x0 x1 : Vec Ideal S128x4096 .f32) (x2 : Vec Ideal S4096x16 .f32) (x3 x4 : Vec Ideal S16x1 .f32) :
    out3_A_5 (F := Ideal) c i arg1 harg1 arg2 harg2 arg3 harg3 arg4 harg4 arg5 harg5 arg6 harg6 x0 x1 x2 x3 x4
      = k3_pay1 (k3_pay2 x2) (k3_pay3 x2 x4 (tile i x2) x3 x1 x0) (k3_pay4 x2 x4 (tile i x2) x3 x1 x0) := by
  unfold out3_A_5
  rw [View.read_writes_eq_canon _ _ _ (cover3_A_5 c i arg1 harg1 arg2 harg2 arg3 harg3 arg4 harg4 arg5 harg5 arg6 harg6 x0 x1 x2 x3 x4)]
  unfold kernelRun3_A
  dsimp only
  sl_unfold_run_names
  rw [View.canon_unit_zero hz]
  simp only [View.readAt_eq_ld, harg1.read_unread, harg2.read_unread, harg3.read_unread, harg4.read_unread, harg5.read_unread,
    View.ld_unit_zero (S := S128x4096) hz, View.ld_unit_zero (S := S4096x16) hz, View.ld_unit_zero (S := S16x1) hz]

/-- Row `p` of the block's own features is row `128 n + p` of the loaded features, `n` the point's coordinate. -/
theorem tile_apply (i : grid3.Coords) (x2 : Vec Ideal S4096x16 .f32) (p : Fin 128) (k : Fin 16) (P : Fin 4096)
    (hP : P.val = 128 * (i 0).val + p.val) : tile i x2 (ix2 p k) = x2 (ix2 P k) := by
  show x2 _ = x2 _
  congr 1
  funext a
  apply Fin.ext
  match a with
  | ⟨0, _⟩ => show (k3_off1 i) 0 + 1 * p.val = P.val; rw [k3_off1_eq, hP]; show 128 * (i 0).val + 1 * p.val = _; omega
  | ⟨1, _⟩ => show (k3_off1 i) 1 + 1 * k.val = k.val; rw [k3_off1_eq]; show 0 + 1 * k.val = _; omega

/-- The printed index maps over the grid: the row blocks of the adjacency, of the transition matrix and of the result
    move with the point; the features and the attention vectors stay; the point's one coordinate is the point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ ((grid3.coords t) (0 : Fin 1)).val = t.val :=
  (by decide +kernel : ∀ t : Fin grid3.N, _)

/-- The adjacency block at point `t` is rows `128 t … 128 t + 127` of its array. -/
theorem iblk_adj (c : Dev nD) (t : Fin cfg3.N) (p : Fin 128) (j : Fin 4096) (P : Fin 4096) (hP : P.val = t.val * 128 + p.val) :
    (iblk3 V c 0 t : Vec Ideal S128x4096 .f32) (ix2 p j) = (V c main_arg1 : S4096x4096.Idx → EReal) (ix2 P j) := by
  obtain ⟨e0, e1, -⟩ := idx_facts t
  unfold iblk3
  rw [View.read_apply]
  show V c main_arg1 _ = V c main_arg1 _
  congr 1
  funext a
  apply Fin.ext
  match a with
  | ⟨0, _⟩ => show win3_0.index t 0 * 128 + 1 * p.val = P.val; rw [e0, hP]; omega
  | ⟨1, _⟩ => show win3_0.index t 1 * 4096 + 1 * j.val = j.val; rw [e1]; omega

/-- The transition block at point `t` is rows `128 t … 128 t + 127` of its array. -/
theorem iblk_trans (c : Dev nD) (t : Fin cfg3.N) (p : Fin 128) (j : Fin 4096) (P : Fin 4096) (hP : P.val = t.val * 128 + p.val) :
    (iblk3 V c 1 t : Vec Ideal S128x4096 .f32) (ix2 p j) = (V c main_arg2 : S4096x4096.Idx → EReal) (ix2 P j) := by
  obtain ⟨-, -, e0, e1, -⟩ := idx_facts t
  unfold iblk3
  rw [View.read_apply]
  show V c main_arg2 _ = V c main_arg2 _
  congr 1
  funext a
  apply Fin.ext
  match a with
  | ⟨0, _⟩ => show win3_1.index t 0 * 128 + 1 * p.val = P.val; rw [e0, hP]; omega
  | ⟨1, _⟩ => show win3_1.index t 1 * 4096 + 1 * j.val = j.val; rw [e1]; omega

/-- The features' block at every point is their whole array. -/
theorem iblk_feat (c : Dev nD) (t : Fin cfg3.N) (a' : Fin 4096) (k : Fin 16) :
    (iblk3 V c 2 t : Vec Ideal S4096x16 .f32) (ix2 a' k) = (V c main_v2 : S4096x16.Idx → EReal) (ix2 a' k) := by
  obtain ⟨-, -, -, -, e0, e1, -⟩ := idx_facts t
  unfold iblk3
  rw [View.read_apply]
  show V c main_v2 _ = V c main_v2 _
  congr 1
  funext a
  apply Fin.ext
  match a with
  | ⟨0, _⟩ => show win3_2.index t 0 * 4096 + 1 * a'.val = a'.val; rw [e0]; omega
  | ⟨1, _⟩ => show win3_2.index t 1 * 16 + 1 * k.val = k.val; rw [e1]; omega

/-- The first attention vector's block at every point is its whole array. -/
theorem iblk_self (c : Dev nD) (t : Fin cfg3.N) (k : Fin 16) (u : Fin 1) :
    (iblk3 V c 3 t : Vec Ideal S16x1 .f32) (ix2 k u) = (V c main_arg7 : S16x1.Idx → EReal) (ix2 k u) := by
  obtain ⟨-, -, -, -, -, -, e0, e1, -⟩ := idx_facts t
  unfold iblk3
  rw [View.read_apply]
  show V c main_arg7 _ = V c main_arg7 _
  congr 1
  funext a
  apply Fin.ext
  match a with
  | ⟨0, _⟩ => show win3_3.index t 0 * 16 + 1 * k.val = k.val; rw [e0]; omega
  | ⟨1, _⟩ => show win3_3.index t 1 * 1 + 1 * u.val = u.val; rw [e1]; omega

/-- The second attention vector's block at every point is its whole array. -/
theorem iblk_neigh (c : Dev nD) (t : Fin cfg3.N) (k : Fin 16) (u : Fin 1) :
    (iblk3 V c 4 t : Vec Ideal S16x1 .f32) (ix2 k u) = (V c main_arg8 : S16x1.Idx → EReal) (ix2 k u) := by
  obtain ⟨-, -, -, -, -, -, -, -, e0, e1, -⟩ := idx_facts t
  unfold iblk3
  rw [View.read_apply]
  show V c main_arg8 _ = V c main_arg8 _
  congr 1
  funext a
  apply Fin.ext
  match a with
  | ⟨0, _⟩ => show win3_4.index t 0 * 16 + 1 * k.val = k.val; rw [e0]; omega
  | ⟨1, _⟩ => show win3_4.index t 1 * 1 + 1 * u.val = u.val; rw [e1]; omega

/-- A stored block is a block of the layer: entry `y` of the block stored at row offset `128 n` is the layer's entry at
    row `128 n + y₀`, feature `y₁`, once the loaded blocks are those rows of the two matrices and all of the rest. -/
theorem blk_entry (Adj M : S4096x4096.Idx → EReal) (H : S4096x16.Idx → EReal) (As An : S16x1.Idx → EReal)
    (x0 x1 : Vec Ideal S128x4096 .f32) (x2 : Vec Ideal S4096x16 .f32) (x3 x4 : Vec Ideal S16x1 .f32) (n : Nat)
    (i : grid3.Coords) (hn : (i 0).val = n)
    (h0 : ∀ (p : Fin 128) (j : Fin 4096) (P : Fin 4096), P.val = n * 128 + p.val → x0 (ix2 p j) = Adj (ix2 P j))
    (h1 : ∀ (p : Fin 128) (j : Fin 4096) (P : Fin 4096), P.val = n * 128 + p.val → x1 (ix2 p j) = M (ix2 P j))
    (h2 : ∀ (a : Fin 4096) (k : Fin 16), x2 (ix2 a k) = H (ix2 a k))
    (h3 : ∀ (k : Fin 16) (u : Fin 1), x3 (ix2 k u) = As (ix2 k u))
    (h4 : ∀ (k : Fin 16) (u : Fin 1), x4 (ix2 k u) = An (ix2 k u))
    (y : S128x16.Idx) (idx : S4096x16.Idx) (hi0 : (idx 0).val = n * 128 + (y 0).val) (hi1 : (idx 1).val = (y 1).val) :
    k3_pay1 (k3_pay2 x2) (k3_pay3 x2 x4 (tile i x2) x3 x1 x0) (k3_pay4 x2 x4 (tile i x2) x3 x1 x0) y = att Adj M H As An idx := by
  have hy : y = ix2 (⟨(y 0).val, idx2_lt0 y⟩ : Fin 128) (⟨(y 1).val, idx2_lt1 y⟩ : Fin 16) := by
    funext a; match a with | ⟨0, _⟩ => rfl | ⟨1, _⟩ => rfl
  refine (congrArg (k3_pay1 (k3_pay2 x2) (k3_pay3 x2 x4 (tile i x2) x3 x1 x0) (k3_pay4 x2 x4 (tile i x2) x3 x1 x0)) hy).trans
    ((Cert.KernelIdeal.AttRow3.pay1_apply x2 x4 x3 (tile i x2) x1 x0 _ _).trans ?_)
  unfold att layer
  have hrowP : (idx 0).val = 128 * (i 0).val + (y 0).val := by rw [hn, hi0]; omega
  refine attRow_congr (funext fun k => (tile_apply i x2 _ k (idx 0) hrowP).trans (h2 _ _)) (funext fun a => funext fun k => h2 a k)
    (funext fun k => h3 k 0) (funext fun k => h4 k 0) (funext fun j => h0 _ j (idx 0) hi0) (funext fun j => h1 _ j (idx 0) hi0)
    (Fin.ext hi1.symm)

/-- What point `t` writes back is block `t` of the layer of the arrays as the region finds them. -/
theorem flushed_eq (c : Dev nD) (t : Fin cfg3.N) :
    (dat3 V c).flushed 5 t = ((cfg3.win 5).blk t).view.read (Elt Ideal)
      (att (V c main_arg1) (V c main_arg2) (V c main_v2) (V c main_arg7) (V c main_arg8)) := by
  show (cfg3.win 5).cut (grid3.coords t) ((dat3 V c).after 5 t) = _
  rw [after3_5]
  unfold outsAt3
  rw [out_eq]
  obtain ⟨-, -, -, -, -, -, -, -, -, -, e4, e5, ec⟩ := idx_facts t
  funext j
  show k3_pay1 (F := Ideal) _ _ _ ((cfg3.win 5).xinj (grid3.coords t) j)
    = att (V c main_arg1) (V c main_arg2) (V c main_v2) (V c main_arg7) (V c main_arg8) (((cfg3.win 5).blk t).view.emb j)
  refine blk_entry (V c main_arg1) (V c main_arg2) (V c main_v2) (V c main_arg7) (V c main_arg8)
    (iblk3 V c 0 t) (iblk3 V c 1 t) (iblk3 V c 2 t) (iblk3 V c 3 t) (iblk3 V c 4 t) t.val (grid3.coords t) ec
    (fun p j P hP => iblk_adj V c t p j P hP) (fun p j P hP => iblk_trans V c t p j P hP)
    (fun a k => iblk_feat V c t a k) (fun k u => iblk_self V c t k u) (fun k u => iblk_neigh V c t k u)
    ((cfg3.win 5).xinj (grid3.coords t) j) (((cfg3.win 5).blk t).view.emb j) ?_ ?_
  · show win3_5.index t 0 * 128 + 1 * (j 0).val = t.val * 128 + (j 0).val; rw [e4]; omega
  · show win3_5.index t 1 * 16 + 1 * (j 1).val = (j 1).val; rw [e5]; omega

/-- An index of the result array is in point `t`'s block iff each coordinate is in the block's range on its axis. -/
theorem mem_blk (t : Fin cfg3.N) (i : S4096x16.Idx) :
    i ∈ ((cfg3.win 5).blk t).view.set ↔ ∀ a : Fin 2, win3_5.index t a * S128x16.size a ≤ (i a).val ∧ (i a).val < win3_5.index t a * S128x16.size a + S128x16.size a := by
  show i ∈ ((View.whole main_v3).slice (win3_5.rect t)).set ↔ _
  rw [View.set_slice_whole, Rect.mem_set_unit]
  exact Iff.rfl

/-- The row blocks tile the result array: row `r` lies in the block of point `r / 128`. -/
theorem cover (i : S4096x16.Idx) : ∃ t : Fin cfg3.N, (cfg3.win 5).flush t = true ∧ i ∈ ((cfg3.win 5).blk t).view.set := by
  have hi0 : (i 0).val < 4096 := (i 0).isLt
  have hi1 : (i 1).val < 16 := (i 1).isLt
  have hN : cfg3.N = 32 := N_3
  obtain ⟨t, ht⟩ : ∃ t : Fin cfg3.N, t.val = (i 0).val / 128 := ⟨⟨(i 0).val / 128, by rw [hN]; omega⟩, rfl⟩
  obtain ⟨-, -, -, -, -, -, -, -, -, -, e4, e5, -⟩ := idx_facts t
  refine ⟨t, flush3_5 t, ?_⟩
  rw [mem_blk]
  intro a
  match a with
  | ⟨0, _⟩ => show win3_5.index t 0 * 128 ≤ (i 0).val ∧ (i 0).val < win3_5.index t 0 * 128 + 128; rw [e4, ht]; omega
  | ⟨1, _⟩ => show win3_5.index t 1 * 16 ≤ (i 1).val ∧ (i 1).val < win3_5.index t 1 * 16 + 16; rw [e5]; omega

/-- The result array after the region is the attention layer of the arrays as the region finds them. -/
theorem arr_eq (c : Dev nD) :
    (dat3 V c).arrAt 5 cfg3.N = att (V c main_arg1) (V c main_arg2) (V c main_v2) (V c main_arg7) (V c main_arg8) :=
  (dat3 V c).arrAt_eq_of_cover 5 (att (V c main_arg1) (V c main_arg2) (V c main_v2) (V c main_arg7) (V c main_arg8))
    (fun t _ => flushed_eq V c t) cover

end Cert.KernelIdeal.Region3

end
-- ==== Proof.Chain.lean ====
/-
  The idealized kernel's four feature regions chained: after the first matrix product, the first attention layer, the
  second matrix product and the second attention layer, the node features the kernel holds are the specification's
  two layers of the launch contents. Between regions nothing else is written: each region finds the adjacency and
  transition matrices, the weights and the attention vectors as launched, and the previous region's result.
-/
import proofs.«144369_j73821897883963_1_alg».proof.Proof.Gen.KernelIdeal.Frame
import proofs.«144369_j73821897883963_1_alg».proof.Proof.Region0
import proofs.«144369_j73821897883963_1_alg».proof.Proof.Region1
import proofs.«144369_j73821897883963_1_alg».proof.Proof.Region2
import proofs.«144369_j73821897883963_1_alg».proof.Proof.Region3

set_option maxRecDepth 16384

noncomputable section

open scoped BigOperators

namespace Cert.KernelIdeal.Chain

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.GatSpec

variable (m : (ℓ : Loc nD τ sig) → Buf (Elt Ideal) ℓ) (ρ : Dev nD → PrngReg) (c : Dev nD)

/-- The launch contents of the nine arguments, as functions of an index. -/
abbrev inX : S4096x1024.Idx → EReal := m ((c : Thread nD τ).loc main_arg0)
abbrev inAdj : S4096x4096.Idx → EReal := m ((c : Thread nD τ).loc main_arg1)
abbrev inM : S4096x4096.Idx → EReal := m ((c : Thread nD τ).loc main_arg2)
abbrev inW1 : S1024x256.Idx → EReal := m ((c : Thread nD τ).loc main_arg3)
abbrev inAs1 : S256x1.Idx → EReal := m ((c : Thread nD τ).loc main_arg4)
abbrev inAn1 : S256x1.Idx → EReal := m ((c : Thread nD τ).loc main_arg5)
abbrev inW2 : S256x16.Idx → EReal := m ((c : Thread nD τ).loc main_arg6)
abbrev inAs2 : S16x1.Idx → EReal := m ((c : Thread nD τ).loc main_arg7)
abbrev inAn2 : S16x1.Idx → EReal := m ((c : Thread nD τ).loc main_arg8)

/-- The features after each of the four regions. -/
def feat0 : S4096x256.Idx → EReal := Region0.mm (inX m c) (inW1 m c)
def feat1 : S4096x256.Idx → EReal := Region1.att (inAdj m c) (inM m c) (feat0 m c) (inAs1 m c) (inAn1 m c)
def feat2 : S4096x16.Idx → EReal := Region2.mm (feat1 m c) (inW2 m c)
def feat3 : S4096x16.Idx → EReal := Region3.att (inAdj m c) (inM m c) (feat2 m c) (inAs2 m c) (inAn2 m c)

/-! ## After region 0 -/

theorem V1_v0 : V1 m ρ c main_v0 = feat0 m c := (W1_arr m ρ c 2).trans (Region0.arr_eq (V0 m ρ) c)
theorem V1_arg1 : V1 m ρ c main_arg1 = inAdj m c := W1_of_ne m ρ c main_arg1 (by decide)
theorem V1_arg2 : V1 m ρ c main_arg2 = inM m c := W1_of_ne m ρ c main_arg2 (by decide)
theorem V1_arg4 : V1 m ρ c main_arg4 = inAs1 m c := W1_of_ne m ρ c main_arg4 (by decide)
theorem V1_arg5 : V1 m ρ c main_arg5 = inAn1 m c := W1_of_ne m ρ c main_arg5 (by decide)
theorem V1_arg6 : V1 m ρ c main_arg6 = inW2 m c := W1_of_ne m ρ c main_arg6 (by decide)
theorem V1_arg7 : V1 m ρ c main_arg7 = inAs2 m c := W1_of_ne m ρ c main_arg7 (by decide)
theorem V1_arg8 : V1 m ρ c main_arg8 = inAn2 m c := W1_of_ne m ρ c main_arg8 (by decide)

/-! ## After region 1 -/

theorem V2_v1 : V2 m ρ c main_v1 = feat1 m c := by
  refine (W2_arr m ρ c 5).trans ((Region1.arr_eq (V1 m ρ) c).trans ?_)
  rw [V1_arg1, V1_arg2, V1_v0, V1_arg4, V1_arg5]
  rfl
theorem V2_arg1 : V2 m ρ c main_arg1 = inAdj m c :=
  (W2_arr m ρ c 0).trans ((((dat1 (V1 m ρ) c).arrAt_in 0 rfl _).trans (A_eq1 (V1 m ρ) c 0)).trans (V1_arg1 m ρ c))
theorem V2_arg2 : V2 m ρ c main_arg2 = inM m c :=
  (W2_arr m ρ c 1).trans ((((dat1 (V1 m ρ) c).arrAt_in 1 rfl _).trans (A_eq1 (V1 m ρ) c 1)).trans (V1_arg2 m ρ c))
theorem V2_arg6 : V2 m ρ c main_arg6 = inW2 m c := (W2_of_ne m ρ c main_arg6 (by decide)).trans (V1_arg6 m ρ c)
theorem V2_arg7 : V2 m ρ c main_arg7 = inAs2 m c := (W2_of_ne m ρ c main_arg7 (by decide)).trans (V1_arg7 m ρ c)
theorem V2_arg8 : V2 m ρ c main_arg8 = inAn2 m c := (W2_of_ne m ρ c main_arg8 (by decide)).trans (V1_arg8 m ρ c)

/-! ## After region 2 -/

theorem V3_v2 : V3 m ρ c main_v2 = feat2 m c := by
  refine (W3_arr m ρ c 2).trans ((Region2.arr_eq (V2 m ρ) c).trans ?_)
  rw [V2_v1, V2_arg6]
  rfl
theorem V3_arg1 : V3 m ρ c main_arg1 = inAdj m c := (W3_of_ne m ρ c main_arg1 (by decide)).trans (V2_arg1 m ρ c)
theorem V3_arg2 : V3 m ρ c main_arg2 = inM m c := (W3_of_ne m ρ c main_arg2 (by decide)).trans (V2_arg2 m ρ c)
theorem V3_arg7 : V3 m ρ c main_arg7 = inAs2 m c := (W3_of_ne m ρ c main_arg7 (by decide)).trans (V2_arg7 m ρ c)
theorem V3_arg8 : V3 m ρ c main_arg8 = inAn2 m c := (W3_of_ne m ρ c main_arg8 (by decide)).trans (V2_arg8 m ρ c)

/-! ## After region 3 -/

theorem V4_v3 : V4 m ρ c main_v3 = feat3 m c := by
  refine (W4_arr m ρ c 5).trans ((Region3.arr_eq (V3 m ρ) c).trans ?_)
  rw [V3_arg1, V3_arg2, V3_v2, V3_arg7, V3_arg8]
  rfl

/-- Row `i` of the features after the four regions is the specification's second layer on the first. -/
theorem feat3_apply (i : Fin 4096) (k : Fin 16) :
    feat3 m c (ix2 i k)
      = layer (mm (layer (mm (fun a q => inX m c (ix2 a q)) (fun q b => inW1 m c (ix2 q b)))
            (fun k => inAs1 m c (ix2 k (0 : Fin 1))) (fun k => inAn1 m c (ix2 k (0 : Fin 1)))
            (fun a b => inAdj m c (ix2 a b)) (fun a b => inM m c (ix2 a b))) (fun q b => inW2 m c (ix2 q b)))
          (fun k => inAs2 m c (ix2 k (0 : Fin 1))) (fun k => inAn2 m c (ix2 k (0 : Fin 1)))
          (fun a b => inAdj m c (ix2 a b)) (fun a b => inM m c (ix2 a b)) i k := rfl

end Cert.KernelIdeal.Chain

end
-- ==== Proof.Decode4.lean ====
/-
  The decoder region of the idealized kernel, read as a value: whatever the buffers hold when the region is entered,
  its result array (4096 × 4096) ends as the decoder on every pair of rows of the staged array `Z` (4096 × 16): entry
  `(i, j)` is the logistic, spelt `1 / (1 + exp (0 - ·))`, of the inner product of rows `i` and `j`. The grid's
  4 × 4 points each have all of `Z` staged, load its rows `1024 a …` and `1024 b …` at the point's coordinates
  `(a, b)`, store the logistic of the first block times the transposed second (the casts to the same shape and the
  narrowings are the identity on extended reals; the accumulator starts at zero), and write the stored block back to
  the square block `(a, b)` of the result. The square blocks tile the result array.
-/
import proofs.«144369_j73821897883963_1_alg».proof.Proof.Gen.KernelIdeal.Frame
import proofs.«144369_j73821897883963_1_alg».proof.Proof.LibPlainDot
import proofs.«144369_j73821897883963_1_alg».proof.Proof.GatSpec
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.Decode4

open Idealize.ShloMosaic Idealize.ShloMosaic.TcCoe Idealize.ShloMosaic.ValueIdx Idealize.ShloMosaic.Tactic
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The decoder on every pair of rows of an array: entry `(r, s)` is the logistic of the inner product of rows `r` and `s`. -/
def dec (Z : S4096x16.Idx → EReal) : S4096x4096.Idx → EReal :=
  fun i => Cert.GatSpec.decode (fun k : Fin 16 => Z (ix2 (i 0) k)) (fun k : Fin 16 => Z (ix2 (i 1) k))

/-- Its entry at `(r, s)`. -/
theorem dec_apply (Z : S4096x16.Idx → EReal) (r s : Fin 4096) :
    dec Z (ix2 r s) = Cert.GatSpec.decode (fun k : Fin 16 => Z (ix2 r k)) (fun k : Fin 16 => Z (ix2 s k)) := rfl

/-- What the body leaves in the result block: the payload of the two row blocks it loads. -/
theorem out_eq (c : Dev nD) (i : grid4.Coords) (arg2 : Memref sig .tc .vmem S4096x16 .f32) (harg2 : arg2.IsWhole)
    (arg3 : Memref sig .tc .vmem S1024x1024 .f32) (harg3 : arg3.IsWhole) (x0 : Vec Ideal S4096x16 .f32) :
    out4_A_1 (F := Ideal) c i arg2 harg2 arg3 harg3 x0
      = k4_pay1 (View.ld x0 (Rect.unit (s := S4096x16) (k4_off1 i) S1024x16.size (k4_off1_inb i)))
          (View.ld x0 (Rect.unit (s := S4096x16) (k4_off2 i) S1024x16.size (k4_off2_inb i))) := by
  unfold out4_A_1
  rw [View.read_writes_eq_canon _ _ _ (cover4_A_1 c i arg2 harg2 arg3 harg3 x0)]
  unfold kernelRun4_A
  dsimp only
  sl_unfold_run_names
  rw [View.canon_unit_zero hz]
  simp only [View.readAt_eq_ld, harg2.read_unread, View.ld_unit_zero (S := S4096x16) hz]

/-- The payload at an entry: the logistic, spelt `1 / (1 + exp (0 - ·))`, of the inner product of row `p` of the first
    block and row `q` of the second (the casts to the same shape and the narrowings are the identity, the transposed
    second block is read at the swapped index, the accumulator starts at zero). -/
theorem pay_apply (x5 x9 : Vec Ideal S1024x16 .f32) (p q : Fin 1024) :
    k4_pay1 x5 x9 (ix2 p q) = Cert.GatSpec.decode (fun k : Fin 16 => x5 (ix2 p k)) (fun k : Fin 16 => x9 (ix2 q k)) := by
  have hdot : FloatOps.matmul (DotDims.plain 1024 16 1024) none
        (truncf .bf16 (shapeCast S1024x16 x5 shapeCasts_S1024x16_S1024x16) bitsLt_bf16_f32 : FVec Ideal S1024x16 .bf16)
        (transpose S16x1024 [1, 0]
          (truncf .bf16 (shapeCast S1024x16 x9 shapeCasts_S1024x16_S1024x16) bitsLt_bf16_f32 : FVec Ideal S1024x16 .bf16)
          transposes_S1024x16_p1_0_S16x1024)
        (constant ⟨2, ![1024, 1024]⟩ .f32 0x00000000#32) (ix2 p q)
      = ∑ k : Fin 16, x5 (ix2 p k) * x9 (ix2 q k) := by
    rw [Cert.Lib.PlainDot.matmul_zero_apply]
    refine Finset.sum_congr rfl fun k _ => ?_
    rw [transpose_ix2_apply]
    simp only [truncf_apply, shapeCast_self]
  unfold Cert.GatSpec.decode
  exact congrArg (fun s : EReal => Ideal.div Cert.GatSpec.wOne (Cert.GatSpec.wOne + Ideal.exp (Cert.GatSpec.wZero - s))) hdot

/-- A load of 1024 rows from row `1024 n` on reads those rows. -/
theorem ld_rows (x0 : Vec Ideal S4096x16 .f32) (off : Fin 2 → Nat) (inb : ∀ a, off a + S1024x16.size a ≤ S4096x16.size a)
    (n : Nat) (hoff : off = ![1024 * n, 0]) (p : Fin 1024) (k : Fin 16) (P : Fin 4096) (hP : P.val = 1024 * n + p.val) :
    View.ld x0 (Rect.unit (s := S4096x16) off S1024x16.size inb) (ix2 p k) = x0 (ix2 P k) := by
  subst hoff
  show x0 _ = x0 _
  congr 1
  funext a
  apply Fin.ext
  match a with
  | ⟨0, _⟩ => show 1024 * n + 1 * p.val = P.val; omega
  | ⟨1, _⟩ => show 0 + 1 * k.val = k.val; omega

/-- The printed index maps over the grid: the input's one block stays, the result's block is the point's pair of
    coordinates. -/
theorem idx_facts : ∀ t : Fin cfg4.N, win4_0.index t (0 : Fin 2) = 0 ∧ win4_0.index t (1 : Fin 2) = 0
    ∧ win4_1.index t (0 : Fin 2) = (grid4.coords t 0).val ∧ win4_1.index t (1 : Fin 2) = (grid4.coords t 1).val :=
  (by decide +kernel : ∀ t : Fin grid4.N, _)

/-- Every pair of block coordinates is some point's. -/
theorem idx_onto : ∀ (a b : Fin 4), ∃ t : Fin cfg4.N, win4_1.index t (0 : Fin 2) = a.val ∧ win4_1.index t (1 : Fin 2) = b.val :=
  (by decide +kernel : ∀ (a b : Fin 4), ∃ t : Fin grid4.N, win4_1.index t (0 : Fin 2) = a.val ∧ win4_1.index t (1 : Fin 2) = b.val)

/-- The input's block at every point is its whole array. -/
theorem iblk_all (c : Dev nD) (t : Fin cfg4.N) (P : Fin 4096) (k : Fin 16) :
    (iblk4 V c 0 t : Vec Ideal S4096x16 .f32) (ix2 P k) = (V c main_v7 : S4096x16.Idx → EReal) (ix2 P k) := by
  obtain ⟨e0, e1, -⟩ := idx_facts t
  unfold iblk4
  rw [View.read_apply]
  show V c main_v7 _ = V c main_v7 _
  congr 1
  funext a
  apply Fin.ext
  match a with
  | ⟨0, _⟩ => show win4_0.index t 0 * 4096 + 1 * P.val = P.val; rw [e0]; omega
  | ⟨1, _⟩ => show win4_0.index t 1 * 16 + 1 * k.val = k.val; rw [e1]; omega

/-- A stored block is a block of the decoder's array: entry `y` of the block stored from the loads at rows `1024 n₁` and
    `1024 n₂` is the decoder's entry at `(1024 n₁ + y₀, 1024 n₂ + y₁)`, once the staged array is `Z`. -/
theorem blk_entry (Z : S4096x16.Idx → EReal) (x0 : Vec Ideal S4096x16 .f32)
    (hx : ∀ (P : Fin 4096) (k : Fin 16), x0 (ix2 P k) = Z (ix2 P k))
    (off1 off2 : Fin 2 → Nat) (inb1 : ∀ a, off1 a + S1024x16.size a ≤ S4096x16.size a)
    (inb2 : ∀ a, off2 a + S1024x16.size a ≤ S4096x16.size a) (n1 n2 : Nat)
    (h1 : off1 = ![1024 * n1, 0]) (h2 : off2 = ![1024 * n2, 0])
    (y : S1024x1024.Idx) (i : S4096x4096.Idx) (hi0 : (i 0).val = n1 * 1024 + (y 0).val) (hi1 : (i 1).val = n2 * 1024 + (y 1).val) :
    k4_pay1 (View.ld x0 (Rect.unit (s := S4096x16) off1 S1024x16.size inb1))
      (View.ld x0 (Rect.unit (s := S4096x16) off2 S1024x16.size inb2)) y = dec Z i := by
  have hy : y = ix2 (⟨(y 0).val, idx2_lt0 y⟩ : Fin 1024) (⟨(y 1).val, idx2_lt1 y⟩ : Fin 1024) := by
    funext a; match a with | ⟨0, _⟩ => rfl | ⟨1, _⟩ => rfl
  refine (congrArg (k4_pay1 _ _) hy).trans ((pay_apply _ _ _ _).trans ?_)
  unfold dec
  refine congrArg₂ Cert.GatSpec.decode (funext fun k => ?_) (funext fun k => ?_)
  · exact (ld_rows x0 off1 inb1 n1 h1 ⟨(y 0).val, idx2_lt0 y⟩ k (i 0) (by rw [hi0]; show _ = 1024 * n1 + (y 0).val; omega)).trans (hx (i 0) k)
  · exact (ld_rows x0 off2 inb2 n2 h2 ⟨(y 1).val, idx2_lt1 y⟩ k (i 1) (by rw [hi1]; show _ = 1024 * n2 + (y 1).val; omega)).trans (hx (i 1) k)

/-- What point `t` writes back is block `t` of the decoder's array of the staged array as the region finds it. -/
theorem flushed_eq (c : Dev nD) (t : Fin cfg4.N) :
    (dat4 V c).flushed 1 t = ((cfg4.win 1).blk t).view.read (Elt Ideal) (dec (V c main_v7)) := by
  show (cfg4.win 1).cut (grid4.coords t) ((dat4 V c).after 1 t) = _
  rw [after4_1]
  unfold outsAt4
  rw [out_eq]
  obtain ⟨-, -, e2, e3⟩ := idx_facts t
  funext j
  show k4_pay1 (View.ld (iblk4 V c 0 t) (Rect.unit (s := S4096x16) (k4_off1 (grid4.coords t)) S1024x16.size (k4_off1_inb (grid4.coords t))))
      (View.ld (iblk4 V c 0 t) (Rect.unit (s := S4096x16) (k4_off2 (grid4.coords t)) S1024x16.size (k4_off2_inb (grid4.coords t))))
      ((cfg4.win 1).xinj (grid4.coords t) j)
    = dec (V c main_v7) (((cfg4.win 1).blk t).view.emb j)
  refine blk_entry (V c main_v7) (iblk4 V c 0 t) (fun P k => iblk_all V c t P k)
    (k4_off1 (grid4.coords t)) (k4_off2 (grid4.coords t)) (k4_off1_inb (grid4.coords t)) (k4_off2_inb (grid4.coords t))
    (grid4.coords t 0).val (grid4.coords t 1).val (k4_off1_eq (grid4.coords t)) (k4_off2_eq (grid4.coords t))
    ((cfg4.win 1).xinj (grid4.coords t) j) (((cfg4.win 1).blk t).view.emb j) ?_ ?_
  · show win4_1.index t 0 * 1024 + 1 * (j 0).val = (grid4.coords t 0).val * 1024 + (j 0).val; rw [e2]; omega
  · show win4_1.index t 1 * 1024 + 1 * (j 1).val = (grid4.coords t 1).val * 1024 + (j 1).val; rw [e3]; omega

/-- An index of the result array is in point `t`'s block iff each coordinate is in the block's range on its axis. -/
theorem mem_blk (t : Fin cfg4.N) (i : S4096x4096.Idx) :
    i ∈ ((cfg4.win 1).blk t).view.set ↔ ∀ a : Fin 2, win4_1.index t a * S1024x1024.size a ≤ (i a).val ∧ (i a).val < win4_1.index t a * S1024x1024.size a + S1024x1024.size a := by
  show i ∈ ((View.whole main_v8).slice (win4_1.rect t)).set ↔ _
  rw [View.set_slice_whole, Rect.mem_set_unit]
  exact Iff.rfl

/-- The square blocks tile the result array: entry `(r, s)` lies in the block with coordinates `(r / 1024, s / 1024)`. -/
theorem cover (i : S4096x4096.Idx) : ∃ t : Fin cfg4.N, (cfg4.win 1).flush t = true ∧ i ∈ ((cfg4.win 1).blk t).view.set := by
  have hi0 : (i 0).val < 4096 := (i 0).isLt
  have hi1 : (i 1).val < 4096 := (i 1).isLt
  obtain ⟨t, q0, q1⟩ := idx_onto ⟨(i 0).val / 1024, by omega⟩ ⟨(i 1).val / 1024, by omega⟩
  have q0' : win4_1.index t (0 : Fin 2) = (i 0).val / 1024 := q0
  have q1' : win4_1.index t (1 : Fin 2) = (i 1).val / 1024 := q1
  refine ⟨t, flush4_1 t, ?_⟩
  rw [mem_blk]
  intro a
  match a with
  | ⟨0, _⟩ => show win4_1.index t 0 * 1024 ≤ (i 0).val ∧ (i 0).val < win4_1.index t 0 * 1024 + 1024; rw [q0']; omega
  | ⟨1, _⟩ => show win4_1.index t 1 * 1024 ≤ (i 1).val ∧ (i 1).val < win4_1.index t 1 * 1024 + 1024; rw [q1']; omega

/-- The result array after the region is the decoder's array of the staged array as the region finds it. -/
theorem arr_eq (c : Dev nD) : (dat4 V c).arrAt 1 cfg4.N = dec (V c main_v7) :=
  (dat4 V c).arrAt_eq_of_cover 1 (dec (V c main_v7)) (fun t _ => flushed_eq V c t) cover

/-- Entry `(i, j)` of the result array after the region: the decoder on rows `i` and `j` of the staged array (`Z` names
    that array as the region finds it). -/
theorem arr (c : Dev nD) (Z : S4096x16.Idx → EReal) (hZ : V c main_v7 = Z) (i j : Fin 4096) :
    (dat4 (F := Ideal) V c).arrAt 1 cfg4.N (ValueIdx.ix2 i j)
      = Cert.GatSpec.decode (fun k : Fin 16 => Z (ValueIdx.ix2 i k)) (fun k : Fin 16 => Z (ValueIdx.ix2 j k)) := by
  subst hZ
  rw [arr_eq]; rfl

end Cert.KernelIdeal.Decode4

end
-- ==== Proof.LibHostKeepdims.lean ====
/-
  The host's row reductions kept as a column, read at coordinates on the extended reals: the host's side of
  `max(x, axis=-1, keepdims=True)` and `sum(x, axis=-1, keepdims=True)` on an `[a, b]` matrix.

  * the host's `reduce` with a maximum body over the second axis, from −∞, at row `i`: the fold of `max` from −∞ over
    the row's entries `(i, k)` — and −∞ is neutral for `max`;
  * the host's float sum over the second axis, from an initial value that is zero, at row `i`: the sum of the row's entries;
  * an `[a]` vector broadcast to the column `[a, 1]` along axis 0, at `(i, u)`: the vector at `i`;
  * an `[a, 1]` column broadcast to `[a, b]` along axes `[0, 1]`, at `(i, j)`: the column at `(i, 0)`;
  * an `[n]` vector reshaped to the one-row matrix `[1, n]` is the vector broadcast there along axis 1.
-/
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Lib.HostKeepdims

open Idealize.ShloMosaic Idealize.ShloMosaic.ValueIdx

variable {α : Type}

/-- Row `i` with column `k` put back on the reduced second axis is `(i, k)`. -/
theorem lift_axis1 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The float word of −∞ is the least extended real: the maximum with it changes nothing. -/
theorem max_negInf (y : Ideal .f32) : max (Ideal.ofBits .f32 0xFF800000#32) y = y := by
  simp [Ideal.ofBits, Ideal.ieee]

/-- The host's `reduce` with a maximum body over the second axis, from −∞, at row `i`. -/
theorem reduce_maximumf_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (i : Fin a) :
    Host.reduce FloatOps.maximumf x (constant (⟨0, ![]⟩ : Shape) .f32 0xFF800000#32) h' hu (ix1 i)
      = (Finset.univ : Finset (Fin b)).fold max (Ideal.ofBits .f32 0xFF800000#32) (fun k => x (ix2 i k)) := by
  have h : (⟨2, ![a, b]⟩ : Shape).Reduces [1] (⟨1, ![a]⟩ : Shape) := ⟨h'.1, Nat.one_pos, h'.2⟩
  rw [Host.reduce_eq_fold_single FloatOps.maximumf x _ h' h hu]
  have hf : (x ∘ h.lift (ix1 i)) = fun k : Fin b => x (ix2 i k) := funext fun k => congrArg x (lift_axis1 h i k)
  exact congrArg (fun f => Finset.fold max (Ideal.ofBits .f32 0xFF800000#32) f (Finset.univ : Finset (Fin b))) hf

/-- The host's float sum over the second axis, from zero, at row `i`: the sum of the row's entries. -/
theorem reduceAdd_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (i : Fin a) :
    Host.reduceAdd x (constant (⟨0, ![]⟩ : Shape) .f32 0x00000000#32) h' hu (ix1 i) = ∑ k : Fin b, x (ix2 i k) := by
  have h : (⟨2, ![a, b]⟩ : Shape).Reduces [1] (⟨1, ![a]⟩ : Shape) := ⟨h'.1, Nat.one_pos, h'.2⟩
  show Ideal.hostReduceAdd h' x _ (ix1 i) = _
  rw [Ideal.hostReduceAdd_single h' h]
  show Ideal.ofBits .f32 0x00000000#32 + _ = _
  rw [Ideal.ofBits_zero_f32, zero_add]
  exact Finset.sum_congr rfl fun k _ => congrArg x (lift_axis1 h i k)

/-- An `[a]` vector broadcast to the column `[a, 1]` along axis 0 reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column broadcast to `[a, b]` along axes `[0, 1]` reads, at `(i, j)`, the column at `(i, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- An `[n]` vector reshaped to one row is the vector broadcast to `[1, n]` along axis 1. -/
theorem shapeCast_row_eq_broadcastInDim {n : ℕ} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    have h0 : (i 0).val = 0 := by have := (i 0).isLt; have e : (i 0).val < 1 := this; omega
    rw [Shape.rowMajor_val_two, Shape.rowMajor_val_one]; show (i 1).val = (i 0).val * n + (i 1).val; rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Cert.Lib.HostKeepdims

end
-- ==== Proof.HostStretch.lean ====
/-
  The host operations between the last attention region and the decoder region, read as a value: whatever the buffers
  hold before them, with `H` (4096 × 16) the features' array there, the normalised array they leave is every row of `H`
  divided by the larger of a small floor and the row's Euclidean length. The operations, in order: the squares of the
  entries; their sum along each row, started at zero; that sum kept as a column; its square root; the floor as a
  column; the larger of the two; that column spread along the rows; the quotient. Read at an entry, each is its
  operand at the entry it names. The buffers the operations do not write — the features' and the arguments' among
  them — hold afterwards what they held before.
-/
import proofs.«144369_j73821897883963_1_alg».proof.Proof.Gen.KernelIdeal.Launch
import proofs.«144369_j73821897883963_1_alg».proof.Proof.LibHostKeepdims
import proofs.«144369_j73821897883963_1_alg».proof.Proof.GatSpec
import Idealize.ShloMosaic.Lib.StableHlo.Run
import Idealize.ShloMosaic.Lib.ValueIdx
import Idealize.ShloMosaic.Lib.IdealHost

set_option maxRecDepth 16384

noncomputable section

open scoped BigOperators

namespace Cert.KernelIdeal.HostStretch

open Idealize.ShloMosaic Idealize.ShloMosaic.TcCoe Idealize.ShloMosaic.ValueIdx
open Idealize.SL.Sem
open Cert.KernelIdeal Cert.KernelIdeal.Gen

/-- The composed four stretches, from contents `W`. -/
abbrev afterAll (W : Valuation τ sig (Elt Ideal)) : Valuation τ sig (Elt Ideal) :=
  StableHlo.after hostOps4_3 (StableHlo.after hostOps4_2 (StableHlo.after hostOps4_1 (StableHlo.after hostOps4 W)))

/-- Each row's sum of squares, as the host's reduction computes it. -/
def sq (H : FVec Ideal S4096x16 .f32) : FVec Ideal S4096 .f32 :=
  Host.reduceAdd (mulf H H) (constant S_ .f32 0x00000000#32) reducesTo_S4096x16_S4096_d1 h_S_

/-- Each row's Euclidean length, kept as a column. -/
def len (H : FVec Ideal S4096x16 .f32) : FVec Ideal S4096x1 .f32 :=
  Host.sqrt (broadcastInDim S4096x1 ![0] bcast_S4096_S4096x1_0 (sq H))

/-- The larger of the floor and the length, as a column. -/
def den (H : FVec Ideal S4096x16 .f32) : FVec Ideal S4096x1 .f32 :=
  maximumf (broadcastInDim S4096x1 ![] bcast_S_S4096x1 (constant S_ .f32 0x2B8CBCCC#32)) (len H)

/-- Every row divided by the larger of the floor and its length. -/
def unitRows (H : FVec Ideal S4096x16 .f32) : FVec Ideal S4096x16 .f32 :=
  Host.divf H (broadcastInDim S4096x16 ![0, 1] bcast_S4096x1_S4096x16_0_1 (den H))

/-- What the four stretches leave in the normalised array's buffer: `unitRows` of what the features' buffer held. -/
theorem v7_term (W : Valuation τ sig (Elt Ideal)) :
    afterAll W (Proc.devRef .tc main_v7) = unitRows (W (Proc.devRef .tc main_v3)) := by
  unfold afterAll
  simp only [hostOps4, hostOps4_1, hostOps4_2, hostOps4_3]
  after_results
  rfl

/-- A row's sum of squares, with the reduction's zero start kept in front. -/
theorem sq_apply (H : FVec Ideal S4096x16 .f32) (i : Fin 4096) :
    sq H (ix1 i) = Cert.GatSpec.wZero + ∑ k : Fin 16, H (ix2 i k) * H (ix2 i k) := by
  unfold sq
  refine (Cert.Lib.HostKeepdims.reduceAdd_row (a := 4096) (b := 16) (mulf H H) reducesTo_S4096x16_S4096_d1 h_S_ i).trans ?_
  rw [Cert.GatSpec.wZero_eq, zero_add]
  rfl

/-- A row's length, at the column's one entry of that row. -/
theorem len_apply (H : FVec Ideal S4096x16 .f32) (i : Fin 4096) :
    len H (ix2 i (0 : Fin 1)) = Ideal.sqrt (Cert.GatSpec.wZero + ∑ k : Fin 16, H (ix2 i k) * H (ix2 i k)) := by
  unfold len
  show Ideal.sqrt (broadcastInDim S4096x1 ![0] bcast_S4096_S4096x1_0 (sq H) (ix2 i (0 : Fin 1))) = _
  exact congrArg Ideal.sqrt
    ((Cert.Lib.HostKeepdims.broadcastInDim_a_a1_apply (a := 4096) (sq H) bcast_S4096_S4096x1_0 i 0).trans (sq_apply H i))

/-- The divisor of a row. -/
theorem den_apply (H : FVec Ideal S4096x16 .f32) (i : Fin 4096) :
    den H (ix2 i (0 : Fin 1))
      = max Cert.GatSpec.wFloor (Ideal.sqrt (Cert.GatSpec.wZero + ∑ k : Fin 16, H (ix2 i k) * H (ix2 i k))) := by
  unfold den
  show max (broadcastInDim S4096x1 ![] bcast_S_S4096x1 (constant S_ .f32 0x2B8CBCCC#32) (ix2 i (0 : Fin 1))) (len H (ix2 i (0 : Fin 1))) = _
  rw [len_apply, broadcastInDim_scalar_apply]
  rfl

/-- Entry `(i, c)` of the normalised array: row `i` brought to unit length, at column `c`. -/
theorem unitRows_apply (H : FVec Ideal S4096x16 .f32) (i : Fin 4096) (c' : Fin 16) :
    unitRows H (ix2 i c') = Cert.GatSpec.unitRow (fun k : Fin 16 => H (ix2 i k)) c' := by
  unfold unitRows Cert.GatSpec.unitRow
  show Ideal.div (H (ix2 i c')) (broadcastInDim S4096x16 ![0, 1] bcast_S4096x1_S4096x16_0_1 (den H) (ix2 i c')) = _
  exact congrArg (Ideal.div (H (ix2 i c')))
    ((Cert.Lib.HostKeepdims.broadcastInDim_a1_ab_apply (a := 4096) (b := 16) (den H) bcast_S4096x1_S4096x16_0_1 i c').trans (den_apply H i))

/-- THE NORMALISED ARRAY after the four stretches, entry by entry: whatever the buffers held before them, with `H`
    the features' array there, entry `(i, c)` is row `i` of `H` brought to unit length, at column `c`. -/
theorem z_apply (W : Valuation τ sig (Elt Ideal)) (H : S4096x16.Idx → EReal) (hH : W (Proc.devRef .tc main_v3) = H)
    (i : Fin 4096) (c' : Fin 16) :
    StableHlo.after hostOps4_3 (StableHlo.after hostOps4_2 (StableHlo.after hostOps4_1 (StableHlo.after hostOps4 W)))
        (Proc.devRef .tc main_v7) (ValueIdx.ix2 i c')
      = Cert.GatSpec.unitRow (fun k : Fin 16 => H (ValueIdx.ix2 i k)) c' := by
  subst hH
  exact (congrFun (v7_term W) (ix2 i c')).trans (unitRows_apply (W (Proc.devRef .tc main_v3)) i c')

/-- The references the four stretches write. -/
abbrev written : List (Ref sig .tc) :=
  [main_call0_v0, main_call0_cst, main_call0_v1, main_call0_v2, main_v4, main_cst, main_call1_v0, main_call1_v1,
    main_v5, main_v6, main_v7]

/-- A buffer none of the four stretches writes holds after them what it held before. -/
theorem keep (W : Valuation τ sig (Elt Ideal)) (b : Ref sig .tc) (hb : b ∉ written) :
    StableHlo.after hostOps4_3 (StableHlo.after hostOps4_2 (StableHlo.after hostOps4_1 (StableHlo.after hostOps4 W)))
        (Proc.devRef .tc b) = W (Proc.devRef .tc b) :=
  calc StableHlo.after hostOps4_3 (StableHlo.after hostOps4_2 (StableHlo.after hostOps4_1 (StableHlo.after hostOps4 W))) (Proc.devRef .tc b)
    _ = StableHlo.after hostOps4_2 (StableHlo.after hostOps4_1 (StableHlo.after hostOps4 W)) (Proc.devRef .tc b) :=
        StableHlo.after_of_forall_not_mem (b := Proc.devRef .tc b) _ _ (List.forall_iff_forall_mem.mp (by
          simp only [hostOps4_3, List.Forall, StableHlo.nullary_writes, StableHlo.unary_writes, StableHlo.binary_writes, Finset.mem_singleton]
          repeat' apply And.intro
          all_goals exact StableHlo.devRef_ne_of_ne (fun e => hb (by subst e; decide))))
    _ = StableHlo.after hostOps4_1 (StableHlo.after hostOps4 W) (Proc.devRef .tc b) :=
        StableHlo.after_of_forall_not_mem (b := Proc.devRef .tc b) _ _ (List.forall_iff_forall_mem.mp (by
          simp only [hostOps4_2, List.Forall, StableHlo.nullary_writes, StableHlo.unary_writes, StableHlo.binary_writes, Finset.mem_singleton]
          repeat' apply And.intro
          all_goals exact StableHlo.devRef_ne_of_ne (fun e => hb (by subst e; decide))))
    _ = StableHlo.after hostOps4 W (Proc.devRef .tc b) :=
        StableHlo.after_of_forall_not_mem (b := Proc.devRef .tc b) _ _ (List.forall_iff_forall_mem.mp (by
          simp only [hostOps4_1, List.Forall, StableHlo.nullary_writes, StableHlo.unary_writes, StableHlo.binary_writes, Finset.mem_singleton]
          exact StableHlo.devRef_ne_of_ne (fun e => hb (by subst e; decide))))
    _ = W (Proc.devRef .tc b) :=
        StableHlo.after_of_forall_not_mem (b := Proc.devRef .tc b) _ _ (List.forall_iff_forall_mem.mp (by
          simp only [hostOps4, List.Forall, StableHlo.nullary_writes, StableHlo.unary_writes, StableHlo.binary_writes, Finset.mem_singleton]
          repeat' apply And.intro
          all_goals exact StableHlo.devRef_ne_of_ne (fun e => hb (by subst e; decide))))

/-- So the features' buffer and the nine argument buffers are as before the stretches. -/
theorem keep_main_v3 (W : Valuation τ sig (Elt Ideal)) : afterAll W (Proc.devRef .tc main_v3) = W (Proc.devRef .tc main_v3) := keep W main_v3 (by decide)
theorem keep_main_arg0 (W : Valuation τ sig (Elt Ideal)) : afterAll W (Proc.devRef .tc main_arg0) = W (Proc.devRef .tc main_arg0) := keep W main_arg0 (by decide)
theorem keep_main_arg1 (W : Valuation τ sig (Elt Ideal)) : afterAll W (Proc.devRef .tc main_arg1) = W (Proc.devRef .tc main_arg1) := keep W main_arg1 (by decide)
theorem keep_main_arg2 (W : Valuation τ sig (Elt Ideal)) : afterAll W (Proc.devRef .tc main_arg2) = W (Proc.devRef .tc main_arg2) := keep W main_arg2 (by decide)
theorem keep_main_arg3 (W : Valuation τ sig (Elt Ideal)) : afterAll W (Proc.devRef .tc main_arg3) = W (Proc.devRef .tc main_arg3) := keep W main_arg3 (by decide)
theorem keep_main_arg4 (W : Valuation τ sig (Elt Ideal)) : afterAll W (Proc.devRef .tc main_arg4) = W (Proc.devRef .tc main_arg4) := keep W main_arg4 (by decide)
theorem keep_main_arg5 (W : Valuation τ sig (Elt Ideal)) : afterAll W (Proc.devRef .tc main_arg5) = W (Proc.devRef .tc main_arg5) := keep W main_arg5 (by decide)
theorem keep_main_arg6 (W : Valuation τ sig (Elt Ideal)) : afterAll W (Proc.devRef .tc main_arg6) = W (Proc.devRef .tc main_arg6) := keep W main_arg6 (by decide)
theorem keep_main_arg7 (W : Valuation τ sig (Elt Ideal)) : afterAll W (Proc.devRef .tc main_arg7) = W (Proc.devRef .tc main_arg7) := keep W main_arg7 (by decide)
theorem keep_main_arg8 (W : Valuation τ sig (Elt Ideal)) : afterAll W (Proc.devRef .tc main_arg8) = W (Proc.devRef .tc main_arg8) := keep W main_arg8 (by decide)

end Cert.KernelIdeal.HostStretch

end
-- ==== Proof.KernelFinal.lean ====
/-
  The idealized kernel's two results as functions of the launch contents: the embedding it returns is the
  specification's (`GatSpec.embed`: two attention layers, each row then brought to unit length by the host operations
  between the fourth and the fifth region), and the predicted adjacency is the specification's decoder on every pair
  of embedded rows (`GatSpec.pred`: the fifth region, which reads the embedding as the host operations left it).
-/
import proofs.«144369_j73821897883963_1_alg».proof.Proof.Chain
import proofs.«144369_j73821897883963_1_alg».proof.Proof.Decode4
import proofs.«144369_j73821897883963_1_alg».proof.Proof.HostStretch

set_option maxRecDepth 16384

noncomputable section

open scoped BigOperators

namespace Cert.KernelIdeal.Final

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Chain Cert.GatSpec

variable (m : (ℓ : Loc nD τ sig) → Buf (Elt Ideal) ℓ) (ρ : Dev nD → PrngReg) (c : Dev nD)

/-- The specification's embedding of the launch contents. -/
def emb (i : Fin 4096) (q : Fin 16) : EReal :=
  embed (fun a q => inX m c (ix2 a q)) (fun a b => inAdj m c (ix2 a b)) (fun a b => inM m c (ix2 a b))
    (fun q b => inW1 m c (ix2 q b)) (fun k => inAs1 m c (ix2 k (0 : Fin 1))) (fun k => inAn1 m c (ix2 k (0 : Fin 1)))
    (fun q b => inW2 m c (ix2 q b)) (fun k => inAs2 m c (ix2 k (0 : Fin 1))) (fun k => inAn2 m c (ix2 k (0 : Fin 1))) i q

/-- The specification's predicted adjacency of the launch contents. -/
def prd (i j : Fin 4096) : EReal :=
  pred (fun a q => inX m c (ix2 a q)) (fun a b => inAdj m c (ix2 a b)) (fun a b => inM m c (ix2 a b))
    (fun q b => inW1 m c (ix2 q b)) (fun k => inAs1 m c (ix2 k (0 : Fin 1))) (fun k => inAn1 m c (ix2 k (0 : Fin 1)))
    (fun q b => inW2 m c (ix2 q b)) (fun k => inAs2 m c (ix2 k (0 : Fin 1))) (fun k => inAn2 m c (ix2 k (0 : Fin 1))) i j

/-- After the host operations the embedding's buffer holds the unit rows of the second layer's features. -/
theorem W8_v7 (i : Fin 4096) (q : Fin 16) :
    (W8 m ρ c (Proc.devRef .tc main_v7) : S4096x16.Idx → EReal) (ix2 i q) = emb m c i q :=
  (HostStretch.z_apply (W4 m ρ c) (feat3 m c) (V4_v3 m ρ c) i q).trans rfl

/-- The fifth region reads the embedding and leaves it as it found it. -/
theorem W9_v7 : W9 m ρ c (Proc.devRef .tc main_v7) = W8 m ρ c (Proc.devRef .tc main_v7) :=
  (W9_arr m ρ c 0).trans (((dat4 (V8 m ρ) c).arrAt_in 0 rfl _).trans (A_eq4 (V8 m ρ) c 0))

/-- The returned embedding, entry by entry. -/
theorem v7_apply (i : Fin 4096) (q : Fin 16) :
    (W9 m ρ c (Proc.devRef .tc main_v7) : S4096x16.Idx → EReal) (ix2 i q) = emb m c i q := by
  rw [W9_v7]; exact W8_v7 m ρ c i q

/-- The returned predicted adjacency, entry by entry. -/
theorem v8_apply (i j : Fin 4096) :
    (W9 m ρ c (Proc.devRef .tc main_v8) : S4096x4096.Idx → EReal) (ix2 i j) = prd m c i j := by
  refine (congrFun (W9_arr m ρ c 1) (ix2 i j)).trans ((Decode4.arr (V8 m ρ) c _ rfl i j).trans ?_)
  unfold prd pred
  exact congrArg₂ decode (funext fun k => W8_v7 m ρ c i k) (funext fun k => W8_v7 m ρ c j k)

end Cert.KernelIdeal.Final

end
-- ==== Proof.RefRun.lean ====
import proofs.«144369_j73821897883963_1_alg».proof.Proof.Gen.ReferenceIdeal
import Idealize.ShloMosaic.Lib.StableHlo.Run

/-!
# The reference program's run

The reference's `@main` is a straight line of StableHLO operations once its module-local functions
(`leaky_relu`, `elu`, `elu_3`, `norm`, `clip` and the `_where…` helpers they call) are unfolded at their call
sites: `ops` lists those operations in program order, each callee's operations written over the call's own
buffer record. `main_eq` says `@main` is exactly that line, `run_main` that every execution ends with each
buffer at the fold of the operations over the launch contents, and `argK_eq` that no operation writes an
argument buffer.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `@main`'s 127 operations in order, every call's body written out at the call site: twice over, one attention
    layer (the projection, its two score columns, their outer sum, the elementwise product with the third argument,
    `leaky_relu`, the select on the second argument's sign, the row softmax, the weighted sum, `elu`); then the row
    norm and its clip, the division, and the logistic of the normalised rows' Gram matrix. -/
abbrev ops : List (HloOp τ sig (Elt F)) :=
  [ binary main_arg0 main_arg3 main_v0 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    binary main_v0 main_arg4 main_v1 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    binary main_v0 main_arg5 main_v2 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_v2 main_v3 ((transpose S1x4096 [1, 0] · transposes_S4096x1_S1x4096_1_0) : (⟨S4096x1, .f32⟩ : BufTy).Contents (Elt F) → (⟨S1x4096, .f32⟩ : BufTy).Contents (Elt F)),
    unary main_v1 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    binary main_v6 main_arg2 main_v7 (mulf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4096x4096 ![] bcast_S_S4096x4096),
    TRef.binary (.of main_v7 : TRef sig ⟨S4096x4096, .f32⟩) main_call0.v0 main_call0.v1 (cmpf .oge),
    TRef.unary (.of main_cst : TRef sig ⟨S_, .f32⟩) main_call0.v2 id,
    TRef.unary main_call0.v2 main_call0.v3 (broadcastInDim S4096x4096 ![] bcast_S_S4096x4096),
    TRef.binary main_call0.v3 (.of main_v7 : TRef sig ⟨S4096x4096, .f32⟩) main_call0.v4 mulf,
    TRef.ternary main_call0.v1 (.of main_v7 : TRef sig ⟨S4096x4096, .f32⟩) main_call0.v4 main_call0.call0.v0 select,
    nullary main_cst_0 (constant S_ .f32 0x00000000#32),
    unary main_cst_0 main_v9 (broadcastInDim S4096x4096 ![] bcast_S_S4096x4096 : (⟨S_, .f32⟩ : BufTy).Contents (Elt F) → (⟨S4096x4096, .f32⟩ : BufTy).Contents (Elt F)),
    binary main_arg1 main_v9 main_v10 (cmpf .ogt : (⟨S4096x4096, .f32⟩ : BufTy).Contents (Elt F) → (⟨S4096x4096, .f32⟩ : BufTy).Contents (Elt F) → (⟨S4096x4096, .i1⟩ : BufTy).Contents (Elt F)),
    nullary main_cst_1 (constant S_ .f32 0xD9FFCB9E#32),
    TRef.unary (.of main_cst_1 : TRef sig ⟨S_, .f32⟩) main_call1.v0 id,
    TRef.unary main_call1.v0 main_call1.v1 (broadcastInDim S4096x4096 ![] bcast_S_S4096x4096),
    TRef.ternary (.of main_v10 : TRef sig ⟨S4096x4096, .i1⟩) (.of main_v8 : TRef sig ⟨S4096x4096, .f32⟩) main_call1.v1 main_call1.v2 select,
    nullary main_cst_2 (constant S_ .f32 0xFF800000#32),
    binary main_v11 main_cst_2 main_v12 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v13 (broadcastInDim S4096 ![] bcast_S_S4096 : (⟨S_, .f32⟩ : BufTy).Contents (Elt F) → (⟨S4096, .f32⟩ : BufTy).Contents (Elt F)),
    binary main_v13 main_v12 main_v14 (maximumf : (⟨S4096, .f32⟩ : BufTy).Contents (Elt F) → (⟨S4096, .f32⟩ : BufTy).Contents (Elt F) → (⟨S4096, .f32⟩ : BufTy).Contents (Elt F)),
    unary main_v14 main_v15 (broadcastInDim S4096x1 ![0] bcast_S4096_S4096x1_0 : (⟨S4096, .f32⟩ : BufTy).Contents (Elt F) → (⟨S4096x1, .f32⟩ : BufTy).Contents (Elt F)),
    unary main_v15 main_v16 (broadcastInDim S4096x4096 ![0, 1] bcast_S4096x1_S4096x4096_0_1 : (⟨S4096x1, .f32⟩ : BufTy).Contents (Elt F) → (⟨S4096x4096, .f32⟩ : BufTy).Contents (Elt F)),
    binary main_v11 main_v16 main_v17 (subf : (⟨S4096x4096, .f32⟩ : BufTy).Contents (Elt F) → (⟨S4096x4096, .f32⟩ : BufTy).Contents (Elt F) → (⟨S4096x4096, .f32⟩ : BufTy).Contents (Elt F)),
    unary main_v17 main_v18 (Host.exp : (⟨S4096x4096, .f32⟩ : BufTy).Contents (Elt F) → (⟨S4096x4096, .f32⟩ : BufTy).Contents (Elt F)),
    nullary main_cst_4 (constant S_ .f32 0x00000000#32),
    binary main_v18 main_cst_4 main_v19 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (broadcastInDim S4096x4096 ![0, 1] bcast_S4096x1_S4096x4096_0_1 : (⟨S4096x1, .f32⟩ : BufTy).Contents (Elt F) → (⟨S4096x4096, .f32⟩ : BufTy).Contents (Elt F)),
    binary main_v18 main_v21 main_v22 (Host.divf : (⟨S4096x4096, .f32⟩ : BufTy).Contents (Elt F) → (⟨S4096x4096, .f32⟩ : BufTy).Contents (Elt F) → (⟨S4096x4096, .f32⟩ : BufTy).Contents (Elt F)),
    binary main_v22 main_v0 main_v23 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    TRef.nullary main_call2.cst (constant S_ .f32 0x00000000#32),
    TRef.unary main_call2.cst main_call2.v0 (broadcastInDim S4096x256 ![] bcast_S_S4096x256),
    TRef.binary (.of main_v23 : TRef sig ⟨S4096x256, .f32⟩) main_call2.v0 main_call2.v1 (cmpf .ogt),
    TRef.nullary main_call2.cst_0 (constant S_ .f32 0x00000000#32),
    TRef.unary main_call2.cst_0 main_call2.v2 (broadcastInDim S4096x256 ![] bcast_S_S4096x256),
    TRef.binary (.of main_v23 : TRef sig ⟨S4096x256, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4096x256 ![] bcast_S_S4096x256),
    TRef.ternary main_call2.v3 main_call2.call0.v1 (.of main_v23 : TRef sig ⟨S4096x256, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S4096x256 ![] bcast_S_S4096x256),
    TRef.binary main_call2.v6 main_call2.v5 main_call2.v7 mulf,
    TRef.ternary main_call2.v1 (.of main_v23 : TRef sig ⟨S4096x256, .f32⟩) main_call2.v7 main_call2.call1.v0 select,
    binary main_v24 main_arg6 main_v25 ((fun l r => Host.dotGeneral dot_S4096x256_S256x16_S4096x16_1_0_0_1_n_n none l r) : (⟨S4096x256, .f32⟩ : BufTy).Contents (Elt F) → (⟨S256x16, .f32⟩ : BufTy).Contents (Elt F) → (⟨S4096x16, .f32⟩ : BufTy).Contents (Elt F)),
    binary main_v25 main_arg7 main_v26 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    binary main_v25 main_arg8 main_v27 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    unary main_v27 main_v28 ((transpose S1x4096 [1, 0] · transposes_S4096x1_S1x4096_1_0) : (⟨S4096x1, .f32⟩ : BufTy).Contents (Elt F) → (⟨S1x4096, .f32⟩ : BufTy).Contents (Elt F)),
    unary main_v26 main_v29 (broadcastInDim S4096x4096 ![0, 1] bcast_S4096x1_S4096x4096_0_1 : (⟨S4096x1, .f32⟩ : BufTy).Contents (Elt F) → (⟨S4096x4096, .f32⟩ : BufTy).Contents (Elt F)),
    unary main_v28 main_v30 (broadcastInDim S4096x4096 ![0, 1] bcast_S1x4096_S4096x4096_0_1 : (⟨S1x4096, .f32⟩ : BufTy).Contents (Elt F) → (⟨S4096x4096, .f32⟩ : BufTy).Contents (Elt F)),
    binary main_v29 main_v30 main_v31 (addf : (⟨S4096x4096, .f32⟩ : BufTy).Contents (Elt F) → (⟨S4096x4096, .f32⟩ : BufTy).Contents (Elt F) → (⟨S4096x4096, .f32⟩ : BufTy).Contents (Elt F)),
    binary main_v31 main_arg2 main_v32 (mulf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x3E4CCCCD#32),
    TRef.nullary main_call3.cst (constant S_ .f32 0x00000000#32),
    TRef.unary main_call3.cst main_call3.v0 (broadcastInDim S4096x4096 ![] bcast_S_S4096x4096),
    TRef.binary (.of main_v32 : TRef sig ⟨S4096x4096, .f32⟩) main_call3.v0 main_call3.v1 (cmpf .oge),
    TRef.unary (.of main_cst_5 : TRef sig ⟨S_, .f32⟩) main_call3.v2 id,
    TRef.unary main_call3.v2 main_call3.v3 (broadcastInDim S4096x4096 ![] bcast_S_S4096x4096),
    TRef.binary main_call3.v3 (.of main_v32 : TRef sig ⟨S4096x4096, .f32⟩) main_call3.v4 mulf,
    TRef.ternary main_call3.v1 (.of main_v32 : TRef sig ⟨S4096x4096, .f32⟩) main_call3.v4 main_call3.call0.v0 select,
    nullary main_cst_6 (constant S_ .f32 0x00000000#32),
    unary main_cst_6 main_v34 (broadcastInDim S4096x4096 ![] bcast_S_S4096x4096 : (⟨S_, .f32⟩ : BufTy).Contents (Elt F) → (⟨S4096x4096, .f32⟩ : BufTy).Contents (Elt F)),
    binary main_arg1 main_v34 main_v35 (cmpf .ogt : (⟨S4096x4096, .f32⟩ : BufTy).Contents (Elt F) → (⟨S4096x4096, .f32⟩ : BufTy).Contents (Elt F) → (⟨S4096x4096, .i1⟩ : BufTy).Contents (Elt F)),
    nullary main_cst_7 (constant S_ .f32 0xD9FFCB9E#32),
    TRef.unary (.of main_cst_7 : TRef sig ⟨S_, .f32⟩) main_call4.v0 id,
    TRef.unary main_call4.v0 main_call4.v1 (broadcastInDim S4096x4096 ![] bcast_S_S4096x4096),
    TRef.ternary (.of main_v35 : TRef sig ⟨S4096x4096, .i1⟩) (.of main_v33 : TRef sig ⟨S4096x4096, .f32⟩) main_call4.v1 main_call4.v2 select,
    nullary main_cst_8 (constant S_ .f32 0xFF800000#32),
    binary main_v36 main_cst_8 main_v37 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0xFF800000#32),
    unary main_cst_9 main_v38 (broadcastInDim S4096 ![] bcast_S_S4096 : (⟨S_, .f32⟩ : BufTy).Contents (Elt F) → (⟨S4096, .f32⟩ : BufTy).Contents (Elt F)),
    binary main_v38 main_v37 main_v39 (maximumf : (⟨S4096, .f32⟩ : BufTy).Contents (Elt F) → (⟨S4096, .f32⟩ : BufTy).Contents (Elt F) → (⟨S4096, .f32⟩ : BufTy).Contents (Elt F)),
    unary main_v39 main_v40 (broadcastInDim S4096x1 ![0] bcast_S4096_S4096x1_0 : (⟨S4096, .f32⟩ : BufTy).Contents (Elt F) → (⟨S4096x1, .f32⟩ : BufTy).Contents (Elt F)),
    unary main_v40 main_v41 (broadcastInDim S4096x4096 ![0, 1] bcast_S4096x1_S4096x4096_0_1 : (⟨S4096x1, .f32⟩ : BufTy).Contents (Elt F) → (⟨S4096x4096, .f32⟩ : BufTy).Contents (Elt F)),
    binary main_v36 main_v41 main_v42 (subf : (⟨S4096x4096, .f32⟩ : BufTy).Contents (Elt F) → (⟨S4096x4096, .f32⟩ : BufTy).Contents (Elt F) → (⟨S4096x4096, .f32⟩ : BufTy).Contents (Elt F)),
    unary main_v42 main_v43 (Host.exp : (⟨S4096x4096, .f32⟩ : BufTy).Contents (Elt F) → (⟨S4096x4096, .f32⟩ : BufTy).Contents (Elt F)),
    nullary main_cst_10 (constant S_ .f32 0x00000000#32),
    binary main_v43 main_cst_10 main_v44 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v44 main_v45 (broadcastInDim S4096x1 ![0] bcast_S4096_S4096x1_0 : (⟨S4096, .f32⟩ : BufTy).Contents (Elt F) → (⟨S4096x1, .f32⟩ : BufTy).Contents (Elt F)),
    unary main_v45 main_v46 (broadcastInDim S4096x4096 ![0, 1] bcast_S4096x1_S4096x4096_0_1 : (⟨S4096x1, .f32⟩ : BufTy).Contents (Elt F) → (⟨S4096x4096, .f32⟩ : BufTy).Contents (Elt F)),
    binary main_v43 main_v46 main_v47 (Host.divf : (⟨S4096x4096, .f32⟩ : BufTy).Contents (Elt F) → (⟨S4096x4096, .f32⟩ : BufTy).Contents (Elt F) → (⟨S4096x4096, .f32⟩ : BufTy).Contents (Elt F)),
    binary main_v47 main_v25 main_v48 ((fun l r => Host.dotGeneral dot_S4096x4096_S4096x16_S4096x16_1_0_0_1_n_n none l r) : (⟨S4096x4096, .f32⟩ : BufTy).Contents (Elt F) → (⟨S4096x16, .f32⟩ : BufTy).Contents (Elt F) → (⟨S4096x16, .f32⟩ : BufTy).Contents (Elt F)),
    TRef.nullary main_call5.cst (constant S_ .f32 0x00000000#32),
    TRef.unary main_call5.cst main_call5.v0 (broadcastInDim S4096x16 ![] bcast_S_S4096x16),
    TRef.binary (.of main_v48 : TRef sig ⟨S4096x16, .f32⟩) main_call5.v0 main_call5.v1 (cmpf .ogt),
    TRef.nullary main_call5.cst_0 (constant S_ .f32 0x00000000#32),
    TRef.unary main_call5.cst_0 main_call5.v2 (broadcastInDim S4096x16 ![] bcast_S_S4096x16),
    TRef.binary (.of main_v48 : TRef sig ⟨S4096x16, .f32⟩) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S4096x16 ![] bcast_S_S4096x16),
    TRef.ternary main_call5.v3 main_call5.call0.v1 (.of main_v48 : TRef sig ⟨S4096x16, .f32⟩) main_call5.call0.v2 select,
    TRef.unary main_call5.call0.v2 main_call5.v5 Host.expm1,
    TRef.nullary main_call5.cst_2 (constant S_ .f32 0x3F800000#32),
    TRef.unary main_call5.cst_2 main_call5.v6 (broadcastInDim S4096x16 ![] bcast_S_S4096x16),
    TRef.binary main_call5.v6 main_call5.v5 main_call5.v7 mulf,
    TRef.ternary main_call5.v1 (.of main_v48 : TRef sig ⟨S4096x16, .f32⟩) main_call5.v7 main_call5.call1.v0 select,
    TRef.binary (.of main_v49 : TRef sig ⟨S4096x16, .f32⟩) (.of main_v49 : TRef sig ⟨S4096x16, .f32⟩) main_call6.v0 mulf,
    TRef.nullary main_call6.cst (constant S_ .f32 0x00000000#32),
    TRef.binary main_call6.v0 main_call6.cst main_call6.v1 (fun x v => Host.reduceAdd x v reducesTo_S4096x16_S4096_d1 h_S_),
    TRef.unary main_call6.v1 main_call6.v2 (broadcastInDim S4096x1 ![0] bcast_S4096_S4096x1_0),
    TRef.unary main_call6.v2 main_call6.v3 Host.sqrt,
    nullary main_cst_11 (constant S_ .f32 0x2B8CBCCC#32),
    TRef.unary (.of main_cst_11 : TRef sig ⟨S_, .f32⟩) main_call7.v0 id,
    TRef.unary main_call7.v0 main_call7.v1 (broadcastInDim S4096x1 ![] bcast_S_S4096x1),
    TRef.binary main_call7.v1 (.of main_v50 : TRef sig ⟨S4096x1, .f32⟩) main_call7.v2 maximumf,
    unary main_v51 main_v52 (broadcastInDim S4096x16 ![0, 1] bcast_S4096x1_S4096x16_0_1 : (⟨S4096x1, .f32⟩ : BufTy).Contents (Elt F) → (⟨S4096x16, .f32⟩ : BufTy).Contents (Elt F)),
    binary main_v49 main_v52 main_v53 (Host.divf : (⟨S4096x16, .f32⟩ : BufTy).Contents (Elt F) → (⟨S4096x16, .f32⟩ : BufTy).Contents (Elt F) → (⟨S4096x16, .f32⟩ : BufTy).Contents (Elt F)),
    unary main_v53 main_v54 ((transpose S16x4096 [1, 0] · transposes_S4096x16_S16x4096_1_0) : (⟨S4096x16, .f32⟩ : BufTy).Contents (Elt F) → (⟨S16x4096, .f32⟩ : BufTy).Contents (Elt F)),
    binary main_v53 main_v54 main_v55 ((fun l r => Host.dotGeneral dot_S4096x16_S16x4096_S4096x4096_1_0_0_1_n_n none l r) : (⟨S4096x16, .f32⟩ : BufTy).Contents (Elt F) → (⟨S16x4096, .f32⟩ : BufTy).Contents (Elt F) → (⟨S4096x4096, .f32⟩ : BufTy).Contents (Elt F)),
    unary main_v55 main_v56 (Host.negf : (⟨S4096x4096, .f32⟩ : BufTy).Contents (Elt F) → (⟨S4096x4096, .f32⟩ : BufTy).Contents (Elt F)),
    unary main_v56 main_v57 (Host.exp : (⟨S4096x4096, .f32⟩ : BufTy).Contents (Elt F) → (⟨S4096x4096, .f32⟩ : BufTy).Contents (Elt F)),
    nullary main_cst_12 (constant S_ .f32 0x3F800000#32),
    unary main_cst_12 main_v58 (broadcastInDim S4096x4096 ![] bcast_S_S4096x4096 : (⟨S_, .f32⟩ : BufTy).Contents (Elt F) → (⟨S4096x4096, .f32⟩ : BufTy).Contents (Elt F)),
    binary main_v58 main_v57 main_v59 (addf : (⟨S4096x4096, .f32⟩ : BufTy).Contents (Elt F) → (⟨S4096x4096, .f32⟩ : BufTy).Contents (Elt F) → (⟨S4096x4096, .f32⟩ : BufTy).Contents (Elt F)),
    nullary main_cst_13 (constant S_ .f32 0x3F800000#32),
    unary main_cst_13 main_v60 (broadcastInDim S4096x4096 ![] bcast_S_S4096x4096 : (⟨S_, .f32⟩ : BufTy).Contents (Elt F) → (⟨S4096x4096, .f32⟩ : BufTy).Contents (Elt F)),
    binary main_v60 main_v59 main_v61 (Host.divf : (⟨S4096x4096, .f32⟩ : BufTy).Contents (Elt F) → (⟨S4096x4096, .f32⟩ : BufTy).Contents (Elt F) → (⟨S4096x4096, .f32⟩ : BufTy).Contents (Elt F)) ]

set_option maxRecDepth 8192 in
set_option maxHeartbeats 4000000 in
/-- `@main` is that straight line: its two windows in sequence, the functions' definitions unfolded at their
    calls; both sides are one chain of `hlo` steps once sequencing is reassociated. -/
theorem main_eq (c : Dev nD) : main (F := F) c = seq ops := by
  simp only [main, main_part0, main_part1, fn_where.body, fn_leaky_relu.body, fn_where_0.body, fn_where_1.body,
    fn_where_2.body, fn_elu.body, fn_where_4.body, fn_where_5.body, fn_elu_3.body, fn_norm.body, fn_clip.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every buffer an operation of the line touches is one of the TensorCore's references. -/
theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    binary_bufs_sub .., nullary_bufs_sub .., unary_bufs_sub .., unary_bufs_sub .., ternary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    binary_bufs_sub .., binary_bufs_sub .., unary_bufs_sub .., unary_bufs_sub .., unary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., unary_bufs_sub .., binary_bufs_sub ..,
    nullary_bufs_sub .., unary_bufs_sub .., unary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    binary_bufs_sub .., unary_bufs_sub .., unary_bufs_sub .., nullary_bufs_sub .., unary_bufs_sub .., unary_bufs_sub ..,
    binary_bufs_sub .., unary_bufs_sub .., binary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub ..⟩

/-- At the compiled mesh, for any float values, from any memory with zero counters: every weakly fair execution
    of `@main` on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation of the line writes an argument buffer: the fold leaves each at its launch contents. The fold
    is unrolled one operation at a time; at an argument reference each operation's `result` decides that the
    reference is not the one it writes, by computation. -/

set_option maxRecDepth 8192 in
set_option maxHeartbeats 4000000 in
theorem arg0_eq (V : Valuation τ sig (Elt F)) :
    after ops V (main_arg0 : DevRef τ sig) = V (main_arg0 : DevRef τ sig) := by
  simp only [after_cons, after_nil]
  rfl

set_option maxRecDepth 8192 in
set_option maxHeartbeats 4000000 in
theorem arg1_eq (V : Valuation τ sig (Elt F)) :
    after ops V (main_arg1 : DevRef τ sig) = V (main_arg1 : DevRef τ sig) := by
  simp only [after_cons, after_nil]
  rfl

set_option maxRecDepth 8192 in
set_option maxHeartbeats 4000000 in
theorem arg2_eq (V : Valuation τ sig (Elt F)) :
    after ops V (main_arg2 : DevRef τ sig) = V (main_arg2 : DevRef τ sig) := by
  simp only [after_cons, after_nil]
  rfl

set_option maxRecDepth 8192 in
set_option maxHeartbeats 4000000 in
theorem arg3_eq (V : Valuation τ sig (Elt F)) :
    after ops V (main_arg3 : DevRef τ sig) = V (main_arg3 : DevRef τ sig) := by
  simp only [after_cons, after_nil]
  rfl

set_option maxRecDepth 8192 in
set_option maxHeartbeats 4000000 in
theorem arg4_eq (V : Valuation τ sig (Elt F)) :
    after ops V (main_arg4 : DevRef τ sig) = V (main_arg4 : DevRef τ sig) := by
  simp only [after_cons, after_nil]
  rfl

set_option maxRecDepth 8192 in
set_option maxHeartbeats 4000000 in
theorem arg5_eq (V : Valuation τ sig (Elt F)) :
    after ops V (main_arg5 : DevRef τ sig) = V (main_arg5 : DevRef τ sig) := by
  simp only [after_cons, after_nil]
  rfl

set_option maxRecDepth 8192 in
set_option maxHeartbeats 4000000 in
theorem arg6_eq (V : Valuation τ sig (Elt F)) :
    after ops V (main_arg6 : DevRef τ sig) = V (main_arg6 : DevRef τ sig) := by
  simp only [after_cons, after_nil]
  rfl

set_option maxRecDepth 8192 in
set_option maxHeartbeats 4000000 in
theorem arg7_eq (V : Valuation τ sig (Elt F)) :
    after ops V (main_arg7 : DevRef τ sig) = V (main_arg7 : DevRef τ sig) := by
  simp only [after_cons, after_nil]
  rfl

set_option maxRecDepth 8192 in
set_option maxHeartbeats 4000000 in
theorem arg8_eq (V : Valuation τ sig (Elt F)) :
    after ops V (main_arg8 : DevRef τ sig) = V (main_arg8 : DevRef τ sig) := by
  simp only [after_cons, after_nil]
  rfl

end Cert.ReferenceIdeal.RefRun

end
-- ==== Proof.LibRowBroadcast.lean ====
/-
  A single row spread over the rows of a matrix by the host, read at coordinates.

  An `[1, b]` row broadcast to `[a, b]` by the host's `broadcast_in_dim` along axes `[0, 1]` holds, at `(i, j)`, the
  row's entry `(0, j)`: every row of the result is the one row of the operand.
-/
import Idealize.ShloMosaic.Lib.ValueIdx
import Idealize.ShloMosaic.Lib.Pipeline.Value

namespace Cert.Lib.RowBroadcast

open Idealize.ShloMosaic Idealize.ShloMosaic.ValueIdx

variable {α : Type}

/-- A `[1, b]` row broadcast to `[a, b]` along axes `[0, 1]` on the host reads, at `(i, j)`, the row at `(0, j)`. -/
theorem broadcastInDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Cert.Lib.RowBroadcast
-- ==== Proof.RefValue.lean ====
import proofs.«144369_j73821897883963_1_alg».proof.Proof.RefRun
import proofs.«144369_j73821897883963_1_alg».proof.Proof.GatSpec
import proofs.«144369_j73821897883963_1_alg».proof.Proof.LibPlainDot
import proofs.«144369_j73821897883963_1_alg».proof.Proof.LibHostKeepdims
import proofs.«144369_j73821897883963_1_alg».proof.Proof.LibRowBroadcast
import Idealize.ShloMosaic.Lib.IdealHost
import Idealize.ShloMosaic.Lib.ValueLayout

/-!
# The reference's attention layers, read at an entry

Up to its second exponential linear unit the reference computes, on whole arrays, two graph-attention layers, each
on the features times a weight matrix. Each stage of a layer is named here as a function of arrays in the order the
program runs it, for any float values; on the extended reals each is then read at coordinates, bottom-up, into the
row-wise specification: a product of matrices at an entry is the sum over the contracted index, a column or a row
spread over a matrix reads the column's or the row's entry, a row reduction kept as a column reads the fold over the
row. The program's line of operations is cut at the layers' boundaries, each piece read over an arbitrary valuation
of what came before, so that the buffer of the second layer's result holds the composed stages of the launch contents.
-/

noncomputable section

open scoped BigOperators

namespace Cert.ReferenceIdeal.RefValue

open Cert.ReferenceIdeal Cert.ReferenceIdeal.Gen Cert.ReferenceIdeal.RefRun Cert.GatSpec Idealize.ShloMosaic Idealize.ShloMosaic.ValueIdx
  Idealize.ShloMosaic.StableHlo Idealize.ShloMosaic.TcCoe
open Cert.Lib.PlainDot Cert.Lib.HostKeepdims Cert.Lib.RowBroadcast

/-- An `a × b` matrix of floats, indexed as the program's arrays are. -/
abbrev Mat (F : FTy → Type) (a b : ℕ) : Type := FVec F ⟨2, ![a, b]⟩ .f32

/-! ## One attention layer, on arrays, for any float values -/

section Defs

variable {F : FTy → Type} [FloatOps F] {d : ℕ}

/-- The scores before the rectifier: each node's own score spread over its row, every node's neighbour score
    spread down the columns, their sum times the transition matrix. -/
def rawArr (h : Mat F 4096 d) (aS aN : Mat F d 1) (M : Mat F 4096 4096) : Mat F 4096 4096 :=
  mulf (addf
    (broadcastInDim S4096x4096 ![0, 1] bcast_S4096x1_S4096x4096_0_1 (Host.dotGeneral (DotDims.plain 4096 d 1) none h aS))
    (broadcastInDim S4096x4096 ![0, 1] bcast_S1x4096_S4096x4096_0_1
      (transpose S1x4096 [1, 0] (Host.dotGeneral (DotDims.plain 4096 d 1) none h aN) transposes_S4096x1_S1x4096_1_0))) M

/-- The leaky rectifier with the "non-negative" test, entry by entry. -/
def leakyArr (e : Mat F 4096 4096) : Mat F 4096 4096 :=
  select (cmpf .oge e (broadcastInDim S4096x4096 ![] bcast_S_S4096x4096 (constant S_ .f32 0x00000000#32))) e
    (mulf (broadcastInDim S4096x4096 ![] bcast_S_S4096x4096 (constant S_ .f32 0x3E4CCCCD#32)) e)

/-- The scores kept where the adjacency entry is positive, the fill elsewhere. -/
def maskArr (A e : Mat F 4096 4096) : Mat F 4096 4096 :=
  select (cmpf .ogt A (broadcastInDim S4096x4096 ![] bcast_S_S4096x4096 (constant S_ .f32 0x00000000#32))) e
    (broadcastInDim S4096x4096 ![] bcast_S_S4096x4096 (constant S_ .f32 0xD9FFCB9E#32))

/-- The row maxima, as a vector: the fold of the maximum along each row from minus infinity. -/
def rowMaxVec (s : Mat F 4096 4096) : FVec F S4096 .f32 :=
  Host.reduce FloatOps.maximumf s (constant S_ .f32 0xFF800000#32) reducesTo_S4096x4096_S4096_d1 h_S_

/-- The row maxima (once more against minus infinity), kept as a column and spread back over the columns. -/
def maxColsArr (s : Mat F 4096 4096) : Mat F 4096 4096 :=
  broadcastInDim S4096x4096 ![0, 1] bcast_S4096x1_S4096x4096_0_1 (broadcastInDim S4096x1 ![0] bcast_S4096_S4096x1_0
    (maximumf (broadcastInDim S4096 ![] bcast_S_S4096 (constant S_ .f32 0xFF800000#32)) (rowMaxVec s)))

/-- The exponentials of the scores less their row maximum. -/
def expArr (s : Mat F 4096 4096) : Mat F 4096 4096 := Host.exp (subf s (maxColsArr s))

/-- The row sums, kept as a column and spread back over the columns. -/
def sumColsArr (e : Mat F 4096 4096) : Mat F 4096 4096 :=
  broadcastInDim S4096x4096 ![0, 1] bcast_S4096x1_S4096x4096_0_1 (broadcastInDim S4096x1 ![0] bcast_S4096_S4096x1_0
    (Host.reduceAdd e (constant S_ .f32 0x00000000#32) reducesTo_S4096x4096_S4096_d1 h_S_))

/-- The row softmax. -/
def softArr (s : Mat F 4096 4096) : Mat F 4096 4096 := Host.divf (expArr s) (sumColsArr (expArr s))

/-- The exponential linear unit as the program spells it, entry by entry. -/
def eluArr (hs : S_.BroadcastsInDim ⟨2, ![4096, d]⟩ ![]) (x : Mat F 4096 d) : Mat F 4096 d :=
  select (cmpf .ogt x (broadcastInDim ⟨2, ![4096, d]⟩ ![] hs (constant S_ .f32 0x00000000#32))) x
    (mulf (broadcastInDim ⟨2, ![4096, d]⟩ ![] hs (constant S_ .f32 0x3F800000#32))
      (Host.expm1 (select (cmpf .ogt x (broadcastInDim ⟨2, ![4096, d]⟩ ![] hs (constant S_ .f32 0x00000000#32)))
        (broadcastInDim ⟨2, ![4096, d]⟩ ![] hs (constant S_ .f32 0x00000000#32)) x)))

/-- One layer: the softmax of the masked, rectified scores, times the features, through the unit. -/
def layerArr (hs : S_.BroadcastsInDim ⟨2, ![4096, d]⟩ ![]) (h : Mat F 4096 d) (aS aN : Mat F d 1) (A M : Mat F 4096 4096) : Mat F 4096 d :=
  eluArr hs (Host.dotGeneral (DotDims.plain 4096 4096 d) none (softArr (maskArr A (leakyArr (rawArr h aS aN M)))) h)

end Defs

/-! ## The stages read at an index, on the extended reals -/

section Lemmas

variable {d : ℕ}

theorem hostExp_apply {s : Shape} (v : FVec Ideal s .f32) (i : s.Idx) : Host.exp v i = Ideal.exp (v i) := rfl

/-- A scalar word spread over any shape reads the word. -/
theorem splat_apply {T : Shape} (h : S_.BroadcastsInDim T ![]) (b : BitVec 32) (j : T.Idx) :
    broadcastInDim T ![] h (constant (F := Ideal) S_ .f32 b) j = Ideal.ofBits .f32 b := rfl

/-- A plain product of matrices at an entry. -/
theorem mm_apply {a k b : ℕ} (x : Mat Ideal a k) (w : Mat Ideal k b) (i : Fin a) (c : Fin b) :
    Host.dotGeneral (DotDims.plain a k b) none x w (ix2 i c) = mm (fun i q => x (ix2 i q)) (fun q c => w (ix2 q c)) i c :=
  dotGeneral_apply (M := a) (K := k) (N := b) none .single x w i c

theorem self_apply (h : Mat Ideal 4096 d) (aS : Mat Ideal d 1) (i j : Fin 4096) :
    broadcastInDim S4096x4096 ![0, 1] bcast_S4096x1_S4096x4096_0_1 (Host.dotGeneral (DotDims.plain 4096 d 1) none h aS) (ix2 i j)
      = ∑ k : Fin d, h (ix2 i k) * aS (ix2 k (0 : Fin 1)) :=
  (broadcastInDim_a1_ab_apply _ _ i j).trans (dotGeneral_apply (M := 4096) (K := d) (N := 1) none .single h aS i 0)

theorem neigh_apply (h : Mat Ideal 4096 d) (aN : Mat Ideal d 1) (i j : Fin 4096) :
    broadcastInDim S4096x4096 ![0, 1] bcast_S1x4096_S4096x4096_0_1
        (transpose S1x4096 [1, 0] (Host.dotGeneral (DotDims.plain 4096 d 1) none h aN) transposes_S4096x1_S1x4096_1_0) (ix2 i j)
      = ∑ k : Fin d, h (ix2 j k) * aN (ix2 k (0 : Fin 1)) :=
  (broadcastInDim_1b_ab_apply _ _ i j).trans ((transpose_ix2_apply _ _ (0 : Fin 1) j).trans
    (dotGeneral_apply (M := 4096) (K := d) (N := 1) none .single h aN j 0))

theorem raw_apply (h : Mat Ideal 4096 d) (aS aN : Mat Ideal d 1) (M : Mat Ideal 4096 4096) (i j : Fin 4096) :
    rawArr h aS aN M (ix2 i j)
      = ((∑ k : Fin d, h (ix2 i k) * aS (ix2 k (0 : Fin 1))) + (∑ k : Fin d, h (ix2 j k) * aN (ix2 k (0 : Fin 1)))) * M (ix2 i j) := by
  unfold rawArr
  rw [mulf_apply, addf_apply, self_apply, neigh_apply]

theorem leakyArr_apply (e : Mat Ideal 4096 4096) (j : S4096x4096.Idx) : leakyArr e j = leakyGe (e j) := rfl

theorem maskArr_apply (A e : Mat Ideal 4096 4096) (j : S4096x4096.Idx) : maskArr A e j = maskTo (A j) (e j) := rfl

attribute [local irreducible] Host.reduce in
theorem rowMaxVec_apply (s : Mat Ideal 4096 4096) (i : Fin 4096) : rowMaxVec s (ix1 i) = rowMax (fun k => s (ix2 i k)) :=
  reduce_maximumf_row s _ _ i

theorem maxCols_apply (s : Mat Ideal 4096 4096) (i j : Fin 4096) : maxColsArr s (ix2 i j) = rowMax (fun k => s (ix2 i k)) := by
  refine (broadcastInDim_a1_ab_apply _ _ i j).trans ((broadcastInDim_a_a1_apply _ _ i (0 : Fin 1)).trans ?_)
  rw [maximumf_apply, splat_apply, max_negInf, rowMaxVec_apply]

theorem expArr_apply (s : Mat Ideal 4096 4096) (i j : Fin 4096) :
    expArr s (ix2 i j) = Ideal.exp (s (ix2 i j) - rowMax (fun k => s (ix2 i k))) := by
  unfold expArr
  rw [hostExp_apply, subf_apply, maxCols_apply]

attribute [local irreducible] Host.reduceAdd in
theorem sumCols_apply (e : Mat Ideal 4096 4096) (i j : Fin 4096) : sumColsArr e (ix2 i j) = ∑ k : Fin 4096, e (ix2 i k) :=
  (broadcastInDim_a1_ab_apply _ _ i j).trans ((broadcastInDim_a_a1_apply _ _ i (0 : Fin 1)).trans (reduceAdd_row e _ _ i))

theorem softArr_apply (s : Mat Ideal 4096 4096) (i j : Fin 4096) : softArr s (ix2 i j) = soft (fun k => s (ix2 i k)) j := by
  unfold softArr soft
  rw [hostDivf_apply, sumCols_apply, expArr_apply]
  exact congrArg _ (Finset.sum_congr rfl fun k _ => expArr_apply s i k)

theorem eluArr_apply (hs : S_.BroadcastsInDim ⟨2, ![4096, d]⟩ ![]) (x : Mat Ideal 4096 d) (j : (⟨2, ![4096, d]⟩ : Shape).Idx) :
    eluArr hs x j = eluSafe (x j) := rfl

/-- One layer at an entry: the specification's attention row of node `i`, at feature `c`. -/
theorem layerArr_apply (hs : S_.BroadcastsInDim ⟨2, ![4096, d]⟩ ![]) (h : Mat Ideal 4096 d) (aS aN : Mat Ideal d 1) (A M : Mat Ideal 4096 4096)
    (i : Fin 4096) (c : Fin d) :
    layerArr hs h aS aN A M (ix2 i c)
      = layer (fun i k => h (ix2 i k)) (fun k => aS (ix2 k (0 : Fin 1))) (fun k => aN (ix2 k (0 : Fin 1)))
          (fun i j => A (ix2 i j)) (fun i j => M (ix2 i j)) i c := by
  have hrow : (fun j => maskArr A (leakyArr (rawArr h aS aN M)) (ix2 i j))
      = logit (fun k => h (ix2 i k)) (fun j k => h (ix2 j k)) (fun k => aS (ix2 k (0 : Fin 1))) (fun k => aN (ix2 k (0 : Fin 1)))
          (fun j => A (ix2 i j)) (fun j => M (ix2 i j)) := by
    funext j
    rw [maskArr_apply, leakyArr_apply, leakyGe_eq, raw_apply]
    rfl
  unfold layerArr layer attRow
  rw [eluArr_apply, eluSafe_eq]
  refine congrArg elu ((dotGeneral_apply (M := 4096) (K := 4096) (N := d) none .single _ h i c).trans ?_)
  exact Finset.sum_congr rfl fun j _ => by rw [softArr_apply, hrow]

end Lemmas

/-! ## The arguments as functions of coordinates -/

section Args

variable (V : Valuation τ sig (Elt Ideal))

/-- The node features, the adjacency matrix, the transition matrix and the two weight matrices, entry by entry. -/
def X : Fin 4096 → Fin 1024 → EReal := fun i q => (V (main_arg0 : DevRef τ sig) : S4096x1024.Idx → EReal) (ix2 i q)
def A : Fin 4096 → Fin 4096 → EReal := fun i j => (V (main_arg1 : DevRef τ sig) : S4096x4096.Idx → EReal) (ix2 i j)
def Mt : Fin 4096 → Fin 4096 → EReal := fun i j => (V (main_arg2 : DevRef τ sig) : S4096x4096.Idx → EReal) (ix2 i j)
def W1 : Fin 1024 → Fin 256 → EReal := fun q c => (V (main_arg3 : DevRef τ sig) : S1024x256.Idx → EReal) (ix2 q c)
def W2 : Fin 256 → Fin 16 → EReal := fun q c => (V (main_arg6 : DevRef τ sig) : S256x16.Idx → EReal) (ix2 q c)

/-- The four attention vectors: the single column of each `[d, 1]` argument. -/
def as1 : Fin 256 → EReal := fun k => (V (main_arg4 : DevRef τ sig) : S256x1.Idx → EReal) (ix2 k (0 : Fin 1))
def an1 : Fin 256 → EReal := fun k => (V (main_arg5 : DevRef τ sig) : S256x1.Idx → EReal) (ix2 k (0 : Fin 1))
def as2 : Fin 16 → EReal := fun k => (V (main_arg7 : DevRef τ sig) : S16x1.Idx → EReal) (ix2 k (0 : Fin 1))
def an2 : Fin 16 → EReal := fun k => (V (main_arg8 : DevRef τ sig) : S16x1.Idx → EReal) (ix2 k (0 : Fin 1))

end Args

/-! ## The line cut at the layers' boundaries

The fold over the whole line is the fold over its pieces in turn. Each piece is read over an arbitrary valuation
`W` of what came before: the piece's result buffer holds the stage's function of the buffers it reads, and the
buffers later pieces read are left as they were. -/

section Pieces

variable {F : FTy → Type} [FloatOps F]

/-- The first projection. -/
abbrev opsA : List (HloOp τ sig (Elt F)) :=
  [ binary main_arg0 main_arg3 main_v0 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)) ]

/-- The first attention layer: from the score columns to the exponential linear unit. -/
abbrev opsB : List (HloOp τ sig (Elt F)) :=
  [ binary main_v0 main_arg4 main_v1 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    binary main_v0 main_arg5 main_v2 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_v2 main_v3 ((transpose S1x4096 [1, 0] · transposes_S4096x1_S1x4096_1_0) : (⟨S4096x1, .f32⟩ : BufTy).Contents (Elt F) → (⟨S1x4096, .f32⟩ : BufTy).Contents (Elt F)),
    unary main_v1 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    binary main_v6 main_arg2 main_v7 (mulf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4096x4096 ![] bcast_S_S4096x4096),
    TRef.binary (.of main_v7 : TRef sig ⟨S4096x4096, .f32⟩) main_call0.v0 main_call0.v1 (cmpf .oge),
    TRef.unary (.of main_cst : TRef sig ⟨S_, .f32⟩) main_call0.v2 id,
    TRef.unary main_call0.v2 main_call0.v3 (broadcastInDim S4096x4096 ![] bcast_S_S4096x4096),
    TRef.binary main_call0.v3 (.of main_v7 : TRef sig ⟨S4096x4096, .f32⟩) main_call0.v4 mulf,
    TRef.ternary main_call0.v1 (.of main_v7 : TRef sig ⟨S4096x4096, .f32⟩) main_call0.v4 main_call0.call0.v0 select,
    nullary main_cst_0 (constant S_ .f32 0x00000000#32),
    unary main_cst_0 main_v9 (broadcastInDim S4096x4096 ![] bcast_S_S4096x4096 : (⟨S_, .f32⟩ : BufTy).Contents (Elt F) → (⟨S4096x4096, .f32⟩ : BufTy).Contents (Elt F)),
    binary main_arg1 main_v9 main_v10 (cmpf .ogt : (⟨S4096x4096, .f32⟩ : BufTy).Contents (Elt F) → (⟨S4096x4096, .f32⟩ : BufTy).Contents (Elt F) → (⟨S4096x4096, .i1⟩ : BufTy).Contents (Elt F)),
    nullary main_cst_1 (constant S_ .f32 0xD9FFCB9E#32),
    TRef.unary (.of main_cst_1 : TRef sig ⟨S_, .f32⟩) main_call1.v0 id,
    TRef.unary main_call1.v0 main_call1.v1 (broadcastInDim S4096x4096 ![] bcast_S_S4096x4096),
    TRef.ternary (.of main_v10 : TRef sig ⟨S4096x4096, .i1⟩) (.of main_v8 : TRef sig ⟨S4096x4096, .f32⟩) main_call1.v1 main_call1.v2 select,
    nullary main_cst_2 (constant S_ .f32 0xFF800000#32),
    binary main_v11 main_cst_2 main_v12 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v13 (broadcastInDim S4096 ![] bcast_S_S4096 : (⟨S_, .f32⟩ : BufTy).Contents (Elt F) → (⟨S4096, .f32⟩ : BufTy).Contents (Elt F)),
    binary main_v13 main_v12 main_v14 (maximumf : (⟨S4096, .f32⟩ : BufTy).Contents (Elt F) → (⟨S4096, .f32⟩ : BufTy).Contents (Elt F) → (⟨S4096, .f32⟩ : BufTy).Contents (Elt F)),
    unary main_v14 main_v15 (broadcastInDim S4096x1 ![0] bcast_S4096_S4096x1_0 : (⟨S4096, .f32⟩ : BufTy).Contents (Elt F) → (⟨S4096x1, .f32⟩ : BufTy).Contents (Elt F)),
    unary main_v15 main_v16 (broadcastInDim S4096x4096 ![0, 1] bcast_S4096x1_S4096x4096_0_1 : (⟨S4096x1, .f32⟩ : BufTy).Contents (Elt F) → (⟨S4096x4096, .f32⟩ : BufTy).Contents (Elt F)),
    binary main_v11 main_v16 main_v17 (subf : (⟨S4096x4096, .f32⟩ : BufTy).Contents (Elt F) → (⟨S4096x4096, .f32⟩ : BufTy).Contents (Elt F) → (⟨S4096x4096, .f32⟩ : BufTy).Contents (Elt F)),
    unary main_v17 main_v18 (Host.exp : (⟨S4096x4096, .f32⟩ : BufTy).Contents (Elt F) → (⟨S4096x4096, .f32⟩ : BufTy).Contents (Elt F)),
    nullary main_cst_4 (constant S_ .f32 0x00000000#32),
    binary main_v18 main_cst_4 main_v19 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (broadcastInDim S4096x4096 ![0, 1] bcast_S4096x1_S4096x4096_0_1 : (⟨S4096x1, .f32⟩ : BufTy).Contents (Elt F) → (⟨S4096x4096, .f32⟩ : BufTy).Contents (Elt F)),
    binary main_v18 main_v21 main_v22 (Host.divf : (⟨S4096x4096, .f32⟩ : BufTy).Contents (Elt F) → (⟨S4096x4096, .f32⟩ : BufTy).Contents (Elt F) → (⟨S4096x4096, .f32⟩ : BufTy).Contents (Elt F)),
    binary main_v22 main_v0 main_v23 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    TRef.nullary main_call2.cst (constant S_ .f32 0x00000000#32),
    TRef.unary main_call2.cst main_call2.v0 (broadcastInDim S4096x256 ![] bcast_S_S4096x256),
    TRef.binary (.of main_v23 : TRef sig ⟨S4096x256, .f32⟩) main_call2.v0 main_call2.v1 (cmpf .ogt),
    TRef.nullary main_call2.cst_0 (constant S_ .f32 0x00000000#32),
    TRef.unary main_call2.cst_0 main_call2.v2 (broadcastInDim S4096x256 ![] bcast_S_S4096x256),
    TRef.binary (.of main_v23 : TRef sig ⟨S4096x256, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4096x256 ![] bcast_S_S4096x256),
    TRef.ternary main_call2.v3 main_call2.call0.v1 (.of main_v23 : TRef sig ⟨S4096x256, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S4096x256 ![] bcast_S_S4096x256),
    TRef.binary main_call2.v6 main_call2.v5 main_call2.v7 mulf,
    TRef.ternary main_call2.v1 (.of main_v23 : TRef sig ⟨S4096x256, .f32⟩) main_call2.v7 main_call2.call1.v0 select ]

/-- The second projection. -/
abbrev opsC : List (HloOp τ sig (Elt F)) :=
  [ binary main_v24 main_arg6 main_v25 ((fun l r => Host.dotGeneral dot_S4096x256_S256x16_S4096x16_1_0_0_1_n_n none l r) : (⟨S4096x256, .f32⟩ : BufTy).Contents (Elt F) → (⟨S256x16, .f32⟩ : BufTy).Contents (Elt F) → (⟨S4096x16, .f32⟩ : BufTy).Contents (Elt F)) ]

/-- The second attention layer. -/
abbrev opsD : List (HloOp τ sig (Elt F)) :=
  [ binary main_v25 main_arg7 main_v26 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    binary main_v25 main_arg8 main_v27 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    unary main_v27 main_v28 ((transpose S1x4096 [1, 0] · transposes_S4096x1_S1x4096_1_0) : (⟨S4096x1, .f32⟩ : BufTy).Contents (Elt F) → (⟨S1x4096, .f32⟩ : BufTy).Contents (Elt F)),
    unary main_v26 main_v29 (broadcastInDim S4096x4096 ![0, 1] bcast_S4096x1_S4096x4096_0_1 : (⟨S4096x1, .f32⟩ : BufTy).Contents (Elt F) → (⟨S4096x4096, .f32⟩ : BufTy).Contents (Elt F)),
    unary main_v28 main_v30 (broadcastInDim S4096x4096 ![0, 1] bcast_S1x4096_S4096x4096_0_1 : (⟨S1x4096, .f32⟩ : BufTy).Contents (Elt F) → (⟨S4096x4096, .f32⟩ : BufTy).Contents (Elt F)),
    binary main_v29 main_v30 main_v31 (addf : (⟨S4096x4096, .f32⟩ : BufTy).Contents (Elt F) → (⟨S4096x4096, .f32⟩ : BufTy).Contents (Elt F) → (⟨S4096x4096, .f32⟩ : BufTy).Contents (Elt F)),
    binary main_v31 main_arg2 main_v32 (mulf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x3E4CCCCD#32),
    TRef.nullary main_call3.cst (constant S_ .f32 0x00000000#32),
    TRef.unary main_call3.cst main_call3.v0 (broadcastInDim S4096x4096 ![] bcast_S_S4096x4096),
    TRef.binary (.of main_v32 : TRef sig ⟨S4096x4096, .f32⟩) main_call3.v0 main_call3.v1 (cmpf .oge),
    TRef.unary (.of main_cst_5 : TRef sig ⟨S_, .f32⟩) main_call3.v2 id,
    TRef.unary main_call3.v2 main_call3.v3 (broadcastInDim S4096x4096 ![] bcast_S_S4096x4096),
    TRef.binary main_call3.v3 (.of main_v32 : TRef sig ⟨S4096x4096, .f32⟩) main_call3.v4 mulf,
    TRef.ternary main_call3.v1 (.of main_v32 : TRef sig ⟨S4096x4096, .f32⟩) main_call3.v4 main_call3.call0.v0 select,
    nullary main_cst_6 (constant S_ .f32 0x00000000#32),
    unary main_cst_6 main_v34 (broadcastInDim S4096x4096 ![] bcast_S_S4096x4096 : (⟨S_, .f32⟩ : BufTy).Contents (Elt F) → (⟨S4096x4096, .f32⟩ : BufTy).Contents (Elt F)),
    binary main_arg1 main_v34 main_v35 (cmpf .ogt : (⟨S4096x4096, .f32⟩ : BufTy).Contents (Elt F) → (⟨S4096x4096, .f32⟩ : BufTy).Contents (Elt F) → (⟨S4096x4096, .i1⟩ : BufTy).Contents (Elt F)),
    nullary main_cst_7 (constant S_ .f32 0xD9FFCB9E#32),
    TRef.unary (.of main_cst_7 : TRef sig ⟨S_, .f32⟩) main_call4.v0 id,
    TRef.unary main_call4.v0 main_call4.v1 (broadcastInDim S4096x4096 ![] bcast_S_S4096x4096),
    TRef.ternary (.of main_v35 : TRef sig ⟨S4096x4096, .i1⟩) (.of main_v33 : TRef sig ⟨S4096x4096, .f32⟩) main_call4.v1 main_call4.v2 select,
    nullary main_cst_8 (constant S_ .f32 0xFF800000#32),
    binary main_v36 main_cst_8 main_v37 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0xFF800000#32),
    unary main_cst_9 main_v38 (broadcastInDim S4096 ![] bcast_S_S4096 : (⟨S_, .f32⟩ : BufTy).Contents (Elt F) → (⟨S4096, .f32⟩ : BufTy).Contents (Elt F)),
    binary main_v38 main_v37 main_v39 (maximumf : (⟨S4096, .f32⟩ : BufTy).Contents (Elt F) → (⟨S4096, .f32⟩ : BufTy).Contents (Elt F) → (⟨S4096, .f32⟩ : BufTy).Contents (Elt F)),
    unary main_v39 main_v40 (broadcastInDim S4096x1 ![0] bcast_S4096_S4096x1_0 : (⟨S4096, .f32⟩ : BufTy).Contents (Elt F) → (⟨S4096x1, .f32⟩ : BufTy).Contents (Elt F)),
    unary main_v40 main_v41 (broadcastInDim S4096x4096 ![0, 1] bcast_S4096x1_S4096x4096_0_1 : (⟨S4096x1, .f32⟩ : BufTy).Contents (Elt F) → (⟨S4096x4096, .f32⟩ : BufTy).Contents (Elt F)),
    binary main_v36 main_v41 main_v42 (subf : (⟨S4096x4096, .f32⟩ : BufTy).Contents (Elt F) → (⟨S4096x4096, .f32⟩ : BufTy).Contents (Elt F) → (⟨S4096x4096, .f32⟩ : BufTy).Contents (Elt F)),
    unary main_v42 main_v43 (Host.exp : (⟨S4096x4096, .f32⟩ : BufTy).Contents (Elt F) → (⟨S4096x4096, .f32⟩ : BufTy).Contents (Elt F)),
    nullary main_cst_10 (constant S_ .f32 0x00000000#32),
    binary main_v43 main_cst_10 main_v44 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v44 main_v45 (broadcastInDim S4096x1 ![0] bcast_S4096_S4096x1_0 : (⟨S4096, .f32⟩ : BufTy).Contents (Elt F) → (⟨S4096x1, .f32⟩ : BufTy).Contents (Elt F)),
    unary main_v45 main_v46 (broadcastInDim S4096x4096 ![0, 1] bcast_S4096x1_S4096x4096_0_1 : (⟨S4096x1, .f32⟩ : BufTy).Contents (Elt F) → (⟨S4096x4096, .f32⟩ : BufTy).Contents (Elt F)),
    binary main_v43 main_v46 main_v47 (Host.divf : (⟨S4096x4096, .f32⟩ : BufTy).Contents (Elt F) → (⟨S4096x4096, .f32⟩ : BufTy).Contents (Elt F) → (⟨S4096x4096, .f32⟩ : BufTy).Contents (Elt F)),
    binary main_v47 main_v25 main_v48 ((fun l r => Host.dotGeneral dot_S4096x4096_S4096x16_S4096x16_1_0_0_1_n_n none l r) : (⟨S4096x4096, .f32⟩ : BufTy).Contents (Elt F) → (⟨S4096x16, .f32⟩ : BufTy).Contents (Elt F) → (⟨S4096x16, .f32⟩ : BufTy).Contents (Elt F)),
    TRef.nullary main_call5.cst (constant S_ .f32 0x00000000#32),
    TRef.unary main_call5.cst main_call5.v0 (broadcastInDim S4096x16 ![] bcast_S_S4096x16),
    TRef.binary (.of main_v48 : TRef sig ⟨S4096x16, .f32⟩) main_call5.v0 main_call5.v1 (cmpf .ogt),
    TRef.nullary main_call5.cst_0 (constant S_ .f32 0x00000000#32),
    TRef.unary main_call5.cst_0 main_call5.v2 (broadcastInDim S4096x16 ![] bcast_S_S4096x16),
    TRef.binary (.of main_v48 : TRef sig ⟨S4096x16, .f32⟩) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S4096x16 ![] bcast_S_S4096x16),
    TRef.ternary main_call5.v3 main_call5.call0.v1 (.of main_v48 : TRef sig ⟨S4096x16, .f32⟩) main_call5.call0.v2 select,
    TRef.unary main_call5.call0.v2 main_call5.v5 Host.expm1,
    TRef.nullary main_call5.cst_2 (constant S_ .f32 0x3F800000#32),
    TRef.unary main_call5.cst_2 main_call5.v6 (broadcastInDim S4096x16 ![] bcast_S_S4096x16),
    TRef.binary main_call5.v6 main_call5.v5 main_call5.v7 mulf,
    TRef.ternary main_call5.v1 (.of main_v48 : TRef sig ⟨S4096x16, .f32⟩) main_call5.v7 main_call5.call1.v0 select ]

/-- The normalisation and the decoder. -/
abbrev opsT : List (HloOp τ sig (Elt F)) :=
  [ TRef.binary (.of main_v49 : TRef sig ⟨S4096x16, .f32⟩) (.of main_v49 : TRef sig ⟨S4096x16, .f32⟩) main_call6.v0 mulf,
    TRef.nullary main_call6.cst (constant S_ .f32 0x00000000#32),
    TRef.binary main_call6.v0 main_call6.cst main_call6.v1 (fun x v => Host.reduceAdd x v reducesTo_S4096x16_S4096_d1 h_S_),
    TRef.unary main_call6.v1 main_call6.v2 (broadcastInDim S4096x1 ![0] bcast_S4096_S4096x1_0),
    TRef.unary main_call6.v2 main_call6.v3 Host.sqrt,
    nullary main_cst_11 (constant S_ .f32 0x2B8CBCCC#32),
    TRef.unary (.of main_cst_11 : TRef sig ⟨S_, .f32⟩) main_call7.v0 id,
    TRef.unary main_call7.v0 main_call7.v1 (broadcastInDim S4096x1 ![] bcast_S_S4096x1),
    TRef.binary main_call7.v1 (.of main_v50 : TRef sig ⟨S4096x1, .f32⟩) main_call7.v2 maximumf,
    unary main_v51 main_v52 (broadcastInDim S4096x16 ![0, 1] bcast_S4096x1_S4096x16_0_1 : (⟨S4096x1, .f32⟩ : BufTy).Contents (Elt F) → (⟨S4096x16, .f32⟩ : BufTy).Contents (Elt F)),
    binary main_v49 main_v52 main_v53 (Host.divf : (⟨S4096x16, .f32⟩ : BufTy).Contents (Elt F) → (⟨S4096x16, .f32⟩ : BufTy).Contents (Elt F) → (⟨S4096x16, .f32⟩ : BufTy).Contents (Elt F)),
    unary main_v53 main_v54 ((transpose S16x4096 [1, 0] · transposes_S4096x16_S16x4096_1_0) : (⟨S4096x16, .f32⟩ : BufTy).Contents (Elt F) → (⟨S16x4096, .f32⟩ : BufTy).Contents (Elt F)),
    binary main_v53 main_v54 main_v55 ((fun l r => Host.dotGeneral dot_S4096x16_S16x4096_S4096x4096_1_0_0_1_n_n none l r) : (⟨S4096x16, .f32⟩ : BufTy).Contents (Elt F) → (⟨S16x4096, .f32⟩ : BufTy).Contents (Elt F) → (⟨S4096x4096, .f32⟩ : BufTy).Contents (Elt F)),
    unary main_v55 main_v56 (Host.negf : (⟨S4096x4096, .f32⟩ : BufTy).Contents (Elt F) → (⟨S4096x4096, .f32⟩ : BufTy).Contents (Elt F)),
    unary main_v56 main_v57 (Host.exp : (⟨S4096x4096, .f32⟩ : BufTy).Contents (Elt F) → (⟨S4096x4096, .f32⟩ : BufTy).Contents (Elt F)),
    nullary main_cst_12 (constant S_ .f32 0x3F800000#32),
    unary main_cst_12 main_v58 (broadcastInDim S4096x4096 ![] bcast_S_S4096x4096 : (⟨S_, .f32⟩ : BufTy).Contents (Elt F) → (⟨S4096x4096, .f32⟩ : BufTy).Contents (Elt F)),
    binary main_v58 main_v57 main_v59 (addf : (⟨S4096x4096, .f32⟩ : BufTy).Contents (Elt F) → (⟨S4096x4096, .f32⟩ : BufTy).Contents (Elt F) → (⟨S4096x4096, .f32⟩ : BufTy).Contents (Elt F)),
    nullary main_cst_13 (constant S_ .f32 0x3F800000#32),
    unary main_cst_13 main_v60 (broadcastInDim S4096x4096 ![] bcast_S_S4096x4096 : (⟨S_, .f32⟩ : BufTy).Contents (Elt F) → (⟨S4096x4096, .f32⟩ : BufTy).Contents (Elt F)),
    binary main_v60 main_v59 main_v61 (Host.divf : (⟨S4096x4096, .f32⟩ : BufTy).Contents (Elt F) → (⟨S4096x4096, .f32⟩ : BufTy).Contents (Elt F) → (⟨S4096x4096, .f32⟩ : BufTy).Contents (Elt F)) ]

/-- The fold over two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
/-- The line is its five pieces in order. -/
theorem ops_split : (ops : List (HloOp τ sig (Elt F))) = opsA ++ (opsB ++ (opsC ++ (opsD ++ opsT))) := rfl

theorem after_ops (V : Valuation τ sig (Elt F)) :
    after ops V = after opsT (after opsD (after opsC (after opsB (after opsA V)))) := by
  rw [ops_split, after_append, after_append, after_append, after_append]

variable (W : Valuation τ sig (Elt F))

/-! ### What each piece writes -/

theorem A_v0 : after opsA W (main_v0 : DevRef τ sig)
    = Host.dotGeneral (DotDims.plain 4096 1024 256) none (W (main_arg0 : DevRef τ sig) : Mat F 4096 1024) (W (main_arg3 : DevRef τ sig) : Mat F 1024 256) := by
  simp only [after_cons, after_nil]
  rfl

attribute [local irreducible] Host.reduce in
set_option maxRecDepth 8192 in
set_option maxHeartbeats 2000000 in
theorem B_v24 : after opsB W (main_v24 : DevRef τ sig)
    = layerArr bcast_S_S4096x256 (W (main_v0 : DevRef τ sig) : Mat F 4096 256) (W (main_arg4 : DevRef τ sig) : Mat F 256 1) (W (main_arg5 : DevRef τ sig) : Mat F 256 1)
        (W (main_arg1 : DevRef τ sig) : Mat F 4096 4096) (W (main_arg2 : DevRef τ sig) : Mat F 4096 4096) := by
  after_results_simp
  rfl

theorem C_v25 : after opsC W (main_v25 : DevRef τ sig)
    = Host.dotGeneral (DotDims.plain 4096 256 16) none (W (main_v24 : DevRef τ sig) : Mat F 4096 256) (W (main_arg6 : DevRef τ sig) : Mat F 256 16) := by
  simp only [after_cons, after_nil]
  rfl

attribute [local irreducible] Host.reduce in
set_option maxRecDepth 8192 in
set_option maxHeartbeats 2000000 in
theorem D_v49 : after opsD W (main_v49 : DevRef τ sig)
    = layerArr bcast_S_S4096x16 (W (main_v25 : DevRef τ sig) : Mat F 4096 16) (W (main_arg7 : DevRef τ sig) : Mat F 16 1) (W (main_arg8 : DevRef τ sig) : Mat F 16 1)
        (W (main_arg1 : DevRef τ sig) : Mat F 4096 4096) (W (main_arg2 : DevRef τ sig) : Mat F 4096 4096) := by
  after_results_simp
  rfl

/-! ### What each piece leaves alone, of the buffers read later -/

attribute [local irreducible] Host.reduce in
set_option maxRecDepth 8192 in
theorem T_v49 : after opsT W (main_v49 : DevRef τ sig) = W (main_v49 : DevRef τ sig) := by
  simp only [after_cons, after_nil]
  rfl

attribute [local irreducible] Host.reduce in
set_option maxRecDepth 8192 in
theorem C_arg1 : after opsC W (main_arg1 : DevRef τ sig) = W (main_arg1 : DevRef τ sig) := by
  simp only [after_cons, after_nil]
  rfl

attribute [local irreducible] Host.reduce in
set_option maxRecDepth 8192 in
theorem C_arg2 : after opsC W (main_arg2 : DevRef τ sig) = W (main_arg2 : DevRef τ sig) := by
  simp only [after_cons, after_nil]
  rfl

attribute [local irreducible] Host.reduce in
set_option maxRecDepth 8192 in
theorem C_arg7 : after opsC W (main_arg7 : DevRef τ sig) = W (main_arg7 : DevRef τ sig) := by
  simp only [after_cons, after_nil]
  rfl

attribute [local irreducible] Host.reduce in
set_option maxRecDepth 8192 in
theorem C_arg8 : after opsC W (main_arg8 : DevRef τ sig) = W (main_arg8 : DevRef τ sig) := by
  simp only [after_cons, after_nil]
  rfl

attribute [local irreducible] Host.reduce in
set_option maxRecDepth 8192 in
theorem B_arg1 : after opsB W (main_arg1 : DevRef τ sig) = W (main_arg1 : DevRef τ sig) := by
  simp only [after_cons, after_nil]
  rfl

attribute [local irreducible] Host.reduce in
set_option maxRecDepth 8192 in
theorem B_arg2 : after opsB W (main_arg2 : DevRef τ sig) = W (main_arg2 : DevRef τ sig) := by
  simp only [after_cons, after_nil]
  rfl

attribute [local irreducible] Host.reduce in
set_option maxRecDepth 8192 in
theorem B_arg6 : after opsB W (main_arg6 : DevRef τ sig) = W (main_arg6 : DevRef τ sig) := by
  simp only [after_cons, after_nil]
  rfl

attribute [local irreducible] Host.reduce in
set_option maxRecDepth 8192 in
theorem B_arg7 : after opsB W (main_arg7 : DevRef τ sig) = W (main_arg7 : DevRef τ sig) := by
  simp only [after_cons, after_nil]
  rfl

attribute [local irreducible] Host.reduce in
set_option maxRecDepth 8192 in
theorem B_arg8 : after opsB W (main_arg8 : DevRef τ sig) = W (main_arg8 : DevRef τ sig) := by
  simp only [after_cons, after_nil]
  rfl

attribute [local irreducible] Host.reduce in
set_option maxRecDepth 8192 in
theorem A_arg1 : after opsA W (main_arg1 : DevRef τ sig) = W (main_arg1 : DevRef τ sig) := by
  simp only [after_cons, after_nil]
  rfl

attribute [local irreducible] Host.reduce in
set_option maxRecDepth 8192 in
theorem A_arg2 : after opsA W (main_arg2 : DevRef τ sig) = W (main_arg2 : DevRef τ sig) := by
  simp only [after_cons, after_nil]
  rfl

attribute [local irreducible] Host.reduce in
set_option maxRecDepth 8192 in
theorem A_arg4 : after opsA W (main_arg4 : DevRef τ sig) = W (main_arg4 : DevRef τ sig) := by
  simp only [after_cons, after_nil]
  rfl

attribute [local irreducible] Host.reduce in
set_option maxRecDepth 8192 in
theorem A_arg5 : after opsA W (main_arg5 : DevRef τ sig) = W (main_arg5 : DevRef τ sig) := by
  simp only [after_cons, after_nil]
  rfl

attribute [local irreducible] Host.reduce in
set_option maxRecDepth 8192 in
theorem A_arg6 : after opsA W (main_arg6 : DevRef τ sig) = W (main_arg6 : DevRef τ sig) := by
  simp only [after_cons, after_nil]
  rfl

attribute [local irreducible] Host.reduce in
set_option maxRecDepth 8192 in
theorem A_arg7 : after opsA W (main_arg7 : DevRef τ sig) = W (main_arg7 : DevRef τ sig) := by
  simp only [after_cons, after_nil]
  rfl

attribute [local irreducible] Host.reduce in
set_option maxRecDepth 8192 in
theorem A_arg8 : after opsA W (main_arg8 : DevRef τ sig) = W (main_arg8 : DevRef τ sig) := by
  simp only [after_cons, after_nil]
  rfl

end Pieces

/-! ## The second layer's result from the arguments -/

section Feat

variable {F : FTy → Type} [FloatOps F]

/-- The first projection, the first layer, the second projection and the second layer as arrays, from the
    argument buffers' contents. -/
def h1Arr (V : Valuation τ sig (Elt F)) : Mat F 4096 256 :=
  Host.dotGeneral (DotDims.plain 4096 1024 256) none (V (main_arg0 : DevRef τ sig) : Mat F 4096 1024) (V (main_arg3 : DevRef τ sig) : Mat F 1024 256)

def l1Arr (V : Valuation τ sig (Elt F)) : Mat F 4096 256 :=
  layerArr bcast_S_S4096x256 (h1Arr V) (V (main_arg4 : DevRef τ sig) : Mat F 256 1) (V (main_arg5 : DevRef τ sig) : Mat F 256 1)
    (V (main_arg1 : DevRef τ sig) : Mat F 4096 4096) (V (main_arg2 : DevRef τ sig) : Mat F 4096 4096)

def h2Arr (V : Valuation τ sig (Elt F)) : Mat F 4096 16 :=
  Host.dotGeneral (DotDims.plain 4096 256 16) none (l1Arr V) (V (main_arg6 : DevRef τ sig) : Mat F 256 16)

def featArr (V : Valuation τ sig (Elt F)) : Mat F 4096 16 :=
  layerArr bcast_S_S4096x16 (h2Arr V) (V (main_arg7 : DevRef τ sig) : Mat F 16 1) (V (main_arg8 : DevRef τ sig) : Mat F 16 1)
    (V (main_arg1 : DevRef τ sig) : Mat F 4096 4096) (V (main_arg2 : DevRef τ sig) : Mat F 4096 4096)

/-- After the whole line the second layer's buffer holds `featArr` of the launch contents: the last piece leaves
    it alone, the fourth writes it from the second projection and four arguments, and so on down to the first. -/
theorem v49_eq (V : Valuation τ sig (Elt F)) : after ops V (main_v49 : DevRef τ sig) = featArr V := by
  rw [after_ops, T_v49, D_v49, C_v25, C_arg1, C_arg2, C_arg7, C_arg8, B_v24, B_arg1, B_arg2, B_arg6, B_arg7, B_arg8,
    A_v0, A_arg1, A_arg2, A_arg4, A_arg5, A_arg6, A_arg7, A_arg8]
  rfl

end Feat

/-! ## Read at an entry -/

section FeatApply

variable (V : Valuation τ sig (Elt Ideal))

theorem h1Arr_fun : (fun i k => h1Arr V (ix2 i k)) = mm (X V) (W1 V) :=
  funext fun i => funext fun k => mm_apply _ _ i k

theorem l1Arr_fun : (fun i c => l1Arr V (ix2 i c)) = layer (mm (X V) (W1 V)) (as1 V) (an1 V) (A V) (Mt V) :=
  funext fun i => funext fun c =>
    (layerArr_apply bcast_S_S4096x256 (h1Arr V) _ _ _ _ i c).trans (by rw [h1Arr_fun]; rfl)

theorem h2Arr_fun : (fun i k => h2Arr V (ix2 i k)) = mm (layer (mm (X V) (W1 V)) (as1 V) (an1 V) (A V) (Mt V)) (W2 V) :=
  funext fun i => funext fun k => (mm_apply (l1Arr V) _ i k).trans (by rw [l1Arr_fun]; rfl)

/-- The second layer's result at `(i, k)`: two attention layers of the specification, each on the features times
    its weight matrix. -/
theorem feat_apply (i : Fin 4096) (k : Fin 16) :
    (after ops V (main_v49 : DevRef τ sig) : Mat Ideal 4096 16) (ix2 i k)
      = layer (mm (layer (mm (X V) (W1 V)) (as1 V) (an1 V) (A V) (Mt V)) (W2 V)) (as2 V) (an2 V) (A V) (Mt V) i k := by
  rw [v49_eq]
  exact (layerArr_apply bcast_S_S4096x16 (h2Arr V) _ _ _ _ i k).trans (by rw [h2Arr_fun]; rfl)

end FeatApply

end Cert.ReferenceIdeal.RefValue

end
-- ==== Proof.RefTail.lean ====
/-
  The end of the reference program, read as a value. After the second attention layer's result `H` (4096 × 16) the
  reference brings every row of `H` to unit length — divides it by the larger of a small floor and the row's Euclidean
  length — and then takes the logistic of the Gram matrix of the normalised rows. The reference's line of operations
  is split after the operation that writes `H`: the fold over the whole line is the fold over the last operations
  from what the earlier ones leave, so the two result buffers are `unitArr` of `H` and `decArr` of the normalised
  array. Read at an entry, `unitArr H` at `(i, c)` is row `i` brought to unit length at column `c`, and `decArr Z` at
  `(i, j)` is the decoder on rows `i` and `j` of `Z`.
-/
import proofs.«144369_j73821897883963_1_alg».proof.Proof.RefRun
import proofs.«144369_j73821897883963_1_alg».proof.Proof.GatSpec
import proofs.«144369_j73821897883963_1_alg».proof.Proof.LibPlainDot
import proofs.«144369_j73821897883963_1_alg».proof.Proof.LibHostKeepdims
import proofs.«144369_j73821897883963_1_alg».proof.Proof.HostStretch
import Idealize.ShloMosaic.Lib.IdealHost
import Idealize.ShloMosaic.Lib.ValueLayout
import Idealize.ShloMosaic.Lib.StableHlo.Run

noncomputable section

open scoped BigOperators

namespace Cert.ReferenceIdeal.RefTail

open Cert.ReferenceIdeal Cert.ReferenceIdeal.Gen Cert.ReferenceIdeal.RefRun Cert.GatSpec
open Idealize.ShloMosaic Idealize.ShloMosaic.ValueIdx Idealize.ShloMosaic.StableHlo Idealize.ShloMosaic.TcCoe
open Idealize.SL.Sem

/-- Every row of `H` divided by the larger of the floor and its Euclidean length, as the reference's operations
    compute it: the squares, their sum along each row from zero, kept as a column, its square root, the larger of
    the floor's column and it, spread along the rows, the quotient. -/
def unitArr (H : FVec Ideal S4096x16 .f32) : FVec Ideal S4096x16 .f32 :=
  Host.divf H (broadcastInDim S4096x16 ![0, 1] bcast_S4096x1_S4096x16_0_1
    (maximumf (broadcastInDim S4096x1 ![] bcast_S_S4096x1 (constant S_ .f32 0x2B8CBCCC#32))
      (Host.sqrt (broadcastInDim S4096x1 ![0] bcast_S4096_S4096x1_0
        (Host.reduceAdd (mulf H H) (constant S_ .f32 0x00000000#32) reducesTo_S4096x16_S4096_d1 h_S_)))))

/-- The logistic of the Gram matrix of `Z`'s rows, as the reference's operations compute it: `Z` times its
    transpose, negated, the exponential, one added, one divided by that. -/
def decArr (Z : FVec Ideal S4096x16 .f32) : FVec Ideal S4096x4096 .f32 :=
  Host.divf (broadcastInDim S4096x4096 ![] bcast_S_S4096x4096 (constant S_ .f32 0x3F800000#32))
    (addf (broadcastInDim S4096x4096 ![] bcast_S_S4096x4096 (constant S_ .f32 0x3F800000#32))
      (Host.exp (Host.negf (Host.dotGeneral dot_S4096x16_S16x4096_S4096x4096_1_0_0_1_n_n none Z
        (transpose S16x4096 [1, 0] Z transposes_S4096x16_S16x4096_1_0)))))

/-- The operations after the second layer's result: the row norm, its clip, the division, and the logistic of the
    normalised rows' Gram matrix. -/
abbrev tailOps {F : FTy → Type} [FloatOps F] : List (HloOp τ sig (Elt F)) :=
  [
    TRef.binary (.of main_v49 : TRef sig ⟨S4096x16, .f32⟩) (.of main_v49 : TRef sig ⟨S4096x16, .f32⟩) main_call6.v0 mulf,
    TRef.nullary main_call6.cst (constant S_ .f32 0x00000000#32),
    TRef.binary main_call6.v0 main_call6.cst main_call6.v1 (fun x v => Host.reduceAdd x v reducesTo_S4096x16_S4096_d1 h_S_),
    TRef.unary main_call6.v1 main_call6.v2 (broadcastInDim S4096x1 ![0] bcast_S4096_S4096x1_0),
    TRef.unary main_call6.v2 main_call6.v3 Host.sqrt,
    nullary main_cst_11 (constant S_ .f32 0x2B8CBCCC#32),
    TRef.unary (.of main_cst_11 : TRef sig ⟨S_, .f32⟩) main_call7.v0 id,
    TRef.unary main_call7.v0 main_call7.v1 (broadcastInDim S4096x1 ![] bcast_S_S4096x1),
    TRef.binary main_call7.v1 (.of main_v50 : TRef sig ⟨S4096x1, .f32⟩) main_call7.v2 maximumf,
    unary main_v51 main_v52 (broadcastInDim S4096x16 ![0, 1] bcast_S4096x1_S4096x16_0_1 : (⟨S4096x1, .f32⟩ : BufTy).Contents (Elt F) → (⟨S4096x16, .f32⟩ : BufTy).Contents (Elt F)),
    binary main_v49 main_v52 main_v53 (Host.divf : (⟨S4096x16, .f32⟩ : BufTy).Contents (Elt F) → (⟨S4096x16, .f32⟩ : BufTy).Contents (Elt F) → (⟨S4096x16, .f32⟩ : BufTy).Contents (Elt F)),
    unary main_v53 main_v54 ((transpose S16x4096 [1, 0] · transposes_S4096x16_S16x4096_1_0) : (⟨S4096x16, .f32⟩ : BufTy).Contents (Elt F) → (⟨S16x4096, .f32⟩ : BufTy).Contents (Elt F)),
    binary main_v53 main_v54 main_v55 ((fun l r => Host.dotGeneral dot_S4096x16_S16x4096_S4096x4096_1_0_0_1_n_n none l r) : (⟨S4096x16, .f32⟩ : BufTy).Contents (Elt F) → (⟨S16x4096, .f32⟩ : BufTy).Contents (Elt F) → (⟨S4096x4096, .f32⟩ : BufTy).Contents (Elt F)),
    unary main_v55 main_v56 (Host.negf : (⟨S4096x4096, .f32⟩ : BufTy).Contents (Elt F) → (⟨S4096x4096, .f32⟩ : BufTy).Contents (Elt F)),
    unary main_v56 main_v57 (Host.exp : (⟨S4096x4096, .f32⟩ : BufTy).Contents (Elt F) → (⟨S4096x4096, .f32⟩ : BufTy).Contents (Elt F)),
    nullary main_cst_12 (constant S_ .f32 0x3F800000#32),
    unary main_cst_12 main_v58 (broadcastInDim S4096x4096 ![] bcast_S_S4096x4096 : (⟨S_, .f32⟩ : BufTy).Contents (Elt F) → (⟨S4096x4096, .f32⟩ : BufTy).Contents (Elt F)),
    binary main_v58 main_v57 main_v59 (addf : (⟨S4096x4096, .f32⟩ : BufTy).Contents (Elt F) → (⟨S4096x4096, .f32⟩ : BufTy).Contents (Elt F) → (⟨S4096x4096, .f32⟩ : BufTy).Contents (Elt F)),
    nullary main_cst_13 (constant S_ .f32 0x3F800000#32),
    unary main_cst_13 main_v60 (broadcastInDim S4096x4096 ![] bcast_S_S4096x4096 : (⟨S_, .f32⟩ : BufTy).Contents (Elt F) → (⟨S4096x4096, .f32⟩ : BufTy).Contents (Elt F)),
    binary main_v60 main_v59 main_v61 (Host.divf : (⟨S4096x4096, .f32⟩ : BufTy).Contents (Elt F) → (⟨S4096x4096, .f32⟩ : BufTy).Contents (Elt F) → (⟨S4096x4096, .f32⟩ : BufTy).Contents (Elt F)) ]

/-- The fold over two lines run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

set_option maxRecDepth 8192 in
/-- The reference's line is its first 106 operations followed by those. -/
theorem ops_split : (ops : List (HloOp τ sig (Elt Ideal))) = ops.take 106 ++ tailOps := by
  have h : (tailOps : List (HloOp τ sig (Elt Ideal))) = (ops : List (HloOp τ sig (Elt Ideal))).drop 106 := rfl
  rw [h]
  exact (List.take_append_drop 106 ops).symm

/-- So the fold over the whole line is the fold over those from what the first 106 leave. -/
theorem after_ops (V : Valuation τ sig (Elt Ideal)) :
    after ops V = after tailOps (after (ops.take 106) V) := by
  rw [← after_append, ← ops_split]

attribute [local irreducible] Host.reduce Host.reduceAdd in
set_option maxRecDepth 8192 in
/-- None of those operations writes the second layer's result. -/
theorem tail_v49 (W : Valuation τ sig (Elt Ideal)) :
    after tailOps W (main_v49 : DevRef τ sig) = W (main_v49 : DevRef τ sig) := by
  simp only [after_cons, after_nil]
  rfl

attribute [local irreducible] Host.reduce Host.reduceAdd in
set_option maxRecDepth 8192 in
/-- They leave, in the normalised array's buffer, `unitArr` of the second layer's result. -/
theorem tail_v53 (W : Valuation τ sig (Elt Ideal)) :
    after tailOps W (main_v53 : DevRef τ sig) = unitArr (W (main_v49 : DevRef τ sig)) := by
  simp only [after_cons, after_nil]
  rfl

attribute [local irreducible] Host.reduce Host.reduceAdd in
set_option maxRecDepth 8192 in
/-- They leave, in the predicted adjacency's buffer, `decArr` of what they leave in the normalised array's. -/
theorem tail_v61 (W : Valuation τ sig (Elt Ideal)) :
    after tailOps W (main_v61 : DevRef τ sig) = decArr (after tailOps W (main_v53 : DevRef τ sig)) := by
  simp only [after_cons, after_nil]
  rfl

/-- The normalised array is `unitArr` of the second layer's result. -/
theorem v53_of_v49 (V : Valuation τ sig (Elt Ideal)) :
    after ops V (main_v53 : DevRef τ sig) = unitArr (after ops V (main_v49 : DevRef τ sig)) := by
  rw [after_ops, tail_v53, tail_v49]

/-- The predicted adjacency is `decArr` of the normalised array. -/
theorem v61_of_v53 (V : Valuation τ sig (Elt Ideal)) :
    after ops V (main_v61 : DevRef τ sig) = decArr (after ops V (main_v53 : DevRef τ sig)) := by
  rw [after_ops, tail_v61]

/-- The reference's normalisation is the same term as the kernel's host stretch: the two programs print the same
    operations over the same literal shapes, and their side conditions are propositions. -/
theorem unitArr_eq (H : FVec Ideal S4096x16 .f32) : unitArr H = Cert.KernelIdeal.HostStretch.unitRows H := rfl

/-- Entry `(i, c)` of the normalised array: row `i` brought to unit length, at column `c`. -/
theorem unitArr_apply (H : FVec Ideal S4096x16 .f32) (i : Fin 4096) (c : Fin 16) :
    unitArr H (ix2 i c) = unitRow (fun k : Fin 16 => H (ix2 i k)) c :=
  (congrFun (unitArr_eq H) (ix2 i c)).trans (Cert.KernelIdeal.HostStretch.unitRows_apply H i c)

/-- The Gram matrix at `(i, j)`: the inner product of rows `i` and `j` (the transposed operand read at the swapped index). -/
theorem gram_apply (Z : FVec Ideal S4096x16 .f32) (i j : Fin 4096) :
    Host.dotGeneral dot_S4096x16_S16x4096_S4096x4096_1_0_0_1_n_n none Z
        (transpose S16x4096 [1, 0] Z transposes_S4096x16_S16x4096_1_0) (ix2 i j)
      = ∑ k : Fin 16, Z (ix2 i k) * Z (ix2 j k) := by
  refine (Cert.Lib.PlainDot.dotGeneral_apply (M := 4096) (K := 16) (N := 4096) none .single Z
    (transpose S16x4096 [1, 0] Z transposes_S4096x16_S16x4096_1_0) i j).trans ?_
  refine Finset.sum_congr rfl fun k _ => ?_
  rw [transpose_ix2_apply]

/-- Entry `(i, j)` of the predicted adjacency: the decoder on rows `i` and `j` (the negation is the subtraction from
    the zero word). -/
theorem decArr_apply (Z : FVec Ideal S4096x16 .f32) (i j : Fin 4096) :
    decArr Z (ix2 i j) = decode (fun k : Fin 16 => Z (ix2 i k)) (fun k : Fin 16 => Z (ix2 j k)) := by
  have h1 : broadcastInDim S4096x4096 ![] bcast_S_S4096x4096 (constant (F := Ideal) S_ .f32 0x3F800000#32) (ix2 i j) = wOne :=
    broadcastInDim_scalar_apply bcast_S_S4096x4096 _ _
  unfold decArr decode
  exact congrArg₂ Ideal.div h1
    (congrArg₂ (· + ·) h1 (congrArg Ideal.exp ((congrArg Neg.neg (gram_apply Z i j)).trans (zero_sub_eq _).symm)))

end Cert.ReferenceIdeal.RefTail

end
-- ==== Proof.lean ====
/-
  Two implementations of a two-layer graph-attention auto-encoder — node features through two attention layers, each row
  brought to unit length, and the logistic of every pair of rows' inner product as the predicted adjacency — compute
  the same two results on the extended reals.

  The kernel tiles the work: each matrix product and each attention layer over row blocks of the nodes, the decoder
  over square blocks of the node pairs; the reference computes every stage on whole arrays. On the extended reals a
  tile of a stage is the same rows of the whole stage: every matrix product is the plain sum over the contracted axis
  on both sides, a row's softmax needs only that row, and a change of float format is the identity. Two stages are
  spelt differently and agree on every extended real: the leaky rectifier tests "positive" on one side and
  "non-negative" on the other (they differ only at zero, where both give zero), and the exponential linear unit is
  `exp x - 1` on one side and `1 · (exp x' - 1)`, `x'` the argument where it is not positive, on the other. No law used
  needs the inputs to be finite, so the precondition is not opened.

  Each program's run gives its results as functions of its launch contents; both are read, entry by entry, as the
  specification's `embed` and `pred` (GatSpec) of the argument arrays, which agree.
-/
import proofs.«144369_j73821897883963_1_alg».proof.Defs
import proofs.«144369_j73821897883963_1_alg».proof.Proof.Gen.Kernel
import proofs.«144369_j73821897883963_1_alg».proof.Proof.Gen.Kernel.Frame
import proofs.«144369_j73821897883963_1_alg».proof.Proof.Gen.KernelIdeal
import proofs.«144369_j73821897883963_1_alg».proof.Proof.Gen.KernelIdeal.Frame
import proofs.«144369_j73821897883963_1_alg».proof.Proof.Gen.ReferenceIdeal
import proofs.«144369_j73821897883963_1_alg».proof.Proof.Gen.Pre_finite_inputs
import proofs.«144369_j73821897883963_1_alg».proof.Proof.KernelRun
import proofs.«144369_j73821897883963_1_alg».proof.Proof.KernelFinal
import proofs.«144369_j73821897883963_1_alg».proof.Proof.RefRun
import proofs.«144369_j73821897883963_1_alg».proof.Proof.RefValue
import proofs.«144369_j73821897883963_1_alg».proof.Proof.RefTail
import Idealize.ShloMosaic.Lib.ValueIdx
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.ShloMosaic.StableHlo Idealize.SL.Sem
open Cert.GatSpec

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run read at the argument buffers, which
    no operation writes. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _)⟩)
    (Cert.ReferenceIdeal.RefRun.run_main (F := Ideal) m ρ)

/-- The idealization rewrote nothing: there is nothing to preserve. -/
theorem preserves : Cert.preserves_Kernel_KernelIdeal := trivial

/-! ## The reference's two results, entry by entry -/

section Reference

open Cert.ReferenceIdeal Cert.ReferenceIdeal.RefRun Cert.ReferenceIdeal.RefValue

variable (V : Valuation Cert.ReferenceIdeal.τ Cert.ReferenceIdeal.sig (Elt Ideal))

/-- The reference's embedding: the unit rows of its second layer's features. -/
theorem ref_z (i : Fin 4096) (q : Fin 16) :
    (after ops V (main_v53 : DevRef Cert.ReferenceIdeal.τ Cert.ReferenceIdeal.sig) : Cert.ReferenceIdeal.S4096x16.Idx → EReal) (ix2 i q)
      = embed (X V) (A V) (Mt V) (W1 V) (as1 V) (an1 V) (W2 V) (as2 V) (an2 V) i q := by
  rw [Cert.ReferenceIdeal.RefTail.v53_of_v49, Cert.ReferenceIdeal.RefTail.unitArr_apply]
  exact congrArg (fun hrow => unitRow hrow q) (funext fun k => feat_apply V i k)

/-- The reference's predicted adjacency: the decoder on every pair of embedded rows. -/
theorem ref_pred (i j : Fin 4096) :
    (after ops V (main_v61 : DevRef Cert.ReferenceIdeal.τ Cert.ReferenceIdeal.sig) : Cert.ReferenceIdeal.S4096x4096.Idx → EReal) (ix2 i j)
      = pred (X V) (A V) (Mt V) (W1 V) (as1 V) (an1 V) (W2 V) (as2 V) (an2 V) i j := by
  rw [Cert.ReferenceIdeal.RefTail.v61_of_v53, Cert.ReferenceIdeal.RefTail.decArr_apply]
  exact congrArg₂ decode (funext fun k => ref_z V i k) (funext fun k => ref_z V j k)

end Reference

/-! ## The two programs' results agree -/

/-- From memories that agree on the nine arguments both programs run, and each result of the reference is, entry by
    entry, the specification's function of its arguments — which is what the kernel's run leaves, the arguments being
    the same arrays. -/
theorem algebraic : Cert.algebraic_KernelIdeal_ReferenceIdeal := by
  intro m ρ m' ρ' _ hagree
  refine ⟨fun c => Cert.KernelIdeal.Gen.W9 m ρ c (Proc.devRef .tc Cert.KernelIdeal.main_v8),
    fun c => Cert.KernelIdeal.Gen.W9 m ρ c (Proc.devRef .tc Cert.KernelIdeal.main_v7),
    Cert.KernelIdeal.NamedRun.run_named (F := Ideal) m ρ, ?_⟩
  refine (θ_run Cert.ReferenceIdeal.defs _ _).mono (fun r h c => ?_) (Cert.ReferenceIdeal.RefRun.run_main (F := Ideal) m' ρ')
  obtain ⟨a0, a1, a2, a3, a4, a5, a6, a7, a8⟩ := hagree c
  -- the reference's argument arrays, as the specification reads them, are the kernel's
  have e0 : Cert.ReferenceIdeal.RefValue.X (launchContents m' c) = fun a q => Cert.KernelIdeal.Chain.inX m c (ix2 a q) :=
    funext fun a => funext fun q => congrFun a0 (ix2 a q)
  have e1 : Cert.ReferenceIdeal.RefValue.A (launchContents m' c) = fun a b => Cert.KernelIdeal.Chain.inAdj m c (ix2 a b) :=
    funext fun a => funext fun b => congrFun a1 (ix2 a b)
  have e2 : Cert.ReferenceIdeal.RefValue.Mt (launchContents m' c) = fun a b => Cert.KernelIdeal.Chain.inM m c (ix2 a b) :=
    funext fun a => funext fun b => congrFun a2 (ix2 a b)
  have e3 : Cert.ReferenceIdeal.RefValue.W1 (launchContents m' c) = fun q b => Cert.KernelIdeal.Chain.inW1 m c (ix2 q b) :=
    funext fun q => funext fun b => congrFun a3 (ix2 q b)
  have e4 : Cert.ReferenceIdeal.RefValue.as1 (launchContents m' c) = fun k => Cert.KernelIdeal.Chain.inAs1 m c (ix2 k (0 : Fin 1)) :=
    funext fun k => congrFun a4 (ix2 k (0 : Fin 1))
  have e5 : Cert.ReferenceIdeal.RefValue.an1 (launchContents m' c) = fun k => Cert.KernelIdeal.Chain.inAn1 m c (ix2 k (0 : Fin 1)) :=
    funext fun k => congrFun a5 (ix2 k (0 : Fin 1))
  have e6 : Cert.ReferenceIdeal.RefValue.W2 (launchContents m' c) = fun q b => Cert.KernelIdeal.Chain.inW2 m c (ix2 q b) :=
    funext fun q => funext fun b => congrFun a6 (ix2 q b)
  have e7 : Cert.ReferenceIdeal.RefValue.as2 (launchContents m' c) = fun k => Cert.KernelIdeal.Chain.inAs2 m c (ix2 k (0 : Fin 1)) :=
    funext fun k => congrFun a7 (ix2 k (0 : Fin 1))
  have e8 : Cert.ReferenceIdeal.RefValue.an2 (launchContents m' c) = fun k => Cert.KernelIdeal.Chain.inAn2 m c (ix2 k (0 : Fin 1)) :=
    funext fun k => congrFun a8 (ix2 k (0 : Fin 1))
  refine ⟨(h c Cert.ReferenceIdeal.main_v61).trans ?_, (h c Cert.ReferenceIdeal.main_v53).trans ?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _)⟩
  · funext idx
    obtain ⟨i, j, rfl⟩ : ∃ (i : Fin 4096) (j : Fin 4096), idx = ix2 i j := ⟨idx 0, idx 1, eq_ix2 idx⟩
    refine (ref_pred (launchContents m' c) i j).trans (Eq.trans ?_ (Cert.KernelIdeal.Final.v8_apply m ρ c i j).symm)
    rw [e0, e1, e2, e3, e4, e5, e6, e7, e8]
    rfl
  · funext idx
    obtain ⟨i, q, rfl⟩ : ∃ (i : Fin 4096) (q : Fin 16), idx = ix2 i q := ⟨idx 0, idx 1, eq_ix2 idx⟩
    refine (ref_z (launchContents m' c) i q).trans (Eq.trans ?_ (Cert.KernelIdeal.Final.v7_apply m ρ c i q).symm)
    rw [e0, e1, e2, e3, e4, e5, e6, e7, e8]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
